-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x12 : Shape := ⟨2, ![128, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x8 : Shape := ⟨2, ![4, 8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_
  bcast_S_S12x10 : S_.BroadcastsInDim S12x10 (![] : Fin 0 → Fin S12x10.rank)
  reducesTo_S12x10_S_d0_1 : S12x10.ReducesTo [0, 1] S_
  bcast_S_S10 : S_.BroadcastsInDim S10 (![] : Fin 0 → Fin S10.rank)
  reducesTo_S10_S_d0 : S10.ReducesTo [0] S_
  bcast_S_S10x8 : S_.BroadcastsInDim S10x8 (![] : Fin 0 → Fin S10x8.rank)
  reducesTo_S10x8_S_d0_1 : S10x8.ReducesTo [0, 1] S_
  bcast_S_S8 : S_.BroadcastsInDim S8 (![] : Fin 0 → Fin S8.rank)
  reducesTo_S8_S_d0 : S8.ReducesTo [0] S_
  bcast_S_S8x6 : S_.BroadcastsInDim S8x6 (![] : Fin 0 → Fin S8x6.rank)
  reducesTo_S8x6_S_d0_1 : S8x6.ReducesTo [0, 1] S_
  bcast_S_S6 : S_.BroadcastsInDim S6 (![] : Fin 0 → Fin S6.rank)
  reducesTo_S6_S_d0 : S6.ReducesTo [0] S_
  bcast_S_S6x4 : S_.BroadcastsInDim S6x4 (![] : Fin 0 → Fin S6x4.rank)
  reducesTo_S6x4_S_d0_1 : S6x4.ReducesTo [0, 1] S_
  bcast_S_S4 : S_.BroadcastsInDim S4 (![] : Fin 0 → Fin S4.rank)
  reducesTo_S4_S_d0 : S4.ReducesTo [0] S_
  bcast_S_S4x8 : S_.BroadcastsInDim S4x8 (![] : Fin 0 → Fin S4x8.rank)
  reducesTo_S4x8_S_d0_1 : S4x8.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4 .f32) (main_arg12 : FVec F S4x8 .f32) (main_arg13 : FVec F S8 .f32) (main_v48 : IVec S_ 1) (main_v49 : FVec F S6x4 .f32) (main_v50 : FVec F S6x4 .f32) : IVec S_ 1 :=
  let main_v51 : IVec S6x4 1 := cmpf .olt main_v49 main_v50
  let main_c_19 : IVec S_ 1 := constantI S_ 1 1#1
  let main_v52 : IVec S_ 1 := (fun x v => Host.reduce IntOp.andi x v reducesTo_S6x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S4x8 .f32 := Host.absf main_arg12
  let main_cst_22 : FVec F S_ .f32 := constant S_ .f32 0x7F800000#32
  let main_v60 : FVec F S4x8 .f32 := broadcastInDim S4x8 ![] bcast_S_S4x8 main_cst_22
  let main_v61 : IVec S4x8 1 := cmpf .olt main_v59 main_v60
  let main_c_23 : IVec S_ 1 := constantI S_ 1 1#1
  let main_v62 : IVec S_ 1 := (fun x v => Host.reduce IntOp.andi x v reducesTo_S4x8_S_d0_1 h_S_) main_v61 main_c_23
  let main_v63 : IVec S_ 1 := andi main_v58 main_v62
  let main_v64 : FVec F S8 .f32 := Host.absf main_arg13
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_v63 main_v67

def fn_part2 {F : FTy → Type} [FloatOps F] (main_arg7 : FVec F S8 .f32) (main_arg8 : FVec F S8x6 .f32) (main_arg9 : FVec F S6 .f32) (main_arg10 : FVec F S6x4 .f32) (main_arg11 : FVec F S4 .f32) (main_arg12 : FVec F S4x8 .f32) (main_arg13 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x6 .f32 := Host.absf main_arg8
  let main_cst_14 : FVec F S_ .f32 := constant S_ .f32 0x7F800000#32
  let main_v40 : FVec F S8x6 .f32 := broadcastInDim S8x6 ![] bcast_S_S8x6 main_cst_14
  let main_v41 : IVec S8x6 1 := cmpf .olt main_v39 main_v40
  let main_c_15 : IVec S_ 1 := constantI S_ 1 1#1
  let main_v42 : IVec S_ 1 := (fun x v => Host.reduce IntOp.andi x v reducesTo_S8x6_S_d0_1 h_S_) main_v41 main_c_15
  let main_v43 : IVec S_ 1 := andi main_v38 main_v42
  let main_v44 : FVec F S6 .f32 := Host.absf main_arg9
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  let main_v49 : FVec F S6x4 .f32 := Host.absf main_arg10
  let main_cst_18 : FVec F S_ .f32 := constant S_ .f32 0x7F800000#32
  let main_v50 : FVec F S6x4 .f32 := broadcastInDim S6x4 ![] bcast_S_S6x4 main_cst_18
  fn_part3 (F := F) main_arg11 main_arg12 main_arg13 main_v48 main_v49 main_v50

def fn_part1 {F : FTy → Type} [FloatOps F] (main_arg4 : FVec F S12x10 .f32) (main_arg5 : FVec F S10 .f32) (main_arg6 : FVec F S10x8 .f32) (main_arg7 : FVec F S8 .f32) (main_arg8 : FVec F S8x6 .f32) (main_arg9 : FVec F S6 .f32) (main_arg10 : FVec F S6x4 .f32) (main_arg11 : FVec F S4 .f32) (main_arg12 : FVec F S4x8 .f32) (main_arg13 : FVec F S8 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S12x10 .f32 := Host.absf main_arg4
  let main_cst_6 : FVec F S_ .f32 := constant S_ .f32 0x7F800000#32
  let main_v20 : FVec F S12x10 .f32 := broadcastInDim S12x10 ![] bcast_S_S12x10 main_cst_6
  let main_v21 : IVec S12x10 1 := cmpf .olt main_v19 main_v20
  let main_c_7 : IVec S_ 1 := constantI S_ 1 1#1
  let main_v22 : IVec S_ 1 := (fun x v => Host.reduce IntOp.andi x v reducesTo_S12x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x8 .f32 := Host.absf main_arg6
  let main_cst_10 : FVec F S_ .f32 := constant S_ .f32 0x7F800000#32
  let main_v30 : FVec F S10x8 .f32 := broadcastInDim S10x8 ![] bcast_S_S10x8 main_cst_10
  let main_v31 : IVec S10x8 1 := cmpf .olt main_v29 main_v30
  let main_c_11 : IVec S_ 1 := constantI S_ 1 1#1
  let main_v32 : IVec S_ 1 := (fun x v => Host.reduce IntOp.andi x v reducesTo_S10x8_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S128x12 .f32) (main_arg3 : FVec F S12 .f32) (main_arg4 : FVec F S12x10 .f32) (main_arg5 : FVec F S10 .f32) (main_arg6 : FVec F S10x8 .f32) (main_arg7 : FVec F S8 .f32) (main_arg8 : FVec F S8x6 .f32) (main_arg9 : FVec F S6 .f32) (main_arg10 : FVec F S6x4 .f32) (main_arg11 : FVec F S4 .f32) (main_arg12 : FVec F S4x8 .f32) (main_arg13 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x12 .f32 := Host.absf main_arg2
  let main_cst_2 : FVec F S_ .f32 := constant S_ .f32 0x7F800000#32
  let main_v10 : FVec F S128x12 .f32 := broadcastInDim S128x12 ![] bcast_S_S128x12 main_cst_2
  let main_v11 : IVec S128x12 1 := cmpf .olt main_v9 main_v10
  let main_c_3 : IVec S_ 1 := constantI S_ 1 1#1
  let main_v12 : IVec S_ 1 := (fun x v => Host.reduce IntOp.andi x v reducesTo_S128x12_S_d0_1 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x12 : Shape := ⟨2, ![128, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x8 : Shape := ⟨2, ![4, 8]⟩
abbrev S1x12 : Shape := ⟨2, ![1, 12]⟩
abbrev S1x10 : Shape := ⟨2, ![1, 10]⟩
abbrev S1x8 : Shape := ⟨2, ![1, 8]⟩
abbrev S1x6 : Shape := ⟨2, ![1, 6]⟩
abbrev S1x4 : Shape := ⟨2, ![1, 4]⟩
abbrev S128x8 : Shape := ⟨2, ![128, 8]⟩
abbrev S6x8 : Shape := ⟨2, ![6, 8]⟩
abbrev S8x8 : Shape := ⟨2, ![8, 8]⟩
abbrev S12x8 : Shape := ⟨2, ![12, 8]⟩
abbrev S10000x8 : Shape := ⟨2, ![10000, 8]⟩
abbrev S400x10000 : Shape := ⟨2, ![400, 10000]⟩
abbrev S400x8 : Shape := ⟨2, ![400, 8]⟩
abbrev S400x128 : Shape := ⟨2, ![400, 128]⟩

abbrev nBuf : Space → Nat
  | .hbm => 33
  | .vmem => 56
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x12, .f32⟩
  | .hbm, ⟨3, _⟩ => ⟨S12, .f32⟩
  | .hbm, ⟨4, _⟩ => ⟨S12x10, .f32⟩
  | .hbm, ⟨5, _⟩ => ⟨S10, .f32⟩
  | .hbm, ⟨6, _⟩ => ⟨S10x8, .f32⟩
  | .hbm, ⟨7, _⟩ => ⟨S8, .f32⟩
  | .hbm, ⟨8, _⟩ => ⟨S8x6, .f32⟩
  | .hbm, ⟨9, _⟩ => ⟨S6, .f32⟩
  | .hbm, ⟨10, _⟩ => ⟨S6x4, .f32⟩
  | .hbm, ⟨11, _⟩ => ⟨S4, .f32⟩
  | .hbm, ⟨12, _⟩ => ⟨S4x8, .f32⟩
  | .hbm, ⟨13, _⟩ => ⟨S8, .f32⟩
  | .hbm, ⟨14, _⟩ => ⟨S1x12, .f32⟩
  | .hbm, ⟨15, _⟩ => ⟨S1x10, .f32⟩
  | .hbm, ⟨16, _⟩ => ⟨S1x8, .f32⟩
  | .hbm, ⟨17, _⟩ => ⟨S1x6, .f32⟩
  | .hbm, ⟨18, _⟩ => ⟨S1x4, .f32⟩
  | .hbm, ⟨19, _⟩ => ⟨S1x8, .f32⟩
  | .hbm, ⟨20, _⟩ => ⟨S128x8, .f32⟩
  | .hbm, ⟨21, _⟩ => ⟨S1x8, .f32⟩
  | .hbm, ⟨22, _⟩ => ⟨S1x8, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S1x8, .f32⟩
  | .hbm, ⟨27, _⟩ => ⟨S10000x8, .f32⟩
  | .hbm, ⟨28, _⟩ => ⟨S10000x8, .f32⟩
  | .hbm, ⟨29, _⟩ => ⟨S10000x8, .f32⟩
  | .hbm, ⟨30, _⟩ => ⟨S10000x8, .f32⟩
  | .hbm, ⟨31, _⟩ => ⟨S10000x8, .f32⟩
  | .hbm, ⟨32, _⟩ => ⟨S10000x8, .f32⟩
  | .local _ .vmem, ⟨0, _⟩ => ⟨S128x12, .f32⟩
  | .local _ .vmem, ⟨1, _⟩ => ⟨S12x10, .f32⟩
  | .local _ .vmem, ⟨2, _⟩ => ⟨S10x8, .f32⟩
  | .local _ .vmem, ⟨3, _⟩ => ⟨S8x6, .f32⟩
  | .local _ .vmem, ⟨4, _⟩ => ⟨S6x4, .f32⟩
  | .local _ .vmem, ⟨5, _⟩ => ⟨S4x8, .f32⟩
  | .local _ .vmem, ⟨6, _⟩ => ⟨S1x12, .f32⟩
  | .local _ .vmem, ⟨7, _⟩ => ⟨S1x10, .f32⟩
  | .local _ .vmem, ⟨8, _⟩ => ⟨S1x8, .f32⟩
  | .local _ .vmem, ⟨9, _⟩ => ⟨S1x6, .f32⟩
  | .local _ .vmem, ⟨10, _⟩ => ⟨S1x4, .f32⟩
  | .local _ .vmem, ⟨11, _⟩ => ⟨S1x8, .f32⟩
  | .local _ .vmem, ⟨12, _⟩ => ⟨S128x8, .f32⟩
  | .local _ .vmem, ⟨13, _⟩ => ⟨S1x8, .f32⟩
  | .local _ .vmem, ⟨14, _⟩ => ⟨S1x8, .f32⟩
  | .local _ .vmem, ⟨15, _⟩ => ⟨S1x8, .f32⟩
  | .local _ .vmem, ⟨16, _⟩ => ⟨S1x8, .f32⟩
  | .local _ .vmem, ⟨17, _⟩ => ⟨S1x8, .f32⟩
  | .local _ .vmem, ⟨18, _⟩ => ⟨S1x8, .f32⟩
  | .local _ .vmem, ⟨19, _⟩ => ⟨S400x10000, .f32⟩
  | .local _ .vmem, ⟨20, _⟩ => ⟨S400x10000, .f32⟩
  | .local _ .vmem, ⟨21, _⟩ => ⟨S10000x128, .f32⟩
  | .local _ .vmem, ⟨22, _⟩ => ⟨S128x8, .f32⟩
  | .local _ .vmem, ⟨23, _⟩ => ⟨S1x8, .f32⟩
  | .local _ .vmem, ⟨24, _⟩ => ⟨S400x8, .f32⟩
  | .local _ .vmem, ⟨25, _⟩ => ⟨S400x8, .f32⟩
  | .local _ .vmem, ⟨26, _⟩ => ⟨S400x10000, .f32⟩
  | .local _ .vmem, ⟨27, _⟩ => ⟨S400x10000, .f32⟩
  | .local _ .vmem, ⟨28, _⟩ => ⟨S10000x8, .f32⟩
  | .local _ .vmem, ⟨29, _⟩ => ⟨S1x8, .f32⟩
  | .local _ .vmem, ⟨30, _⟩ => ⟨S400x8, .f32⟩
  | .local _ .vmem, ⟨31, _⟩ => ⟨S400x8, .f32⟩
  | .local _ .vmem, ⟨32, _⟩ => ⟨S400x10000, .f32⟩
  | .local _ .vmem, ⟨33, _⟩ => ⟨S400x10000, .f32⟩
  | .local _ .vmem, ⟨34, _⟩ => ⟨S10000x8, .f32⟩
  | .local _ .vmem, ⟨35, _⟩ => ⟨S1x8, .f32⟩
  | .local _ .vmem, ⟨36, _⟩ => ⟨S400x8, .f32⟩
  | .local _ .vmem, ⟨37, _⟩ => ⟨S400x8, .f32⟩
  | .local _ .vmem, ⟨38, _⟩ => ⟨S400x10000, .f32⟩
  | .local _ .vmem, ⟨39, _⟩ => ⟨S400x10000, .f32⟩
  | .local _ .vmem, ⟨40, _⟩ => ⟨S10000x8, .f32⟩
  | .local _ .vmem, ⟨41, _⟩ => ⟨S1x8, .f32⟩
  | .local _ .vmem, ⟨42, _⟩ => ⟨S400x8, .f32⟩
  | .local _ .vmem, ⟨43, _⟩ => ⟨S400x8, .f32⟩
  | .local _ .vmem, ⟨44, _⟩ => ⟨S400x10000, .f32⟩
  | .local _ .vmem, ⟨45, _⟩ => ⟨S400x10000, .f32⟩
  | .local _ .vmem, ⟨46, _⟩ => ⟨S10000x8, .f32⟩
  | .local _ .vmem, ⟨47, _⟩ => ⟨S1x8, .f32⟩
  | .local _ .vmem, ⟨48, _⟩ => ⟨S400x8, .f32⟩
  | .local _ .vmem, ⟨49, _⟩ => ⟨S400x8, .f32⟩
  | .local _ .vmem, ⟨50, _⟩ => ⟨S400x10000, .f32⟩
  | .local _ .vmem, ⟨51, _⟩ => ⟨S400x10000, .f32⟩
  | .local _ .vmem, ⟨52, _⟩ => ⟨S10000x8, .f32⟩
  | .local _ .vmem, ⟨53, _⟩ => ⟨S1x8, .f32⟩
  | .local _ .vmem, ⟨54, _⟩ => ⟨S400x8, .f32⟩
  | .local _ .vmem, ⟨55, _⟩ => ⟨S400x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev main_v6_3 : Ref sig .tc := ⟨.hbm, 23, rfl⟩
abbrev main_v6_4 : Ref sig .tc := ⟨.hbm, 24, rfl⟩
abbrev main_v6_5 : Ref sig .tc := ⟨.hbm, 25, rfl⟩
abbrev main_v6_6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg3_1 : Ref sig .tc := ⟨.vmem, 55, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem4_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem3_1 : DmaSem sig := 55

abbrev nD : Nat := 1
abbrev τ : Topo := Topo.v7x

variable {F : FTy → Type} [FloatOps F]

abbrev grid0 : Pipeline.Grid := .none

abbrev stage0_0 : Fin 1 → Memref sig .tc .vmem S128x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S400x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x8 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x8 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S400x8 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  shapeCasts_S12_S1x12 : S12.ShapeCasts S1x12
  shapeCasts_S10_S1x10 : S10.ShapeCasts S1x10
  shapeCasts_S8_S1x8 : S8.ShapeCasts S1x8
  shapeCasts_S6_S1x6 : S6.ShapeCasts S1x6
  shapeCasts_S4_S1x4 : S4.ShapeCasts S1x4
  inb_S4x8_S4x8_0_0 : ∀ a, (![0, 0] : Fin 2 → Nat) a + S4x8.size a ≤ S4x8.size a
  h_S4x8 : 0 < S4x8.numel
  inb_S6x4_S6x4_0_0 : ∀ a, (![0, 0] : Fin 2 → Nat) a + S6x4.size a ≤ S6x4.size a
  h_S6x4 : 0 < S6x4.numel
  inb_S8x6_S8x6_0_0 : ∀ a, (![0, 0] : Fin 2 → Nat) a + S8x6.size a ≤ S8x6.size a
  h_S8x6 : 0 < S8x6.numel
  inb_S10x8_S10x8_0_0 : ∀ a, (![0, 0] : Fin 2 → Nat) a + S10x8.size a ≤ S10x8.size a
  h_S10x8 : 0 < S10x8.numel
  inb_S12x10_S12x10_0_0 : ∀ a, (![0, 0] : Fin 2 → Nat) a + S12x10.size a ≤ S12x10.size a
  h_S12x10 : 0 < S12x10.numel
  inb_S128x12_S128x12_0_0 : ∀ a, (![0, 0] : Fin 2 → Nat) a + S128x12.size a ≤ S128x12.size a
  h_S128x12 : 0 < S128x12.numel
  inb_S128x8_S128x8_0_0 : ∀ a, (![0, 0] : Fin 2 → Nat) a + S128x8.size a ≤ S128x8.size a
  h_S128x8 : 0 < S128x8.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  inb_S1x8_S1x8_0_0 : ∀ a, (![0, 0] : Fin 2 → Nat) a + S1x8.size a ≤ S1x8.size a
  h_S1x8 : 0 < S1x8.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  shapeCasts_S1x8_S1x8 : S1x8.ShapeCasts S1x8
  inb_S1x6_S1x6_0_0 : ∀ a, (![0, 0] : Fin 2 → Nat) a + S1x6.size a ≤ S1x6.size a
  h_S1x6 : 0 < S1x6.numel
  shapeCasts_S1x6_S1x6 : S1x6.ShapeCasts S1x6
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S128x8_S128x8 : S128x8.ShapeCasts S128x8
  broadcasts_S1x8_S400x8 : S1x8.Broadcasts S400x8
  inb_S400x8_S400x8_0_0 : ∀ a, (![0, 0] : Fin 2 → Nat) a + S400x8.size a ≤ S400x8.size a
  h_S400x8 : 0 < S400x8.numel
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  dot_S6x4_S4x8_S6x8_1_0_0_1_n_n_wf : DotDims.WF S6x4 S4x8 S6x8 [1] [0] [0] [1] [] []
  dot_S8x6_S6x8_S8x8_1_0_0_1_n_n_wf : DotDims.WF S8x6 S6x8 S8x8 [1] [0] [0] [1] [] []
  dot_S10x8_S8x8_S10x8_1_0_0_1_n_n_wf : DotDims.WF S10x8 S8x8 S10x8 [1] [0] [0] [1] [] []
  dot_S12x10_S10x8_S12x8_1_0_0_1_n_n_wf : DotDims.WF S12x10 S10x8 S12x8 [1] [0] [0] [1] [] []
  dot_S128x12_S12x8_S128x8_1_0_0_1_n_n_wf : DotDims.WF S128x12 S12x8 S128x8 [1] [0] [0] [1] [] []
  dot_S1x12_S12x8_S1x8_1_0_0_1_n_n_wf : DotDims.WF S1x12 S12x8 S1x8 [1] [0] [0] [1] [] []
  dot_S1x10_S10x8_S1x8_1_0_0_1_n_n_wf : DotDims.WF S1x10 S10x8 S1x8 [1] [0] [0] [1] [] []
  dot_S1x8_S8x8_S1x8_1_0_0_1_n_n_wf : DotDims.WF S1x8 S8x8 S1x8 [1] [0] [0] [1] [] []
  dot_S1x6_S6x8_S1x8_1_0_0_1_n_n_wf : DotDims.WF S1x6 S6x8 S1x8 [1] [0] [0] [1] [] []
  dot_S1x4_S4x8_S1x8_1_0_0_1_n_n_wf : DotDims.WF S1x4 S4x8 S1x8 [1] [0] [0] [1] [] []
  dot_S400x10000_S10000x128_S400x128_1_0_0_1_n_n_wf : DotDims.WF S400x10000 S10000x128 S400x128 [1] [0] [0] [1] [] []
  dot_S400x128_S128x8_S400x8_1_0_0_1_n_n_wf : DotDims.WF S400x128 S128x8 S400x8 [1] [0] [0] [1] [] []
  dot_S400x10000_S10000x8_S400x8_1_0_0_1_n_n_wf : DotDims.WF S400x10000 S10000x8 S400x8 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x8.size a ≤ S128x8.size a
  hwx1_2 : ∀ i : grid1.Coords, EltTy.bits .f32 = 32 ∨ (Rect.block (s := S128x8) S128x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x8.size a ≤ S10000x8.size a
  hwx1_4 : ∀ i : grid1.Coords, EltTy.bits .f32 = 32 ∨ (Rect.block (s := S10000x8) S400x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x8.size a ≤ S10000x8.size a
  hwx2_1 : ∀ i : grid2.Coords, EltTy.bits .f32 = 32 ∨ (Rect.block (s := S10000x8) S10000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x8.size a ≤ S10000x8.size a
  hwx2_3 : ∀ i : grid2.Coords, EltTy.bits .f32 = 32 ∨ (Rect.block (s := S10000x8) S400x8.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x8.size a ≤ S10000x8.size a
  hwx3_1 : ∀ i : grid3.Coords, EltTy.bits .f32 = 32 ∨ (Rect.block (s := S10000x8) S10000x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x8.size a ≤ S10000x8.size a
  hwx3_3 : ∀ i : grid3.Coords, EltTy.bits .f32 = 32 ∨ (Rect.block (s := S10000x8) S400x8.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x8.size a ≤ S10000x8.size a
  hwx4_1 : ∀ i : grid4.Coords, EltTy.bits .f32 = 32 ∨ (Rect.block (s := S10000x8) S10000x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8.size a ≤ S1x8.size a
  hwx4_2 : ∀ i : grid4.Coords, EltTy.bits .f32 = 32 ∨ (Rect.block (s := S1x8) S1x8.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x8.size a ≤ S10000x8.size a
  hwx4_3 : ∀ i : grid4.Coords, EltTy.bits .f32 = 32 ∨ (Rect.block (s := S10000x8) S400x8.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x8.size a ≤ S10000x8.size a
  hwx5_1 : ∀ i : grid5.Coords, EltTy.bits .f32 = 32 ∨ (Rect.block (s := S10000x8) S10000x8.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x8.size a ≤ S1x8.size a
  hwx5_2 : ∀ i : grid5.Coords, EltTy.bits .f32 = 32 ∨ (Rect.block (s := S1x8) S1x8.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x8.size a ≤ S10000x8.size a
  hwx5_3 : ∀ i : grid5.Coords, EltTy.bits .f32 = 32 ∨ (Rect.block (s := S10000x8) S400x8.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .f32 = 32 ∨ (Rect.block (s := S10000x10000) S400x10000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x8.size a ≤ S10000x8.size a
  hwx6_1 : ∀ i : grid6.Coords, EltTy.bits .f32 = 32 ∨ (Rect.block (s := S10000x8) S10000x8.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x8.size a ≤ S1x8.size a
  hwx6_2 : ∀ i : grid6.Coords, EltTy.bits .f32 = 32 ∨ (Rect.block (s := S1x8) S1x8.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S400x8.size a ≤ S10000x8.size a
  hwx6_3 : ∀ i : grid6.Coords, EltTy.bits .f32 = 32 ∨ (Rect.block (s := S10000x8) S400x8.size (cc6_transform_3 i) (hinb6_3 i)).WholeWords (EltTy.packing .f32)

variable [Facts₀]

def dot_S6x4_S4x8_S6x8_1_0_0_1_n_n : DotDims S6x4 S4x8 S6x8 where
  lhsContracting := [1]
  rhsContracting := [0]
  lhsNonContracting := [0]
  rhsNonContracting := [1]
  lhsBatch := []
  rhsBatch := []
  wf := dot_S6x4_S4x8_S6x8_1_0_0_1_n_n_wf
def dot_S8x6_S6x8_S8x8_1_0_0_1_n_n : DotDims S8x6 S6x8 S8x8 where
  lhsContracting := [1]
  rhsContracting := [0]
  lhsNonContracting := [0]
  rhsNonContracting := [1]
  lhsBatch := []
  rhsBatch := []
  wf := dot_S8x6_S6x8_S8x8_1_0_0_1_n_n_wf
def dot_S10x8_S8x8_S10x8_1_0_0_1_n_n : DotDims S10x8 S8x8 S10x8 where
  lhsContracting := [1]
  rhsContracting := [0]
  lhsNonContracting := [0]
  rhsNonContracting := [1]
  lhsBatch := []
  rhsBatch := []
  wf := dot_S10x8_S8x8_S10x8_1_0_0_1_n_n_wf
def dot_S12x10_S10x8_S12x8_1_0_0_1_n_n : DotDims S12x10 S10x8 S12x8 where
  lhsContracting := [1]
  rhsContracting := [0]
  lhsNonContracting := [0]
  rhsNonContracting := [1]
  lhsBatch := []
  rhsBatch := []
  wf := dot_S12x10_S10x8_S12x8_1_0_0_1_n_n_wf
def dot_S128x12_S12x8_S128x8_1_0_0_1_n_n : DotDims S128x12 S12x8 S128x8 where
  lhsContracting := [1]
  rhsContracting := [0]
  lhsNonContracting := [0]
  rhsNonContracting := [1]
  lhsBatch := []
  rhsBatch := []
  wf := dot_S128x12_S12x8_S128x8_1_0_0_1_n_n_wf
def dot_S1x12_S12x8_S1x8_1_0_0_1_n_n : DotDims S1x12 S12x8 S1x8 where
  lhsContracting := [1]
  rhsContracting := [0]
  lhsNonContracting := [0]
  rhsNonContracting := [1]
  lhsBatch := []
  rhsBatch := []
  wf := dot_S1x12_S12x8_S1x8_1_0_0_1_n_n_wf
def dot_S1x10_S10x8_S1x8_1_0_0_1_n_n : DotDims S1x10 S10x8 S1x8 where
  lhsContracting := [1]
  rhsContracting := [0]
  lhsNonContracting := [0]
  rhsNonContracting := [1]
  lhsBatch := []
  rhsBatch := []
  wf := dot_S1x10_S10x8_S1x8_1_0_0_1_n_n_wf
def dot_S1x8_S8x8_S1x8_1_0_0_1_n_n : DotDims S1x8 S8x8 S1x8 where
  lhsContracting := [1]
  rhsContracting := [0]
  lhsNonContracting := [0]
  rhsNonContracting := [1]
  lhsBatch := []
  rhsBatch := []
  wf := dot_S1x8_S8x8_S1x8_1_0_0_1_n_n_wf
def dot_S1x6_S6x8_S1x8_1_0_0_1_n_n : DotDims S1x6 S6x8 S1x8 where
  lhsContracting := [1]
  rhsContracting := [0]
  lhsNonContracting := [0]
  rhsNonContracting := [1]
  lhsBatch := []
  rhsBatch := []
  wf := dot_S1x6_S6x8_S1x8_1_0_0_1_n_n_wf
def dot_S1x4_S4x8_S1x8_1_0_0_1_n_n : DotDims S1x4 S4x8 S1x8 where
  lhsContracting := [1]
  rhsContracting := [0]
  lhsNonContracting := [0]
  rhsNonContracting := [1]
  lhsBatch := []
  rhsBatch := []
  wf := dot_S1x4_S4x8_S1x8_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x8_S400x8_1_0_0_1_n_n : DotDims S400x128 S128x8 S400x8 where
  lhsContracting := [1]
  rhsContracting := [0]
  lhsNonContracting := [0]
  rhsNonContracting := [1]
  lhsBatch := []
  rhsBatch := []
  wf := dot_S400x128_S128x8_S400x8_1_0_0_1_n_n_wf
def dot_S400x10000_S10000x8_S400x8_1_0_0_1_n_n : DotDims S400x10000 S10000x8 S400x8 where
  lhsContracting := [1]
  rhsContracting := [0]
  lhsNonContracting := [0]
  rhsNonContracting := [1]
  lhsBatch := []
  rhsBatch := []
  wf := dot_S400x10000_S10000x8_S400x8_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_arg4) false false (stage0_1 0) (sem0_1 0) (Memref.isWhole_whole _) (hstage0_1 0)

abbrev win0_2 : Pipeline.Window sig grid0 :=
  Pipeline.Window.whole (Memref.whole main_arg6) false false (stage0_2 0) (sem0_2 0) (Memref.isWhole_whole _) (hstage0_2 0)

abbrev win0_3 : Pipeline.Window sig grid0 :=
  Pipeline.Window.whole (Memref.whole main_arg8) false false (stage0_3 0) (sem0_3 0) (Memref.isWhole_whole _) (hstage0_3 0)

abbrev win0_4 : Pipeline.Window sig grid0 :=
  Pipeline.Window.whole (Memref.whole main_arg10) false false (stage0_4 0) (sem0_4 0) (Memref.isWhole_whole _) (hstage0_4 0)

abbrev win0_5 : Pipeline.Window sig grid0 :=
  Pipeline.Window.whole (Memref.whole main_arg12) false false (stage0_5 0) (sem0_5 0) (Memref.isWhole_whole _) (hstage0_5 0)

abbrev win0_6 : Pipeline.Window sig grid0 :=
  Pipeline.Window.whole (Memref.whole main_v0) false false (stage0_6 0) (sem0_6 0) (Memref.isWhole_whole _) (hstage0_6 0)

abbrev win0_7 : Pipeline.Window sig grid0 :=
  Pipeline.Window.whole (Memref.whole main_v1) false false (stage0_7 0) (sem0_7 0) (Memref.isWhole_whole _) (hstage0_7 0)

abbrev win0_8 : Pipeline.Window sig grid0 :=
  Pipeline.Window.whole (Memref.whole main_v2) false false (stage0_8 0) (sem0_8 0) (Memref.isWhole_whole _) (hstage0_8 0)

abbrev win0_9 : Pipeline.Window sig grid0 :=
  Pipeline.Window.whole (Memref.whole main_v3) false false (stage0_9 0) (sem0_9 0) (Memref.isWhole_whole _) (hstage0_9 0)

abbrev win0_10 : Pipeline.Window sig grid0 :=
  Pipeline.Window.whole (Memref.whole main_v4) false false (stage0_10 0) (sem0_10 0) (Memref.isWhole_whole _) (hstage0_10 0)

abbrev win0_11 : Pipeline.Window sig grid0 :=
  Pipeline.Window.whole (Memref.whole main_v5) false false (stage0_11 0) (sem0_11 0) (Memref.isWhole_whole _) (hstage0_11 0)

abbrev win0_12 : Pipeline.Window sig grid0 :=
  Pipeline.Window.whole (Memref.whole main_v6_0) true false (stage0_12 0) (sem0_12 0) (Memref.isWhole_whole _) (hstage0_12 0)

abbrev win0_13 : Pipeline.Window sig grid0 :=
  Pipeline.Window.whole (Memref.whole main_v6_1) true false (stage0_13 0) (sem0_13 0) (Memref.isWhole_whole _) (hstage0_13 0)

abbrev win0_14 : Pipeline.Window sig grid0 :=
  Pipeline.Window.whole (Memref.whole main_v6_2) true false (stage0_14 0) (sem0_14 0) (Memref.isWhole_whole _) (hstage0_14 0)

abbrev win0_15 : Pipeline.Window sig grid0 :=
  Pipeline.Window.whole (Memref.whole main_v6_3) true false (stage0_15 0) (sem0_15 0) (Memref.isWhole_whole _) (hstage0_15 0)

abbrev win0_16 : Pipeline.Window sig grid0 :=
  Pipeline.Window.whole (Memref.whole main_v6_4) true false (stage0_16 0) (sem0_16 0) (Memref.isWhole_whole _) (hstage0_16 0)

abbrev win0_17 : Pipeline.Window sig grid0 :=
  Pipeline.Window.whole (Memref.whole main_v6_5) true false (stage0_17 0) (sem0_17 0) (Memref.isWhole_whole _) (hstage0_17 0)

abbrev win0_18 : Pipeline.Window sig grid0 :=
  Pipeline.Window.whole (Memref.whole main_v6_6) true false (stage0_18 0) (sem0_18 0) (Memref.isWhole_whole _) (hstage0_18 0)

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S128x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S400x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6_2) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S400x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S10000x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6_3) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S400x8.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S10000x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v6_4) S1x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v10) S400x8.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S10000x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v6_5) S1x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v11) S400x8.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg1) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S10000x8.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v6_6) S1x8.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v12) S400x8.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x12 : Shape := ⟨2, ![128, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x8 : Shape := ⟨2, ![4, 8]⟩
abbrev S10000x12 : Shape := ⟨2, ![10000, 12]⟩
abbrev S1x12 : Shape := ⟨2, ![1, 12]⟩
abbrev S10000x10 : Shape := ⟨2, ![10000, 10]⟩
abbrev S1x10 : Shape := ⟨2, ![1, 10]⟩
abbrev S10000x8 : Shape := ⟨2, ![10000, 8]⟩
abbrev S1x8 : Shape := ⟨2, ![1, 8]⟩
abbrev S10000x6 : Shape := ⟨2, ![10000, 6]⟩
abbrev S1x6 : Shape := ⟨2, ![1, 6]⟩
abbrev S10000x4 : Shape := ⟨2, ![10000, 4]⟩
abbrev S1x4 : Shape := ⟨2, ![1, 4]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x12, .f32⟩
  | .hbm, ⟨3, _⟩ => ⟨S12, .f32⟩
  | .hbm, ⟨4, _⟩ => ⟨S12x10, .f32⟩
  | .hbm, ⟨5, _⟩ => ⟨S10, .f32⟩
  | .hbm, ⟨6, _⟩ => ⟨S10x8, .f32⟩
  | .hbm, ⟨7, _⟩ => ⟨S8, .f32⟩
  | .hbm, ⟨8, _⟩ => ⟨S8x6, .f32⟩
  | .hbm, ⟨9, _⟩ => ⟨S6, .f32⟩
  | .hbm, ⟨10, _⟩ => ⟨S6x4, .f32⟩
  | .hbm, ⟨11, _⟩ => ⟨S4, .f32⟩
  | .hbm, ⟨12, _⟩ => ⟨S4x8, .f32⟩
  | .hbm, ⟨13, _⟩ => ⟨S8, .f32⟩
  | .hbm, ⟨14, _⟩ => ⟨S10000x12, .f32⟩
  | .hbm, ⟨15, _⟩ => ⟨S10000x12, .f32⟩
  | .hbm, ⟨16, _⟩ => ⟨S1x12, .f32⟩
  | .hbm, ⟨17, _⟩ => ⟨S10000x12, .f32⟩
  | .hbm, ⟨18, _⟩ => ⟨S10000x12, .f32⟩
  | .hbm, ⟨19, _⟩ => ⟨S10000x10, .f32⟩
  | .hbm, ⟨20, _⟩ => ⟨S10000x10, .f32⟩
  | .hbm, ⟨21, _⟩ => ⟨S1x10, .f32⟩
  | .hbm, ⟨22, _⟩ => ⟨S10000x10, .f32⟩
  | .hbm, ⟨23, _⟩ => ⟨S10000x10, .f32⟩
  | .hbm, ⟨24, _⟩ => ⟨S10000x8, .f32⟩
  | .hbm, ⟨25, _⟩ => ⟨S10000x8, .f32⟩
  | .hbm, ⟨26, _⟩ => ⟨S1x8, .f32⟩
  | .hbm, ⟨27, _⟩ => ⟨S10000x8, .f32⟩
  | .hbm, ⟨28, _⟩ => ⟨S10000x8, .f32⟩
  | .hbm, ⟨29, _⟩ => ⟨S10000x6, .f32⟩
  | .hbm, ⟨30, _⟩ => ⟨S10000x6, .f32⟩
  | .hbm, ⟨31, _⟩ => ⟨S1x6, .f32⟩
  | .hbm, ⟨32, _⟩ => ⟨S10000x6, .f32⟩
  | .hbm, ⟨33, _⟩ => ⟨S10000x6, .f32⟩
  | .hbm, ⟨34, _⟩ => ⟨S10000x4, .f32⟩
  | .hbm, ⟨35, _⟩ => ⟨S10000x4, .f32⟩
  | .hbm, ⟨36, _⟩ => ⟨S1x4, .f32⟩
  | .hbm, ⟨37, _⟩ => ⟨S10000x4, .f32⟩
  | .hbm, ⟨38, _⟩ => ⟨S10000x4, .f32⟩
  | .hbm, ⟨39, _⟩ => ⟨S10000x8, .f32⟩
  | .hbm, ⟨40, _⟩ => ⟨S10000x8, .f32⟩
  | .hbm, ⟨41, _⟩ => ⟨S1x8, .f32⟩
  | .hbm, ⟨42, _⟩ => ⟨S10000x8, .f32⟩
  | .hbm, ⟨43, _⟩ => ⟨S10000x8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S12_S1x12_1 : S12.BroadcastsInDim S1x12 (![1] : Fin 1 → Fin S1x12.rank)
  bcast_S1x12_S10000x12_0_1 : S1x12.BroadcastsInDim S10000x12 (![0, 1] : Fin 2 → Fin S10000x12.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  bcast_S6_S1x6_1 : S6.BroadcastsInDim S1x6 (![1] : Fin 1 → Fin S1x6.rank)
  bcast_S1x6_S10000x6_0_1 : S1x6.BroadcastsInDim S10000x6 (![0, 1] : Fin 2 → Fin S10000x6.rank)
  bcast_S4_S1x4_1 : S4.BroadcastsInDim S1x4 (![1] : Fin 1 → Fin S1x4.rank)
  bcast_S1x4_S10000x4_0_1 : S1x4.BroadcastsInDim S10000x4 (![0, 1] : Fin 2 → Fin S10000x4.rank)
  dot_S10000x128_S128x12_S10000x12_1_0_0_1_n_n_wf : DotDims.WF S10000x128 S128x12 S10000x12 [1] [0] [0] [1] [] []
  dot_S10000x10000_S10000x12_S10000x12_1_0_0_1_n_n_wf : DotDims.WF S10000x10000 S10000x12 S10000x12 [1] [0] [0] [1] [] []
  dot_S10000x12_S12x10_S10000x10_1_0_0_1_n_n_wf : DotDims.WF S10000x12 S12x10 S10000x10 [1] [0] [0] [1] [] []
  dot_S10000x10000_S10000x10_S10000x10_1_0_0_1_n_n_wf : DotDims.WF S10000x10000 S10000x10 S10000x10 [1] [0] [0] [1] [] []
  dot_S10000x10_S10x8_S10000x8_1_0_0_1_n_n_wf : DotDims.WF S10000x10 S10x8 S10000x8 [1] [0] [0] [1] [] []
  dot_S10000x10000_S10000x8_S10000x8_1_0_0_1_n_n_wf : DotDims.WF S10000x10000 S10000x8 S10000x8 [1] [0] [0] [1] [] []
  dot_S10000x8_S8x6_S10000x6_1_0_0_1_n_n_wf : DotDims.WF S10000x8 S8x6 S10000x6 [1] [0] [0] [1] [] []
  dot_S10000x10000_S10000x6_S10000x6_1_0_0_1_n_n_wf : DotDims.WF S10000x10000 S10000x6 S10000x6 [1] [0] [0] [1] [] []
  dot_S10000x6_S6x4_S10000x4_1_0_0_1_n_n_wf : DotDims.WF S10000x6 S6x4 S10000x4 [1] [0] [0] [1] [] []
  dot_S10000x10000_S10000x4_S10000x4_1_0_0_1_n_n_wf : DotDims.WF S10000x10000 S10000x4 S10000x4 [1] [0] [0] [1] [] []
  dot_S10000x4_S4x8_S10000x8_1_0_0_1_n_n_wf : DotDims.WF S10000x4 S4x8 S10000x8 [1] [0] [0] [1] [] []

variable [Facts₀]

def dot_S10000x128_S128x12_S10000x12_1_0_0_1_n_n : DotDims S10000x128 S128x12 S10000x12 where
  lhsContracting := [1]
  rhsContracting := [0]
  lhsNonContracting := [0]
  rhsNonContracting := [1]
  lhsBatch := []
  rhsBatch := []
  wf := dot_S10000x128_S128x12_S10000x12_1_0_0_1_n_n_wf
def dot_S10000x10000_S10000x12_S10000x12_1_0_0_1_n_n : DotDims S10000x10000 S10000x12 S10000x12 where
  lhsContracting := [1]
  rhsContracting := [0]
  lhsNonContracting := [0]
  rhsNonContracting := [1]
  lhsBatch := []
  rhsBatch := []
  wf := dot_S10000x10000_S10000x12_S10000x12_1_0_0_1_n_n_wf
def dot_S10000x12_S12x10_S10000x10_1_0_0_1_n_n : DotDims S10000x12 S12x10 S10000x10 where
  lhsContracting := [1]
  rhsContracting := [0]
  lhsNonContracting := [0]
  rhsNonContracting := [1]
  lhsBatch := []
  rhsBatch := []
  wf := dot_S10000x12_S12x10_S10000x10_1_0_0_1_n_n_wf
def dot_S10000x10000_S10000x10_S10000x10_1_0_0_1_n_n : DotDims S10000x10000 S10000x10 S10000x10 where
  lhsContracting := [1]
  rhsContracting := [0]
  lhsNonContracting := [0]
  rhsNonContracting := [1]
  lhsBatch := []
  rhsBatch := []
  wf := dot_S10000x10000_S10000x10_S10000x10_1_0_0_1_n_n_wf
def dot_S10000x10_S10x8_S10000x8_1_0_0_1_n_n : DotDims S10000x10 S10x8 S10000x8 where
  lhsContracting := [1]
  rhsContracting := [0]
  lhsNonContracting := [0]
  rhsNonContracting := [1]
  lhsBatch := []
  rhsBatch := []
  wf := dot_S10000x10_S10x8_S10000x8_1_0_0_1_n_n_wf
def dot_S10000x10000_S10000x8_S10000x8_1_0_0_1_n_n : DotDims S10000x10000 S10000x8 S10000x8 where
  lhsContracting := [1]
  rhsContracting := [0]
  lhsNonContracting := [0]
  rhsNonContracting := [1]
  lhsBatch := []
  rhsBatch := []
  wf := dot_S10000x10000_S10000x8_S10000x8_1_0_0_1_n_n_wf
def dot_S10000x8_S8x6_S10000x6_1_0_0_1_n_n : DotDims S10000x8 S8x6 S10000x6 where
  lhsContracting := [1]
  rhsContracting := [0]
  lhsNonContracting := [0]
  rhsNonContracting := [1]
  lhsBatch := []
  rhsBatch := []
  wf := dot_S10000x8_S8x6_S10000x6_1_0_0_1_n_n_wf
def dot_S10000x10000_S10000x6_S10000x6_1_0_0_1_n_n : DotDims S10000x10000 S10000x6 S10000x6 where
  lhsContracting := [1]
  rhsContracting := [0]
  lhsNonContracting := [0]
  rhsNonContracting := [1]
  lhsBatch := []
  rhsBatch := []
  wf := dot_S10000x10000_S10000x6_S10000x6_1_0_0_1_n_n_wf
def dot_S10000x6_S6x4_S10000x4_1_0_0_1_n_n : DotDims S10000x6 S6x4 S10000x4 where
  lhsContracting := [1]
  rhsContracting := [0]
  lhsNonContracting := [0]
  rhsNonContracting := [1]
  lhsBatch := []
  rhsBatch := []
  wf := dot_S10000x6_S6x4_S10000x4_1_0_0_1_n_n_wf
def dot_S10000x10000_S10000x4_S10000x4_1_0_0_1_n_n : DotDims S10000x10000 S10000x4 S10000x4 where
  lhsContracting := [1]
  rhsContracting := [0]
  lhsNonContracting := [0]
  rhsNonContracting := [1]
  lhsBatch := []
  rhsBatch := []
  wf := dot_S10000x10000_S10000x4_S10000x4_1_0_0_1_n_n_wf
def dot_S10000x4_S4x8_S10000x8_1_0_0_1_n_n : DotDims S10000x4 S4x8 S10000x8 where
  lhsContracting := [1]
  rhsContracting := [0]
  lhsNonContracting := [0]
  rhsNonContracting := [1]
  lhsBatch := []
  rhsBatch := []
  wf := dot_S10000x4_S4x8_S10000x8_1_0_0_1_n_n_wf

class Facts : Prop extends Facts₀ where

variable [Facts]
-- ==== Proof.KRun.lean ====
/-
  The idealized kernel program's run with its result named.

  The program is a short stretch of host reshapes followed by seven pipelined kernels. Every weakly fair execution
  terminates without a fault; the buffer contents at each boundary are a fold from the launch memory (a host stretch
  applies its operations; a kernel leaves each of its arrays at what its write-backs leave and every other buffer as
  it was). Here the final contents are read at the result buffer: it is the last kernel's output array after all its
  grid points have written back. The fourteen argument arrays end as launched.
-/
import proofs.«133166_g5102421148072_cont_8to1c4_848_3_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    kernel's output array after its last grid point (its proof data taken at the contents that kernel is entered
    with), and every argument array as launched. -/
theorem run_named : θ_run defs (onTc (τ := τ) (main (F := F))) ⟨m, fun _ => 0, ρ⟩ (fun r => ∀ c : Dev nD,
      r.2.mem ((c.tc : Thread nD τ).loc main_v12) = (dat6 (V7 m ρ) c).arrAt 3 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v12 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.RunNamed

end
-- ==== Proof.NetDefs.lean ====
/-
  Tables over the extended reals, and the two arrangements of a six-layer linear graph network.

  A layer sends a node table `h` to `adj · (h · W) + b` (the bias row added to every row). With no non-linearity
  between layers the whole network is linear in the features, so the weights can be multiplied together first:
  with the suffix products `S_k = W_k · … · W_6` and the folded biases `d_k = b_k · S_{k+1}` (`d_6 = b_6`) the state
  `t_1 = (adj · x) · S_1 + d_1`, `t_{k+1} = adj · t_k + d_{k+1}` ends at the same table as the layers applied in turn.
  This file only names the operations and the two arrangements; that they agree on real inputs is proved elsewhere.
-/
import Idealize.ShloMosaic.Lib.ValueIdx
open scoped BigOperators
noncomputable section
namespace Cert.Net
open Idealize.ShloMosaic Idealize.ShloMosaic.ValueIdx

/-- The product of two tables: entry `(i, j)` is the sum over `k` of `A i k * B k j`. -/
def mm {M K N : ℕ} (A : Fin M → Fin K → EReal) (B : Fin K → Fin N → EReal) : Fin M → Fin N → EReal :=
  fun i j => ∑ k : Fin K, A i k * B k j

/-- A row vector times a table: entry `j` is the sum over `k` of `b k * B k j`. -/
def vm {K N : ℕ} (b : Fin K → EReal) (B : Fin K → Fin N → EReal) : Fin N → EReal :=
  fun j => ∑ k : Fin K, b k * B k j

/-- A row vector added to every row of a table. -/
def addRow {M N : ℕ} (A : Fin M → Fin N → EReal) (b : Fin N → EReal) : Fin M → Fin N → EReal :=
  fun i j => A i j + b j

/-- A rank-2 array read as a table. -/
def cur2 {A B : ℕ} (a : (⟨2, ![A, B]⟩ : Shape).Idx → EReal) : Fin A → Fin B → EReal := fun i j => a (ix2 i j)

/-- A rank-1 array read as a vector. -/
def cur1 {A : ℕ} (a : (⟨1, ![A]⟩ : Shape).Idx → EReal) : Fin A → EReal := fun i => a (ix1 i)

/-- A one-row array `[1, A]` read as a vector. -/
def row1 {A : ℕ} (a : (⟨2, ![1, A]⟩ : Shape).Idx → EReal) : Fin A → EReal := fun j => a (ix2 0 j)

section Nets
variable {n f c1 c2 c3 c4 c5 c6 : ℕ}

/-- One layer: `adj · (h · W) + b`. -/
def layer {a b : ℕ} (adj : Fin n → Fin n → EReal) (h : Fin n → Fin a → EReal) (W : Fin a → Fin b → EReal) (bias : Fin b → EReal) :
    Fin n → Fin b → EReal :=
  addRow (mm adj (mm h W)) bias

/-- The six layers applied in turn. -/
def refNet (x : Fin n → Fin f → EReal) (adj : Fin n → Fin n → EReal)
    (W1 : Fin f → Fin c1 → EReal) (b1 : Fin c1 → EReal) (W2 : Fin c1 → Fin c2 → EReal) (b2 : Fin c2 → EReal)
    (W3 : Fin c2 → Fin c3 → EReal) (b3 : Fin c3 → EReal) (W4 : Fin c3 → Fin c4 → EReal) (b4 : Fin c4 → EReal)
    (W5 : Fin c4 → Fin c5 → EReal) (b5 : Fin c5 → EReal) (W6 : Fin c5 → Fin c6 → EReal) (b6 : Fin c6 → EReal) :
    Fin n → Fin c6 → EReal :=
  layer adj (layer adj (layer adj (layer adj (layer adj (layer adj x W1 b1) W2 b2) W3 b3) W4 b4) W5 b5) W6 b6

/-- The suffix products of the weights. -/
def suf5 (W5 : Fin c4 → Fin c5 → EReal) (W6 : Fin c5 → Fin c6 → EReal) := mm W5 W6
def suf4 (W4 : Fin c3 → Fin c4 → EReal) (W5 : Fin c4 → Fin c5 → EReal) (W6 : Fin c5 → Fin c6 → EReal) := mm W4 (suf5 W5 W6)
def suf3 (W3 : Fin c2 → Fin c3 → EReal) (W4 : Fin c3 → Fin c4 → EReal) (W5 : Fin c4 → Fin c5 → EReal) (W6 : Fin c5 → Fin c6 → EReal) :=
  mm W3 (suf4 W4 W5 W6)
def suf2 (W2 : Fin c1 → Fin c2 → EReal) (W3 : Fin c2 → Fin c3 → EReal) (W4 : Fin c3 → Fin c4 → EReal) (W5 : Fin c4 → Fin c5 → EReal)
    (W6 : Fin c5 → Fin c6 → EReal) := mm W2 (suf3 W3 W4 W5 W6)
def suf1 (W1 : Fin f → Fin c1 → EReal) (W2 : Fin c1 → Fin c2 → EReal) (W3 : Fin c2 → Fin c3 → EReal) (W4 : Fin c3 → Fin c4 → EReal)
    (W5 : Fin c4 → Fin c5 → EReal) (W6 : Fin c5 → Fin c6 → EReal) := mm W1 (suf2 W2 W3 W4 W5 W6)

/-- One pass over the adjacency: `adj · t + d`. -/
def pass (adj : Fin n → Fin n → EReal) (t : Fin n → Fin c6 → EReal) (d : Fin c6 → EReal) : Fin n → Fin c6 → EReal :=
  addRow (mm adj t) d

/-- The first pass: `(adj · x) · P + d`. -/
def pass1 (adj : Fin n → Fin n → EReal) (x : Fin n → Fin f → EReal) (P : Fin f → Fin c6 → EReal) (d : Fin c6 → EReal) :
    Fin n → Fin c6 → EReal :=
  addRow (mm (mm adj x) P) d

/-- The weights multiplied together first, then six passes over the adjacency. -/
def kerNet (x : Fin n → Fin f → EReal) (adj : Fin n → Fin n → EReal)
    (W1 : Fin f → Fin c1 → EReal) (b1 : Fin c1 → EReal) (W2 : Fin c1 → Fin c2 → EReal) (b2 : Fin c2 → EReal)
    (W3 : Fin c2 → Fin c3 → EReal) (b3 : Fin c3 → EReal) (W4 : Fin c3 → Fin c4 → EReal) (b4 : Fin c4 → EReal)
    (W5 : Fin c4 → Fin c5 → EReal) (b5 : Fin c5 → EReal) (W6 : Fin c5 → Fin c6 → EReal) (b6 : Fin c6 → EReal) :
    Fin n → Fin c6 → EReal :=
  pass adj (pass adj (pass adj (pass adj (pass adj
    (pass1 adj x (suf1 W1 W2 W3 W4 W5 W6) (vm b1 (suf2 W2 W3 W4 W5 W6)))
    (vm b2 (suf3 W3 W4 W5 W6))) (vm b3 (suf4 W4 W5 W6))) (vm b4 (suf5 W5 W6))) (vm b5 W6)) b6

/-- A table all of whose entries are real numbers. -/
def IsReal2 {a b : ℕ} (A : Fin a → Fin b → EReal) : Prop := ∀ i j, ∃ r : ℝ, A i j = (r : EReal)
/-- A vector all of whose entries are real numbers. -/
def IsReal1 {a : ℕ} (v : Fin a → EReal) : Prop := ∀ i, ∃ r : ℝ, v i = (r : EReal)

end Nets
end Cert.Net
-- ==== Proof.Tables.lean ====
/-
  Tables written back as arrays.

  A table `T : Fin A → Fin B → EReal` is the array whose entry at the index `(i, j)` is `T i j`; a vector `v` is the
  one-row array `[1, A]` whose entry at `(0, j)` is `v j`. Reading such an array back as a table or a vector gives
  the table or vector it was made from.
-/
import proofs.«133166_g5102421148072_cont_8to1c4_848_3_alg».proof.Proof.NetDefs
noncomputable section
namespace Cert.Net
open Idealize.ShloMosaic Idealize.ShloMosaic.ValueIdx

/-- The rank-2 array of a table. -/
def unc2 {A B : ℕ} (T : Fin A → Fin B → EReal) : (⟨2, ![A, B]⟩ : Shape).Idx → EReal :=
  fun i => T ⟨(i 0).val, idx2_lt0 i⟩ ⟨(i 1).val, idx2_lt1 i⟩

/-- The one-row array of a vector. -/
def unrow {A : ℕ} (v : Fin A → EReal) : (⟨2, ![1, A]⟩ : Shape).Idx → EReal :=
  fun i => v ⟨(i 1).val, idx2_lt1 i⟩

theorem unc2_at {A B : ℕ} (T : Fin A → Fin B → EReal) (i : Fin A) (j : Fin B) : unc2 T (ix2 i j) = T i j := rfl

theorem unrow_at {A : ℕ} (v : Fin A → EReal) (j : Fin A) : unrow v (ix2 0 j) = v j := rfl

theorem cur2_unc2 {A B : ℕ} (T : Fin A → Fin B → EReal) : cur2 (unc2 T) = T := rfl

theorem row1_unrow {A : ℕ} (v : Fin A → EReal) : row1 (unrow v) = v := rfl

end Cert.Net
-- ==== Proof.KWalk.lean ====
/-
  The buffers at each region's entry.

  The program reshapes the six bias vectors to one-row arrays and then runs seven regions. Region 0 reads the six
  weight matrices and the six bias rows and writes the folded weight product `main_v6_0` and the six folded biases
  `main_v6_1 … main_v6_6`. Region 1 reads the adjacency, the features, `main_v6_0` and `main_v6_1` and writes the first
  state `main_v7`. Region k (2 ≤ k ≤ 6) reads the adjacency, the previous state and `main_v6_k` and writes the next state.

  The contents at a boundary are a fold from the launch memory: a host stretch rewrites the buffers its operations
  write, a region leaves in each of its arrays what its write-backs leave (an input array unchanged) and every other
  buffer as it was. Read through that fold, at each region's entry:
    * an argument (a weight matrix, the features, the adjacency) holds what it held at launch;
    * a folded bias `main_v6_k` holds what region 0 left in it, no later region having it among its arrays before region k;
    * the previous state holds what the region before left in its output array;
    * a bias row `[1, a]` holds, at `(0, k)`, the launch bias vector's entry `k`.
-/
import proofs.«133166_g5102421148072_cont_8to1c4_848_3_alg».proof.Proof.Gen.KernelIdeal.Frame
import proofs.«133166_g5102421148072_cont_8to1c4_848_3_alg».proof.Proof.Tables
import Idealize.ShloMosaic.Lib.Pipeline.Value
import Idealize.ShloMosaic.Lib.ValueLayout
import Idealize.ShloMosaic.Lib.StableHlo.Run

set_option maxRecDepth 16384

namespace Cert.KernelIdeal.Walk

open Cert.KernelIdeal Cert.KernelIdeal.Gen Idealize.ShloMosaic Idealize.ShloMosaic.TcCoe Idealize.SL.Sem Idealize.ShloMosaic.ValueIdx Cert.Net

variable {F : FTy → Type} [FloatOps F] (m : (ℓ : Loc nD τ sig) → Buf (Elt F) ℓ) (ρ : Dev nD → PrngReg)

/-! ## The host stretch before region 0

The six reshapes write only their results `main_v0 … main_v5`; every other buffer holds at region 0's entry what it
held at launch. -/

/-- A buffer that is none of the six reshape results is, after the reshapes, as at launch. -/
theorem W1_of_not_written (c : Dev nD) (b : Ref sig .tc)
    (h0 : b ≠ main_v0) (h1 : b ≠ main_v1) (h2 : b ≠ main_v2) (h3 : b ≠ main_v3) (h4 : b ≠ main_v4) (h5 : b ≠ main_v5) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-! ## Entry of region 0: the weight matrices, the features and the adjacency are as launched -/

theorem V1_arg2 (c : Dev nD) : V1 m ρ c main_arg2 = m ((c : Thread nD τ).loc main_arg2) :=
  (W1_of_not_written m ρ c main_arg2 (by decide) (by decide) (by decide) (by decide) (by decide) (by decide)).trans rfl
theorem V1_arg4 (c : Dev nD) : V1 m ρ c main_arg4 = m ((c : Thread nD τ).loc main_arg4) :=
  (W1_of_not_written m ρ c main_arg4 (by decide) (by decide) (by decide) (by decide) (by decide) (by decide)).trans rfl
theorem V1_arg6 (c : Dev nD) : V1 m ρ c main_arg6 = m ((c : Thread nD τ).loc main_arg6) :=
  (W1_of_not_written m ρ c main_arg6 (by decide) (by decide) (by decide) (by decide) (by decide) (by decide)).trans rfl
theorem V1_arg8 (c : Dev nD) : V1 m ρ c main_arg8 = m ((c : Thread nD τ).loc main_arg8) :=
  (W1_of_not_written m ρ c main_arg8 (by decide) (by decide) (by decide) (by decide) (by decide) (by decide)).trans rfl
theorem V1_arg10 (c : Dev nD) : V1 m ρ c main_arg10 = m ((c : Thread nD τ).loc main_arg10) :=
  (W1_of_not_written m ρ c main_arg10 (by decide) (by decide) (by decide) (by decide) (by decide) (by decide)).trans rfl
theorem V1_arg12 (c : Dev nD) : V1 m ρ c main_arg12 = m ((c : Thread nD τ).loc main_arg12) :=
  (W1_of_not_written m ρ c main_arg12 (by decide) (by decide) (by decide) (by decide) (by decide) (by decide)).trans rfl
theorem V1_arg0 (c : Dev nD) : V1 m ρ c main_arg0 = m ((c : Thread nD τ).loc main_arg0) :=
  (W1_of_not_written m ρ c main_arg0 (by decide) (by decide) (by decide) (by decide) (by decide) (by decide)).trans rfl
theorem V1_arg1 (c : Dev nD) : V1 m ρ c main_arg1 = m ((c : Thread nD τ).loc main_arg1) :=
  (W1_of_not_written m ρ c main_arg1 (by decide) (by decide) (by decide) (by decide) (by decide) (by decide)).trans rfl

/-! ## Entry of region 1

Region 0 reads the weights and the reshaped biases and writes `main_v6_0 … main_v6_6` (its windows 12 … 18); it does
not touch the features `main_arg0` or the adjacency `main_arg1`. -/

theorem V2_arg0 (c : Dev nD) : V2 m ρ c main_arg0 = m ((c : Thread nD τ).loc main_arg0) :=
  (W2_of_ne m ρ c main_arg0 (by decide)).trans (V1_arg0 m ρ c)
theorem V2_arg1 (c : Dev nD) : V2 m ρ c main_arg1 = m ((c : Thread nD τ).loc main_arg1) :=
  (W2_of_ne m ρ c main_arg1 (by decide)).trans (V1_arg1 m ρ c)
/-- The folded weight product `main_v6_0` is what region 0's write-backs leave in its window 12. -/
theorem V2_P (c : Dev nD) : V2 m ρ c main_v6_0 = (dat0 (V1 m ρ) c).arrAt 12 cfg0.N := W2_arr m ρ c 12
/-- The first folded bias `main_v6_1` is what region 0's write-backs leave in its window 13. -/
theorem V2_d1 (c : Dev nD) : V2 m ρ c main_v6_1 = (dat0 (V1 m ρ) c).arrAt 13 cfg0.N := W2_arr m ρ c 13

/-! ## Entry of region 2

Region 1 reads the adjacency (window 0), the features, `main_v6_0` and `main_v6_1` and writes `main_v7` (window 4):
the adjacency is unchanged (an input window's array is left as entered), `main_v6_2` is not one of its arrays. -/

theorem V3_arg1 (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_arg1 m ρ c)
theorem V3_t (c : Dev nD) : V3 m ρ c main_v7 = (dat1 (V2 m ρ) c).arrAt 4 cfg1.N := W3_arr m ρ c 4
theorem V3_d (c : Dev nD) : V3 m ρ c main_v6_2 = (dat0 (V1 m ρ) c).arrAt 14 cfg0.N :=
  (W3_of_ne m ρ c main_v6_2 (by decide)).trans (W2_arr m ρ c 14)

/-! ## Entry of region 3

Region 2 reads the adjacency (window 0), the previous state and `main_v6_2` and writes `main_v8` (window 3);
`main_v6_3` has been no region's array since region 0 wrote it (window 15). -/

theorem V4_arg1 (c : Dev nD) : V4 m ρ c main_arg1 = m ((c : Thread nD τ).loc main_arg1) :=
  ((W4_arr m ρ c 0).trans (((dat2 (V3 m ρ) c).arrAt_in 0 rfl _).trans (A_eq2 (V3 m ρ) c 0))).trans (V3_arg1 m ρ c)
theorem V4_t (c : Dev nD) : V4 m ρ c main_v8 = (dat2 (V3 m ρ) c).arrAt 3 cfg2.N := W4_arr m ρ c 3
theorem V4_d (c : Dev nD) : V4 m ρ c main_v6_3 = (dat0 (V1 m ρ) c).arrAt 15 cfg0.N :=
  (W4_of_ne m ρ c main_v6_3 (by decide)).trans ((W3_of_ne m ρ c main_v6_3 (by decide)).trans (W2_arr m ρ c 15))

/-! ## Entry of region 4

Region 3 reads the adjacency (window 0), the previous state and `main_v6_3` and writes `main_v9` (window 3);
`main_v6_4` has been no region's array since region 0 wrote it (window 16). -/

theorem V5_arg1 (c : Dev nD) : V5 m ρ c main_arg1 = m ((c : Thread nD τ).loc main_arg1) :=
  ((W5_arr m ρ c 0).trans (((dat3 (V4 m ρ) c).arrAt_in 0 rfl _).trans (A_eq3 (V4 m ρ) c 0))).trans (V4_arg1 m ρ c)
theorem V5_t (c : Dev nD) : V5 m ρ c main_v9 = (dat3 (V4 m ρ) c).arrAt 3 cfg3.N := W5_arr m ρ c 3
theorem V5_d (c : Dev nD) : V5 m ρ c main_v6_4 = (dat0 (V1 m ρ) c).arrAt 16 cfg0.N :=
  (W5_of_ne m ρ c main_v6_4 (by decide)).trans ((W4_of_ne m ρ c main_v6_4 (by decide)).trans ((W3_of_ne m ρ c main_v6_4 (by decide)).trans (W2_arr m ρ c 16)))

/-! ## Entry of region 5

Region 4 reads the adjacency (window 0), the previous state and `main_v6_4` and writes `main_v10` (window 3);
`main_v6_5` has been no region's array since region 0 wrote it (window 17). -/

theorem V6_arg1 (c : Dev nD) : V6 m ρ c main_arg1 = m ((c : Thread nD τ).loc main_arg1) :=
  ((W6_arr m ρ c 0).trans (((dat4 (V5 m ρ) c).arrAt_in 0 rfl _).trans (A_eq4 (V5 m ρ) c 0))).trans (V5_arg1 m ρ c)
theorem V6_t (c : Dev nD) : V6 m ρ c main_v10 = (dat4 (V5 m ρ) c).arrAt 3 cfg4.N := W6_arr m ρ c 3
theorem V6_d (c : Dev nD) : V6 m ρ c main_v6_5 = (dat0 (V1 m ρ) c).arrAt 17 cfg0.N :=
  (W6_of_ne m ρ c main_v6_5 (by decide)).trans ((W5_of_ne m ρ c main_v6_5 (by decide)).trans ((W4_of_ne m ρ c main_v6_5 (by decide)).trans ((W3_of_ne m ρ c main_v6_5 (by decide)).trans (W2_arr m ρ c 17))))

/-! ## Entry of region 6

Region 5 reads the adjacency (window 0), the previous state and `main_v6_5` and writes `main_v11` (window 3);
`main_v6_6` has been no region's array since region 0 wrote it (window 18). -/

theorem V7_arg1 (c : Dev nD) : V7 m ρ c main_arg1 = m ((c : Thread nD τ).loc main_arg1) :=
  ((W7_arr m ρ c 0).trans (((dat5 (V6 m ρ) c).arrAt_in 0 rfl _).trans (A_eq5 (V6 m ρ) c 0))).trans (V6_arg1 m ρ c)
theorem V7_t (c : Dev nD) : V7 m ρ c main_v11 = (dat5 (V6 m ρ) c).arrAt 3 cfg5.N := W7_arr m ρ c 3
theorem V7_d (c : Dev nD) : V7 m ρ c main_v6_6 = (dat0 (V1 m ρ) c).arrAt 18 cfg0.N :=
  (W7_of_ne m ρ c main_v6_6 (by decide)).trans ((W6_of_ne m ρ c main_v6_6 (by decide)).trans ((W5_of_ne m ρ c main_v6_6 (by decide)).trans ((W4_of_ne m ρ c main_v6_6 (by decide)).trans ((W3_of_ne m ρ c main_v6_6 (by decide)).trans (W2_arr m ρ c 18)))))

/-! ## The reshaped bias rows, over the extended reals

Each bias vector `[a]` is reshaped to the one-row array `[1, a]` before region 0. A reshape keeps the elements in
row-major order, so the entry at `(0, k)` of the row is the entry at `k` of the vector. -/

/-- A vector cast to a one-row array, read back as a vector, is the vector. -/
theorem row1_shapeCast {A : ℕ} (v : (⟨1, ![A]⟩ : Shape).Idx → EReal)
    (h : (⟨1, ![A]⟩ : Shape).ShapeCasts ⟨2, ![1, A]⟩) :
    row1 (shapeCast (⟨2, ![1, A]⟩ : Shape) v h) = cur1 v := by
  funext k
  show shapeCast _ v h (ix2 0 k) = v (ix1 k)
  refine (shapeCast_addUnit_apply ![A] v h (ix2 0 k)).trans ?_
  congr 1
  funext a
  match a with
  | ⟨0, _⟩ => rfl

variable (mI : (ℓ : Loc nD τ sig) → Buf (Elt Ideal) ℓ)

theorem V1_v0_row (c : Dev nD) :
    row1 (A := 12) (V1 (F := Ideal) mI ρ c main_v0) = cur1 (A := 12) (mI ((c : Thread nD τ).loc main_arg3)) := by
  have e : (V1 (F := Ideal) mI ρ c main_v0 : S1x12.Idx → EReal)
      = shapeCast S1x12 (mI ((c : Thread nD τ).loc main_arg3) : S12.Idx → EReal) shapeCasts_S12_S1x12 := by
    show StableHlo.after hostOps0 (W0 mI ρ c) (Proc.devRef .tc main_v0) = _
    after_results
    rfl
  exact (congrArg (row1 (A := 12)) e).trans (row1_shapeCast _ _)
theorem V1_v1_row (c : Dev nD) :
    row1 (A := 10) (V1 (F := Ideal) mI ρ c main_v1) = cur1 (A := 10) (mI ((c : Thread nD τ).loc main_arg5)) := by
  have e : (V1 (F := Ideal) mI ρ c main_v1 : S1x10.Idx → EReal)
      = shapeCast S1x10 (mI ((c : Thread nD τ).loc main_arg5) : S10.Idx → EReal) shapeCasts_S10_S1x10 := by
    show StableHlo.after hostOps0 (W0 mI ρ c) (Proc.devRef .tc main_v1) = _
    after_results
    rfl
  exact (congrArg (row1 (A := 10)) e).trans (row1_shapeCast _ _)
theorem V1_v2_row (c : Dev nD) :
    row1 (A := 8) (V1 (F := Ideal) mI ρ c main_v2) = cur1 (A := 8) (mI ((c : Thread nD τ).loc main_arg7)) := by
  have e : (V1 (F := Ideal) mI ρ c main_v2 : S1x8.Idx → EReal)
      = shapeCast S1x8 (mI ((c : Thread nD τ).loc main_arg7) : S8.Idx → EReal) shapeCasts_S8_S1x8 := by
    show StableHlo.after hostOps0 (W0 mI ρ c) (Proc.devRef .tc main_v2) = _
    after_results
    rfl
  exact (congrArg (row1 (A := 8)) e).trans (row1_shapeCast _ _)
theorem V1_v3_row (c : Dev nD) :
    row1 (A := 6) (V1 (F := Ideal) mI ρ c main_v3) = cur1 (A := 6) (mI ((c : Thread nD τ).loc main_arg9)) := by
  have e : (V1 (F := Ideal) mI ρ c main_v3 : S1x6.Idx → EReal)
      = shapeCast S1x6 (mI ((c : Thread nD τ).loc main_arg9) : S6.Idx → EReal) shapeCasts_S6_S1x6 := by
    show StableHlo.after hostOps0 (W0 mI ρ c) (Proc.devRef .tc main_v3) = _
    after_results
    rfl
  exact (congrArg (row1 (A := 6)) e).trans (row1_shapeCast _ _)
theorem V1_v4_row (c : Dev nD) :
    row1 (A := 4) (V1 (F := Ideal) mI ρ c main_v4) = cur1 (A := 4) (mI ((c : Thread nD τ).loc main_arg11)) := by
  have e : (V1 (F := Ideal) mI ρ c main_v4 : S1x4.Idx → EReal)
      = shapeCast S1x4 (mI ((c : Thread nD τ).loc main_arg11) : S4.Idx → EReal) shapeCasts_S4_S1x4 := by
    show StableHlo.after hostOps0 (W0 mI ρ c) (Proc.devRef .tc main_v4) = _
    after_results
    rfl
  exact (congrArg (row1 (A := 4)) e).trans (row1_shapeCast _ _)
theorem V1_v5_row (c : Dev nD) :
    row1 (A := 8) (V1 (F := Ideal) mI ρ c main_v5) = cur1 (A := 8) (mI ((c : Thread nD τ).loc main_arg13)) := by
  have e : (V1 (F := Ideal) mI ρ c main_v5 : S1x8.Idx → EReal)
      = shapeCast S1x8 (mI ((c : Thread nD τ).loc main_arg13) : S8.Idx → EReal) shapeCasts_S8_S1x8 := by
    show StableHlo.after hostOps0 (W0 mI ρ c) (Proc.devRef .tc main_v5) = _
    after_results
    rfl
  exact (congrArg (row1 (A := 8)) e).trans (row1_shapeCast _ _)

end Cert.KernelIdeal.Walk
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.KPay.lean ====
/-
  The arithmetic of the seven kernels, read at an index, at the ideal (extended real) values.

  Every stored value of the kernels is built from four operations. A matrix product into the zero accumulator has at
  `(i, j)` the sum over `k` of `l(i, k) · r(k, j)`; an addition is entrywise; a reshape between equal shapes changes
  nothing; a one-row array `[1, 8]` broadcast to `[400, 8]` has at `(r, j)` the row's entry at `(0, j)`.

  The weight-product kernel multiplies the weights from the last one backwards: `W5 · W6`, then `W4 · (W5 · W6)`, and so
  on down to `W1 · (W2 · … · W6)`; each product is a sum whose right factor is the previous product, so its entry is
  the table product `mm` of the left weight with the previous table, by the previous statement under the sum. A folded
  bias is a one-row array times one of these products (or times the last weight itself): the vector-times-table `vm`
  of its row. The last bias is copied. The first pass has at `(r, j)` the entry of `(adj · x) · P` plus the folded bias
  at `j`; each later pass has the entry of `adj · t` plus its bias at `j`, and the five later passes are one and the
  same expression.
-/
import proofs.«133166_g5102421148072_cont_8to1c4_848_3_alg».proof.Proof.Gen.KernelIdeal.Skeleton
import proofs.«133166_g5102421148072_cont_8to1c4_848_3_alg».proof.Proof.LibMatmul
import proofs.«133166_g5102421148072_cont_8to1c4_848_3_alg».proof.Proof.NetDefs
import Idealize.ShloMosaic.Lib.ValueLayout
open scoped BigOperators
noncomputable section
namespace Cert.KPay
open Cert.KernelIdeal Cert.KernelIdeal.Gen Idealize.ShloMosaic Idealize.ShloMosaic.ValueIdx Cert.Net Cert.MatOps

/-! ## The weight products -/

/-- `W5 · W6` at `(i, j)`. -/
theorem pay4_at (v0 : Vec Ideal S4x8 .f32) (v1 : Vec Ideal S6x4 .f32) (i : Fin 6) (j : Fin 8) :
    k0_pay4 v0 v1 (ix2 i j) = mm (cur2 (A := 6) (B := 4) v1) (cur2 (A := 4) (B := 8) v0) i j :=
  matmul_plain_zero_apply (M := 6) (K := 4) (N := 8) none v1 v0 i j

/-- `W4 · (W5 · W6)` at `(i, j)`: the sum over `k` of `W4(i, k)` times the previous product at `(k, j)`. -/
theorem pay5_at (v0 : Vec Ideal S4x8 .f32) (v1 : Vec Ideal S6x4 .f32) (v3 : Vec Ideal S8x6 .f32) (i : Fin 8) (j : Fin 8) :
    k0_pay5 v0 v1 v3 (ix2 i j) = mm (cur2 (A := 8) (B := 6) v3) (mm (cur2 (A := 6) (B := 4) v1) (cur2 (A := 4) (B := 8) v0)) i j := by
  unfold k0_pay5
  refine (matmul_plain_zero_apply (M := 8) (K := 6) (N := 8) none v3 (k0_pay4 v0 v1) i j).trans ?_
  refine Finset.sum_congr rfl fun k _ => ?_
  exact congrArg (v3 (ix2 i k) * ·) (pay4_at v0 v1 k j)

/-- `W3 · (W4 · W5 · W6)` at `(i, j)`. -/
theorem pay6_at (v0 : Vec Ideal S4x8 .f32) (v1 : Vec Ideal S6x4 .f32) (v3 : Vec Ideal S8x6 .f32) (v5 : Vec Ideal S10x8 .f32) (i : Fin 10) (j : Fin 8) :
    k0_pay6 v0 v1 v3 v5 (ix2 i j) = mm (cur2 (A := 10) (B := 8) v5) (mm (cur2 (A := 8) (B := 6) v3) (mm (cur2 (A := 6) (B := 4) v1) (cur2 (A := 4) (B := 8) v0))) i j := by
  unfold k0_pay6
  refine (matmul_plain_zero_apply (M := 10) (K := 8) (N := 8) none v5 (k0_pay5 v0 v1 v3) i j).trans ?_
  refine Finset.sum_congr rfl fun k _ => ?_
  exact congrArg (v5 (ix2 i k) * ·) (pay5_at v0 v1 v3 k j)

/-- `W2 · (W3 · … · W6)` at `(i, j)`. -/
theorem pay7_at (v0 : Vec Ideal S4x8 .f32) (v1 : Vec Ideal S6x4 .f32) (v3 : Vec Ideal S8x6 .f32) (v5 : Vec Ideal S10x8 .f32) (v7 : Vec Ideal S12x10 .f32) (i : Fin 12) (j : Fin 8) :
    k0_pay7 v0 v1 v3 v5 v7 (ix2 i j) = mm (cur2 (A := 12) (B := 10) v7) (mm (cur2 (A := 10) (B := 8) v5) (mm (cur2 (A := 8) (B := 6) v3) (mm (cur2 (A := 6) (B := 4) v1) (cur2 (A := 4) (B := 8) v0)))) i j := by
  unfold k0_pay7
  refine (matmul_plain_zero_apply (M := 12) (K := 10) (N := 8) none v7 (k0_pay6 v0 v1 v3 v5) i j).trans ?_
  refine Finset.sum_congr rfl fun k _ => ?_
  exact congrArg (v7 (ix2 i k) * ·) (pay6_at v0 v1 v3 v5 k j)

/-- `W1 · (W2 · … · W6)` at `(i, j)`. -/
theorem pay8_at (v0 : Vec Ideal S4x8 .f32) (v1 : Vec Ideal S6x4 .f32) (v3 : Vec Ideal S8x6 .f32) (v5 : Vec Ideal S10x8 .f32) (v7 : Vec Ideal S12x10 .f32) (v9 : Vec Ideal S128x12 .f32) (i : Fin 128) (j : Fin 8) :
    k0_pay8 v0 v1 v3 v5 v7 v9 (ix2 i j) = mm (cur2 (A := 128) (B := 12) v9) (mm (cur2 (A := 12) (B := 10) v7) (mm (cur2 (A := 10) (B := 8) v5) (mm (cur2 (A := 8) (B := 6) v3) (mm (cur2 (A := 6) (B := 4) v1) (cur2 (A := 4) (B := 8) v0))))) i j := by
  unfold k0_pay8
  refine (matmul_plain_zero_apply (M := 128) (K := 12) (N := 8) none v9 (k0_pay7 v0 v1 v3 v5 v7) i j).trans ?_
  refine Finset.sum_congr rfl fun k _ => ?_
  exact congrArg (v9 (ix2 i k) * ·) (pay7_at v0 v1 v3 v5 v7 k j)

/-! ## The folded biases -/

/-- `b1 · (W2 · … · W6)` at `j`. -/
theorem pay9_at (v0 : Vec Ideal S4x8 .f32) (v1 : Vec Ideal S6x4 .f32) (v3 : Vec Ideal S8x6 .f32) (v5 : Vec Ideal S10x8 .f32) (v7 : Vec Ideal S12x10 .f32) (v12 : Vec Ideal S1x12 .f32) (j : Fin 8) :
    k0_pay9 v0 v1 v3 v5 v7 v12 (ix2 0 j) = vm (row1 (A := 12) v12) (mm (cur2 (A := 12) (B := 10) v7) (mm (cur2 (A := 10) (B := 8) v5) (mm (cur2 (A := 8) (B := 6) v3) (mm (cur2 (A := 6) (B := 4) v1) (cur2 (A := 4) (B := 8) v0))))) j := by
  unfold k0_pay9
  rw [shapeCast_self]
  refine (matmul_plain_zero_apply (M := 1) (K := 12) (N := 8) none v12 (k0_pay7 v0 v1 v3 v5 v7) 0 j).trans ?_
  refine Finset.sum_congr rfl fun k _ => ?_
  exact congrArg (v12 (ix2 0 k) * ·) (pay7_at v0 v1 v3 v5 v7 k j)

/-- `b2 · (W3 · … · W6)` at `j`. -/
theorem pay10_at (v0 : Vec Ideal S4x8 .f32) (v1 : Vec Ideal S6x4 .f32) (v3 : Vec Ideal S8x6 .f32) (v5 : Vec Ideal S10x8 .f32) (v16 : Vec Ideal S1x10 .f32) (j : Fin 8) :
    k0_pay10 v0 v1 v3 v5 v16 (ix2 0 j) = vm (row1 (A := 10) v16) (mm (cur2 (A := 10) (B := 8) v5) (mm (cur2 (A := 8) (B := 6) v3) (mm (cur2 (A := 6) (B := 4) v1) (cur2 (A := 4) (B := 8) v0)))) j := by
  unfold k0_pay10
  rw [shapeCast_self]
  refine (matmul_plain_zero_apply (M := 1) (K := 10) (N := 8) none v16 (k0_pay6 v0 v1 v3 v5) 0 j).trans ?_
  refine Finset.sum_congr rfl fun k _ => ?_
  exact congrArg (v16 (ix2 0 k) * ·) (pay6_at v0 v1 v3 v5 k j)

/-- `b3 · (W4 · W5 · W6)` at `j`. -/
theorem pay11_at (v0 : Vec Ideal S4x8 .f32) (v1 : Vec Ideal S6x4 .f32) (v3 : Vec Ideal S8x6 .f32) (v20 : Vec Ideal S1x8 .f32) (j : Fin 8) :
    k0_pay11 v0 v1 v3 v20 (ix2 0 j) = vm (row1 (A := 8) v20) (mm (cur2 (A := 8) (B := 6) v3) (mm (cur2 (A := 6) (B := 4) v1) (cur2 (A := 4) (B := 8) v0))) j := by
  unfold k0_pay11
  rw [shapeCast_self]
  refine (matmul_plain_zero_apply (M := 1) (K := 8) (N := 8) none v20 (k0_pay5 v0 v1 v3) 0 j).trans ?_
  refine Finset.sum_congr rfl fun k _ => ?_
  exact congrArg (v20 (ix2 0 k) * ·) (pay5_at v0 v1 v3 k j)

/-- `b4` times a `[6, 8]` table at `j`. -/
theorem pay1_at (v2 : FVec Ideal S6x8 .f32) (v24 : Vec Ideal S1x6 .f32) (j : Fin 8) :
    k0_pay1 v2 v24 (ix2 0 j) = vm (row1 (A := 6) v24) (cur2 (A := 6) (B := 8) v2) j := by
  unfold k0_pay1
  rw [shapeCast_self]
  exact matmul_plain_zero_apply (M := 1) (K := 6) (N := 8) none v24 v2 0 j

/-- `b5 · W6` at `j`. -/
theorem pay2_at (v0 : Vec Ideal S4x8 .f32) (v28 : Vec Ideal S1x4 .f32) (j : Fin 8) :
    k0_pay2 v0 v28 (ix2 0 j) = vm (row1 (A := 4) v28) (cur2 (A := 4) (B := 8) v0) j := by
  unfold k0_pay2
  rw [shapeCast_self]
  exact matmul_plain_zero_apply (M := 1) (K := 4) (N := 8) none v28 v0 0 j

/-- The last bias is copied. -/
theorem pay3_at (v32 : Vec Ideal S1x8 .f32) (j : Fin 8) : k0_pay3 v32 (ix2 0 j) = row1 (A := 8) v32 j := by
  unfold k0_pay3
  rw [shapeCast_self]
  rfl

/-! ## The passes over the adjacency -/

/-- The first pass at `(r, j)`: the entry of `(adj · x) · P` plus the bias at `j`. The inner product sits under the
    outer sum as the left factor. -/
theorem pass1_at (v0 : Vec Ideal S400x10000 .f32) (v1 : Vec Ideal S10000x128 .f32) (v3 : Vec Ideal S128x8 .f32) (v6 : Vec Ideal S1x8 .f32) (r : Fin 400) (j : Fin 8) :
    k1_pay1 v0 v1 v3 v6 (ix2 r j) = addRow (mm (mm (cur2 (A := 400) (B := 10000) v0) (cur2 (A := 10000) (B := 128) v1)) (cur2 (A := 128) (B := 8) v3)) (row1 (A := 8) v6) r j := by
  unfold k1_pay1
  rw [addf_apply, shapeCast_self, shapeCast_self]
  refine congrArg₂ (· + ·) ?_ (broadcastTo_1b_ab_apply (a := 400) (b := 8) v6 broadcasts_S1x8_S400x8 r j)
  refine (matmul_plain_zero_apply (M := 400) (K := 128) (N := 8) none _ v3 r j).trans ?_
  refine Finset.sum_congr rfl fun k _ => ?_
  exact congrArg (· * v3 (ix2 k j)) (matmul_plain_zero_apply (M := 400) (K := 10000) (N := 128) none v0 v1 r k)

/-- A later pass at `(r, j)`: the entry of `adj · t` plus the bias at `j`. -/
theorem pass2_at (v0 : Vec Ideal S400x10000 .f32) (v1 : Vec Ideal S10000x8 .f32) (v4 : Vec Ideal S1x8 .f32) (r : Fin 400) (j : Fin 8) :
    k2_pay1 v0 v1 v4 (ix2 r j) = addRow (mm (cur2 (A := 400) (B := 10000) v0) (cur2 (A := 10000) (B := 8) v1)) (row1 (A := 8) v4) r j := by
  unfold k2_pay1
  rw [addf_apply, shapeCast_self, shapeCast_self]
  exact congrArg₂ (· + ·)
    (matmul_plain_zero_apply (M := 400) (K := 10000) (N := 8) none v0 v1 r j)
    (broadcastTo_1b_ab_apply (a := 400) (b := 8) v4 broadcasts_S1x8_S400x8 r j)

/-- The third pass is the same expression as the second. -/
theorem pass3_at (v0 : Vec Ideal S400x10000 .f32) (v1 : Vec Ideal S10000x8 .f32) (v4 : Vec Ideal S1x8 .f32) (r : Fin 400) (j : Fin 8) :
    k3_pay1 v0 v1 v4 (ix2 r j) = addRow (mm (cur2 (A := 400) (B := 10000) v0) (cur2 (A := 10000) (B := 8) v1)) (row1 (A := 8) v4) r j :=
  pass2_at v0 v1 v4 r j

/-- The fourth pass is the same expression as the second. -/
theorem pass4_at (v0 : Vec Ideal S400x10000 .f32) (v1 : Vec Ideal S10000x8 .f32) (v4 : Vec Ideal S1x8 .f32) (r : Fin 400) (j : Fin 8) :
    k4_pay1 v0 v1 v4 (ix2 r j) = addRow (mm (cur2 (A := 400) (B := 10000) v0) (cur2 (A := 10000) (B := 8) v1)) (row1 (A := 8) v4) r j :=
  pass2_at v0 v1 v4 r j

/-- The fifth pass is the same expression as the second. -/
theorem pass5_at (v0 : Vec Ideal S400x10000 .f32) (v1 : Vec Ideal S10000x8 .f32) (v4 : Vec Ideal S1x8 .f32) (r : Fin 400) (j : Fin 8) :
    k5_pay1 v0 v1 v4 (ix2 r j) = addRow (mm (cur2 (A := 400) (B := 10000) v0) (cur2 (A := 10000) (B := 8) v1)) (row1 (A := 8) v4) r j :=
  pass2_at v0 v1 v4 r j

/-- The sixth pass is the same expression as the second. -/
theorem pass6_at (v0 : Vec Ideal S400x10000 .f32) (v1 : Vec Ideal S10000x8 .f32) (v4 : Vec Ideal S1x8 .f32) (r : Fin 400) (j : Fin 8) :
    k6_pay1 v0 v1 v4 (ix2 r j) = addRow (mm (cur2 (A := 400) (B := 10000) v0) (cur2 (A := 10000) (B := 8) v1)) (row1 (A := 8) v4) r j :=
  pass2_at v0 v1 v4 r j

end Cert.KPay
-- ==== Proof.KReg0.lean ====
/-
  The weight-product kernel: what its seven output arrays hold when it has run.

  The kernel has one grid point, and every window's block is its whole array at block index zero, so each input block
  is the input array itself and the one point's write-back covers each output array entirely. With the weights
  `W1 … W6` of shapes [128,12], [12,10], [10,8], [8,6], [6,4], [4,8] and the one-row biases `b1 … b6`, the outputs are, whatever they
  held before:

    output 0 ([128, 8]):  W1 · (W2 · (W3 · (W4 · (W5 · W6))))
    output 1 ([1, 8]):    b1 · (W2 · (W3 · (W4 · (W5 · W6))))
    output 2 ([1, 8]):    b2 · (W3 · (W4 · (W5 · W6)))
    output 3 ([1, 8]):    b3 · (W4 · (W5 · W6))
    output 4 ([1, 8]):    b4 · (W5 · W6)
    output 5 ([1, 8]):    b5 · W6
    output 6 ([1, 8]):    b6

  Each is proved the same way: the stored value at an index is the table entry (the payload read at an index), the block's
  index in the array is the index itself (block index zero, block size the array's), and the one block covers the array.
-/
import proofs.«133166_g5102421148072_cont_8to1c4_848_3_alg».proof.Proof.Gen.KernelIdeal.Frame
import proofs.«133166_g5102421148072_cont_8to1c4_848_3_alg».proof.Proof.Tables
import proofs.«133166_g5102421148072_cont_8to1c4_848_3_alg».proof.Proof.KPay
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The six weights as the kernel finds them, read as tables. -/
abbrev w1 (c : Dev nD) := cur2 (A := 128) (B := 12) (V c main_arg2)
abbrev w2 (c : Dev nD) := cur2 (A := 12) (B := 10) (V c main_arg4)
abbrev w3 (c : Dev nD) := cur2 (A := 10) (B := 8) (V c main_arg6)
abbrev w4 (c : Dev nD) := cur2 (A := 8) (B := 6) (V c main_arg8)
abbrev w5 (c : Dev nD) := cur2 (A := 6) (B := 4) (V c main_arg10)
abbrev w6 (c : Dev nD) := cur2 (A := 4) (B := 8) (V c main_arg12)

/-! ## The block index maps: every window's block index is zero on both axes -/

theorem idx0_0 : ∀ t : Fin cfg0.N, win0_0.index t (0 : Fin 2) = 0 ∧ win0_0.index t (1 : Fin 2) = 0 := fun _ => ⟨rfl, rfl⟩
theorem idx0_1 : ∀ t : Fin cfg0.N, win0_1.index t (0 : Fin 2) = 0 ∧ win0_1.index t (1 : Fin 2) = 0 := fun _ => ⟨rfl, rfl⟩
theorem idx0_2 : ∀ t : Fin cfg0.N, win0_2.index t (0 : Fin 2) = 0 ∧ win0_2.index t (1 : Fin 2) = 0 := fun _ => ⟨rfl, rfl⟩
theorem idx0_3 : ∀ t : Fin cfg0.N, win0_3.index t (0 : Fin 2) = 0 ∧ win0_3.index t (1 : Fin 2) = 0 := fun _ => ⟨rfl, rfl⟩
theorem idx0_4 : ∀ t : Fin cfg0.N, win0_4.index t (0 : Fin 2) = 0 ∧ win0_4.index t (1 : Fin 2) = 0 := fun _ => ⟨rfl, rfl⟩
theorem idx0_5 : ∀ t : Fin cfg0.N, win0_5.index t (0 : Fin 2) = 0 ∧ win0_5.index t (1 : Fin 2) = 0 := fun _ => ⟨rfl, rfl⟩
theorem idx0_6 : ∀ t : Fin cfg0.N, win0_6.index t (0 : Fin 2) = 0 ∧ win0_6.index t (1 : Fin 2) = 0 := fun _ => ⟨rfl, rfl⟩
theorem idx0_7 : ∀ t : Fin cfg0.N, win0_7.index t (0 : Fin 2) = 0 ∧ win0_7.index t (1 : Fin 2) = 0 := fun _ => ⟨rfl, rfl⟩
theorem idx0_8 : ∀ t : Fin cfg0.N, win0_8.index t (0 : Fin 2) = 0 ∧ win0_8.index t (1 : Fin 2) = 0 := fun _ => ⟨rfl, rfl⟩
theorem idx0_9 : ∀ t : Fin cfg0.N, win0_9.index t (0 : Fin 2) = 0 ∧ win0_9.index t (1 : Fin 2) = 0 := fun _ => ⟨rfl, rfl⟩
theorem idx0_10 : ∀ t : Fin cfg0.N, win0_10.index t (0 : Fin 2) = 0 ∧ win0_10.index t (1 : Fin 2) = 0 := fun _ => ⟨rfl, rfl⟩
theorem idx0_11 : ∀ t : Fin cfg0.N, win0_11.index t (0 : Fin 2) = 0 ∧ win0_11.index t (1 : Fin 2) = 0 := fun _ => ⟨rfl, rfl⟩
theorem idx0_12 : ∀ t : Fin cfg0.N, win0_12.index t (0 : Fin 2) = 0 ∧ win0_12.index t (1 : Fin 2) = 0 := fun _ => ⟨rfl, rfl⟩
theorem idx0_13 : ∀ t : Fin cfg0.N, win0_13.index t (0 : Fin 2) = 0 ∧ win0_13.index t (1 : Fin 2) = 0 := fun _ => ⟨rfl, rfl⟩
theorem idx0_14 : ∀ t : Fin cfg0.N, win0_14.index t (0 : Fin 2) = 0 ∧ win0_14.index t (1 : Fin 2) = 0 := fun _ => ⟨rfl, rfl⟩
theorem idx0_15 : ∀ t : Fin cfg0.N, win0_15.index t (0 : Fin 2) = 0 ∧ win0_15.index t (1 : Fin 2) = 0 := fun _ => ⟨rfl, rfl⟩
theorem idx0_16 : ∀ t : Fin cfg0.N, win0_16.index t (0 : Fin 2) = 0 ∧ win0_16.index t (1 : Fin 2) = 0 := fun _ => ⟨rfl, rfl⟩
theorem idx0_17 : ∀ t : Fin cfg0.N, win0_17.index t (0 : Fin 2) = 0 ∧ win0_17.index t (1 : Fin 2) = 0 := fun _ => ⟨rfl, rfl⟩
theorem idx0_18 : ∀ t : Fin cfg0.N, win0_18.index t (0 : Fin 2) = 0 ∧ win0_18.index t (1 : Fin 2) = 0 := fun _ => ⟨rfl, rfl⟩

/-! ## The input windows: each block is its whole array -/

/-- The window of the first weight is its whole array. -/
theorem iblk_0 (c : Dev nD) (t : Fin cfg0.N) : iblk0 V c 0 t = V c main_arg2 := by
  obtain ⟨e0, e1⟩ := idx0_0 t
  funext y
  show V c main_arg2 (((cfg0.win 0).blk t).view.emb y) = V c main_arg2 y
  refine congrArg _ (funext fun a => Fin.ext ?_)
  match a with
  | ⟨0, _⟩ => show win0_0.index t (0 : Fin 2) * 128 + 1 * (y 0).val = (y 0).val; omega
  | ⟨1, _⟩ => show win0_0.index t (1 : Fin 2) * 12 + 1 * (y 1).val = (y 1).val; omega

/-- The window of the second weight is its whole array. -/
theorem iblk_1 (c : Dev nD) (t : Fin cfg0.N) : iblk0 V c 1 t = V c main_arg4 := by
  obtain ⟨e0, e1⟩ := idx0_1 t
  funext y
  show V c main_arg4 (((cfg0.win 1).blk t).view.emb y) = V c main_arg4 y
  refine congrArg _ (funext fun a => Fin.ext ?_)
  match a with
  | ⟨0, _⟩ => show win0_1.index t (0 : Fin 2) * 12 + 1 * (y 0).val = (y 0).val; omega
  | ⟨1, _⟩ => show win0_1.index t (1 : Fin 2) * 10 + 1 * (y 1).val = (y 1).val; omega

/-- The window of the third weight is its whole array. -/
theorem iblk_2 (c : Dev nD) (t : Fin cfg0.N) : iblk0 V c 2 t = V c main_arg6 := by
  obtain ⟨e0, e1⟩ := idx0_2 t
  funext y
  show V c main_arg6 (((cfg0.win 2).blk t).view.emb y) = V c main_arg6 y
  refine congrArg _ (funext fun a => Fin.ext ?_)
  match a with
  | ⟨0, _⟩ => show win0_2.index t (0 : Fin 2) * 10 + 1 * (y 0).val = (y 0).val; omega
  | ⟨1, _⟩ => show win0_2.index t (1 : Fin 2) * 8 + 1 * (y 1).val = (y 1).val; omega

/-- The window of the fourth weight is its whole array. -/
theorem iblk_3 (c : Dev nD) (t : Fin cfg0.N) : iblk0 V c 3 t = V c main_arg8 := by
  obtain ⟨e0, e1⟩ := idx0_3 t
  funext y
  show V c main_arg8 (((cfg0.win 3).blk t).view.emb y) = V c main_arg8 y
  refine congrArg _ (funext fun a => Fin.ext ?_)
  match a with
  | ⟨0, _⟩ => show win0_3.index t (0 : Fin 2) * 8 + 1 * (y 0).val = (y 0).val; omega
  | ⟨1, _⟩ => show win0_3.index t (1 : Fin 2) * 6 + 1 * (y 1).val = (y 1).val; omega

/-- The window of the fifth weight is its whole array. -/
theorem iblk_4 (c : Dev nD) (t : Fin cfg0.N) : iblk0 V c 4 t = V c main_arg10 := by
  obtain ⟨e0, e1⟩ := idx0_4 t
  funext y
  show V c main_arg10 (((cfg0.win 4).blk t).view.emb y) = V c main_arg10 y
  refine congrArg _ (funext fun a => Fin.ext ?_)
  match a with
  | ⟨0, _⟩ => show win0_4.index t (0 : Fin 2) * 6 + 1 * (y 0).val = (y 0).val; omega
  | ⟨1, _⟩ => show win0_4.index t (1 : Fin 2) * 4 + 1 * (y 1).val = (y 1).val; omega

/-- The window of the sixth weight is its whole array. -/
theorem iblk_5 (c : Dev nD) (t : Fin cfg0.N) : iblk0 V c 5 t = V c main_arg12 := by
  obtain ⟨e0, e1⟩ := idx0_5 t
  funext y
  show V c main_arg12 (((cfg0.win 5).blk t).view.emb y) = V c main_arg12 y
  refine congrArg _ (funext fun a => Fin.ext ?_)
  match a with
  | ⟨0, _⟩ => show win0_5.index t (0 : Fin 2) * 4 + 1 * (y 0).val = (y 0).val; omega
  | ⟨1, _⟩ => show win0_5.index t (1 : Fin 2) * 8 + 1 * (y 1).val = (y 1).val; omega

/-- The window of the first bias row is its whole array. -/
theorem iblk_6 (c : Dev nD) (t : Fin cfg0.N) : iblk0 V c 6 t = V c main_v0 := by
  obtain ⟨e0, e1⟩ := idx0_6 t
  funext y
  show V c main_v0 (((cfg0.win 6).blk t).view.emb y) = V c main_v0 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 12 + 1 * (y 1).val = (y 1).val; omega

/-- The window of the second bias row is its whole array. -/
theorem iblk_7 (c : Dev nD) (t : Fin cfg0.N) : iblk0 V c 7 t = V c main_v1 := by
  obtain ⟨e0, e1⟩ := idx0_7 t
  funext y
  show V c main_v1 (((cfg0.win 7).blk t).view.emb y) = V c main_v1 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 10 + 1 * (y 1).val = (y 1).val; omega

/-- The window of the third bias row is its whole array. -/
theorem iblk_8 (c : Dev nD) (t : Fin cfg0.N) : iblk0 V c 8 t = V c main_v2 := by
  obtain ⟨e0, e1⟩ := idx0_8 t
  funext y
  show V c main_v2 (((cfg0.win 8).blk t).view.emb y) = V c main_v2 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 8 + 1 * (y 1).val = (y 1).val; omega

/-- The window of the fourth bias row is its whole array. -/
theorem iblk_9 (c : Dev nD) (t : Fin cfg0.N) : iblk0 V c 9 t = V c main_v3 := by
  obtain ⟨e0, e1⟩ := idx0_9 t
  funext y
  show V c main_v3 (((cfg0.win 9).blk t).view.emb y) = V c main_v3 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 6 + 1 * (y 1).val = (y 1).val; omega

/-- The window of the fifth bias row is its whole array. -/
theorem iblk_10 (c : Dev nD) (t : Fin cfg0.N) : iblk0 V c 10 t = V c main_v4 := by
  obtain ⟨e0, e1⟩ := idx0_10 t
  funext y
  show V c main_v4 (((cfg0.win 10).blk t).view.emb y) = V c main_v4 y
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 4 + 1 * (y 1).val = (y 1).val; omega

/-- The window of the sixth bias row is its whole array. -/
theorem iblk_11 (c : Dev nD) (t : Fin cfg0.N) : iblk0 V c 11 t = V c main_v5 := by
  obtain ⟨e0, e1⟩ := idx0_11 t
  funext y
  show V c main_v5 (((cfg0.win 11).blk t).view.emb y) = V c main_v5 y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 8 + 1 * (y 1).val = (y 1).val; omega

/-! ## What each store holds, at an index, over any input blocks -/

/-- The stored table of the first output at `(r, j)`: the product of all six weights. -/
theorem blk12 (v0 : Vec Ideal S4x8 .f32) (v1 : Vec Ideal S6x4 .f32) (v3 : Vec Ideal S8x6 .f32) (v5 : Vec Ideal S10x8 .f32) (v7 : Vec Ideal S12x10 .f32) (v9 : Vec Ideal S128x12 .f32) (r : Fin 128) (j : Fin 8) :
    k0_pay8 v0 v1 v3 v5 v7 v9 (ix2 r j) = unc2 (suf1 (cur2 (A := 128) (B := 12) v9) (cur2 (A := 12) (B := 10) v7) (cur2 (A := 10) (B := 8) v5) (cur2 (A := 8) (B := 6) v3) (cur2 (A := 6) (B := 4) v1) (cur2 (A := 4) (B := 8) v0)) (ix2 r j) :=
  Cert.KPay.pay8_at v0 v1 v3 v5 v7 v9 r j

/-- The second output's row at `j`: the first bias times the product of the last five weights. -/
theorem blk13 (v0 : Vec Ideal S4x8 .f32) (v1 : Vec Ideal S6x4 .f32) (v3 : Vec Ideal S8x6 .f32) (v5 : Vec Ideal S10x8 .f32) (v7 : Vec Ideal S12x10 .f32) (v12 : Vec Ideal S1x12 .f32) (r : Fin 1) (j : Fin 8) :
    k0_pay9 v0 v1 v3 v5 v7 v12 (ix2 r j) = unrow (vm (row1 (A := 12) v12) (suf2 (cur2 (A := 12) (B := 10) v7) (cur2 (A := 10) (B := 8) v5) (cur2 (A := 8) (B := 6) v3) (cur2 (A := 6) (B := 4) v1) (cur2 (A := 4) (B := 8) v0))) (ix2 r j) := by
  obtain rfl : r = 0 := Subsingleton.elim _ _
  exact Cert.KPay.pay9_at v0 v1 v3 v5 v7 v12 j

/-- The third output's row at `j`: the second bias times the product of the last four weights. -/
theorem blk14 (v0 : Vec Ideal S4x8 .f32) (v1 : Vec Ideal S6x4 .f32) (v3 : Vec Ideal S8x6 .f32) (v5 : Vec Ideal S10x8 .f32) (v16 : Vec Ideal S1x10 .f32) (r : Fin 1) (j : Fin 8) :
    k0_pay10 v0 v1 v3 v5 v16 (ix2 r j) = unrow (vm (row1 (A := 10) v16) (suf3 (cur2 (A := 10) (B := 8) v5) (cur2 (A := 8) (B := 6) v3) (cur2 (A := 6) (B := 4) v1) (cur2 (A := 4) (B := 8) v0))) (ix2 r j) := by
  obtain rfl : r = 0 := Subsingleton.elim _ _
  exact Cert.KPay.pay10_at v0 v1 v3 v5 v16 j

/-- The fourth output's row at `j`: the third bias times the product of the last three weights. -/
theorem blk15 (v0 : Vec Ideal S4x8 .f32) (v1 : Vec Ideal S6x4 .f32) (v3 : Vec Ideal S8x6 .f32) (v20 : Vec Ideal S1x8 .f32) (r : Fin 1) (j : Fin 8) :
    k0_pay11 v0 v1 v3 v20 (ix2 r j) = unrow (vm (row1 (A := 8) v20) (suf4 (cur2 (A := 8) (B := 6) v3) (cur2 (A := 6) (B := 4) v1) (cur2 (A := 4) (B := 8) v0))) (ix2 r j) := by
  obtain rfl : r = 0 := Subsingleton.elim _ _
  exact Cert.KPay.pay11_at v0 v1 v3 v20 j

/-- The fifth output's row at `j`: the fourth bias times the product of the last two weights; the product is itself
    a stored table, read entry by entry. -/
theorem blk16 (v0 : Vec Ideal S4x8 .f32) (v1 : Vec Ideal S6x4 .f32) (v24 : Vec Ideal S1x6 .f32) (r : Fin 1) (j : Fin 8) :
    k0_pay1 (k0_pay4 v0 v1) v24 (ix2 r j) = unrow (vm (row1 (A := 6) v24) (suf5 (cur2 (A := 6) (B := 4) v1) (cur2 (A := 4) (B := 8) v0))) (ix2 r j) := by
  obtain rfl : r = 0 := Subsingleton.elim _ _
  refine (Cert.KPay.pay1_at (k0_pay4 v0 v1) v24 j).trans ?_
  have h : cur2 (A := 6) (B := 8) (k0_pay4 v0 v1) = mm (cur2 (A := 6) (B := 4) v1) (cur2 (A := 4) (B := 8) v0) :=
    funext fun i => funext fun k => Cert.KPay.pay4_at v0 v1 i k
  rw [h]
  rfl

/-- The sixth output's row at `j`: the fifth bias times the last weight. -/
theorem blk17 (v0 : Vec Ideal S4x8 .f32) (v28 : Vec Ideal S1x4 .f32) (r : Fin 1) (j : Fin 8) :
    k0_pay2 v0 v28 (ix2 r j) = unrow (vm (row1 (A := 4) v28) (cur2 (A := 4) (B := 8) v0)) (ix2 r j) := by
  obtain rfl : r = 0 := Subsingleton.elim _ _
  exact Cert.KPay.pay2_at v0 v28 j

/-- The seventh output's row at `j`: the last bias itself. -/
theorem blk18 (v32 : Vec Ideal S1x8 .f32) (r : Fin 1) (j : Fin 8) :
    k0_pay3 v32 (ix2 r j) = unrow (row1 (A := 8) v32) (ix2 r j) := by
  obtain rfl : r = 0 := Subsingleton.elim _ _
  exact Cert.KPay.pay3_at v32 j

/-! ## The outputs: what the one grid point writes back, that its block is the whole array, and the array after the kernel -/

/-- What the one grid point writes back to the first output is the product of the six weights of the arrays as the kernel finds them. -/
theorem flushed12 (c : Dev nD) (t : Fin cfg0.N) :
    (dat0 V c).flushed 12 t = ((cfg0.win 12).blk t).view.read (Elt Ideal) (unc2 (suf1 (w1 V c) (w2 V c) (w3 V c) (w4 V c) (w5 V c) (w6 V c))) := by
  show (cfg0.win 12).cut (grid0.coords t) ((dat0 V c).after 12 t) = _
  rw [after0_12]
  unfold out0_12
  rw [View.canon_unit_zero hz]
  simp only [View.ld_unit_zero (S := S4x8) hz, View.ld_unit_zero (S := S6x4) hz, View.ld_unit_zero (S := S8x6) hz, View.ld_unit_zero (S := S10x8) hz, View.ld_unit_zero (S := S12x10) hz, View.ld_unit_zero (S := S128x12) hz]
  rw [iblk_0 V c t, iblk_1 V c t, iblk_2 V c t, iblk_3 V c t, iblk_4 V c t, iblk_5 V c t]
  obtain ⟨e0, e1⟩ := idx0_12 t
  funext y
  obtain ⟨r, j, rfl⟩ : ∃ (r : Fin 128) (j : Fin 8), y = ix2 r j := ⟨y 0, y 1, eq_ix2 y⟩
  show k0_pay8 (V c main_arg12) (V c main_arg10) (V c main_arg8) (V c main_arg6) (V c main_arg4) (V c main_arg2) (ix2 r j)
    = (unc2 (suf1 (w1 V c) (w2 V c) (w3 V c) (w4 V c) (w5 V c) (w6 V c))) (((cfg0.win 12).blk t).view.emb (ix2 r j))
  refine (blk12 (V c main_arg12) (V c main_arg10) (V c main_arg8) (V c main_arg6) (V c main_arg4) (V c main_arg2) r j).trans ?_
  refine congrArg _ (funext fun a => Fin.ext ?_)
  match a with
  | ⟨0, _⟩ => show r.val = win0_12.index t (0 : Fin 2) * 128 + 1 * r.val; omega
  | ⟨1, _⟩ => show j.val = win0_12.index t (1 : Fin 2) * 8 + 1 * j.val; omega

/-- An index of the output array is in the point's block iff each coordinate is in the block's range on its axis. -/
theorem mem_blk12 (t : Fin cfg0.N) (i : S128x8.Idx) :
    i ∈ ((cfg0.win 12).blk t).view.set ↔ ∀ a : Fin 2, win0_12.index t a * S128x8.size a ≤ (i a).val ∧ (i a).val < win0_12.index t a * S128x8.size a + S128x8.size a := by
  show i ∈ ((View.whole main_v6_0).slice (win0_12.rect t)).set ↔ _
  rw [View.set_slice_whole, Rect.mem_set_unit]
  exact Iff.rfl

/-- The one grid point's block is the whole output array. -/
theorem cover12 (i : S128x8.Idx) : ∃ t : Fin cfg0.N, (cfg0.win 12).flush t = true ∧ i ∈ ((cfg0.win 12).blk t).view.set := by
  have hi0 : (i 0).val < 128 := (i 0).isLt
  have hi1 : (i 1).val < 8 := (i 1).isLt
  obtain ⟨e0, e1⟩ := idx0_12 t0_0
  refine ⟨t0_0, flush0_12 t0_0, ?_⟩
  rw [mem_blk12]
  intro a
  match a with
  | ⟨0, _⟩ => show win0_12.index t0_0 (0 : Fin 2) * 128 ≤ (i 0).val ∧ (i 0).val < win0_12.index t0_0 (0 : Fin 2) * 128 + 128; omega
  | ⟨1, _⟩ => show win0_12.index t0_0 (1 : Fin 2) * 8 ≤ (i 1).val ∧ (i 1).val < win0_12.index t0_0 (1 : Fin 2) * 8 + 8; omega

/-- The first output array after the kernel: the product of the six weights, `W1 · (W2 · (W3 · (W4 · (W5 · W6))))`. -/
theorem final12 (c : Dev nD) : (dat0 V c).arrAt 12 cfg0.N = unc2 (suf1 (w1 V c) (w2 V c) (w3 V c) (w4 V c) (w5 V c) (w6 V c)) :=
  (dat0 V c).arrAt_eq_of_cover 12 _ (fun t _ => flushed12 V c t) cover12

/-- What the one grid point writes back to the second output is the first bias folded through the last five weights. -/
theorem flushed13 (c : Dev nD) (t : Fin cfg0.N) :
    (dat0 V c).flushed 13 t = ((cfg0.win 13).blk t).view.read (Elt Ideal) (unrow (vm (row1 (A := 12) (V c main_v0)) (suf2 (w2 V c) (w3 V c) (w4 V c) (w5 V c) (w6 V c)))) := by
  show (cfg0.win 13).cut (grid0.coords t) ((dat0 V c).after 13 t) = _
  rw [after0_13]
  unfold out0_13
  rw [View.canon_unit_zero hz]
  simp only [View.ld_unit_zero (S := S4x8) hz, View.ld_unit_zero (S := S6x4) hz, View.ld_unit_zero (S := S8x6) hz, View.ld_unit_zero (S := S10x8) hz, View.ld_unit_zero (S := S12x10) hz, View.ld_unit_zero (S := S1x12) hz]
  rw [iblk_1 V c t, iblk_2 V c t, iblk_3 V c t, iblk_4 V c t, iblk_5 V c t, iblk_6 V c t]
  obtain ⟨e0, e1⟩ := idx0_13 t
  funext y
  obtain ⟨r, j, rfl⟩ : ∃ (r : Fin 1) (j : Fin 8), y = ix2 r j := ⟨y 0, y 1, eq_ix2 y⟩
  show k0_pay9 (V c main_arg12) (V c main_arg10) (V c main_arg8) (V c main_arg6) (V c main_arg4) (V c main_v0) (ix2 r j)
    = (unrow (vm (row1 (A := 12) (V c main_v0)) (suf2 (w2 V c) (w3 V c) (w4 V c) (w5 V c) (w6 V c)))) (((cfg0.win 13).blk t).view.emb (ix2 r j))
  refine (blk13 (V c main_arg12) (V c main_arg10) (V c main_arg8) (V c main_arg6) (V c main_arg4) (V c main_v0) r j).trans ?_
  refine congrArg _ (funext fun a => Fin.ext ?_)
  match a with
  | ⟨0, _⟩ => show r.val = win0_13.index t (0 : Fin 2) * 1 + 1 * r.val; omega
  | ⟨1, _⟩ => show j.val = win0_13.index t (1 : Fin 2) * 8 + 1 * j.val; omega

/-- An index of the output array is in the point's block iff each coordinate is in the block's range on its axis. -/
theorem mem_blk13 (t : Fin cfg0.N) (i : S1x8.Idx) :
    i ∈ ((cfg0.win 13).blk t).view.set ↔ ∀ a : Fin 2, win0_13.index t a * S1x8.size a ≤ (i a).val ∧ (i a).val < win0_13.index t a * S1x8.size a + S1x8.size a := by
  show i ∈ ((View.whole main_v6_1).slice (win0_13.rect t)).set ↔ _
  rw [View.set_slice_whole, Rect.mem_set_unit]
  exact Iff.rfl

/-- The one grid point's block is the whole output array. -/
theorem cover13 (i : S1x8.Idx) : ∃ t : Fin cfg0.N, (cfg0.win 13).flush t = true ∧ i ∈ ((cfg0.win 13).blk t).view.set := by
  have hi0 : (i 0).val < 1 := (i 0).isLt
  have hi1 : (i 1).val < 8 := (i 1).isLt
  obtain ⟨e0, e1⟩ := idx0_13 t0_0
  refine ⟨t0_0, flush0_13 t0_0, ?_⟩
  rw [mem_blk13]
  intro a
  match a with
  | ⟨0, _⟩ => show win0_13.index t0_0 (0 : Fin 2) * 1 ≤ (i 0).val ∧ (i 0).val < win0_13.index t0_0 (0 : Fin 2) * 1 + 1; omega
  | ⟨1, _⟩ => show win0_13.index t0_0 (1 : Fin 2) * 8 ≤ (i 1).val ∧ (i 1).val < win0_13.index t0_0 (1 : Fin 2) * 8 + 8; omega

/-- The second output array after the kernel: the one row `b1 · (W2 · (W3 · (W4 · (W5 · W6))))`. -/
theorem final13 (c : Dev nD) : (dat0 V c).arrAt 13 cfg0.N = unrow (vm (row1 (A := 12) (V c main_v0)) (suf2 (w2 V c) (w3 V c) (w4 V c) (w5 V c) (w6 V c))) :=
  (dat0 V c).arrAt_eq_of_cover 13 _ (fun t _ => flushed13 V c t) cover13

/-- What the one grid point writes back to the third output is the second bias folded through the last four weights. -/
theorem flushed14 (c : Dev nD) (t : Fin cfg0.N) :
    (dat0 V c).flushed 14 t = ((cfg0.win 14).blk t).view.read (Elt Ideal) (unrow (vm (row1 (A := 10) (V c main_v1)) (suf3 (w3 V c) (w4 V c) (w5 V c) (w6 V c)))) := by
  show (cfg0.win 14).cut (grid0.coords t) ((dat0 V c).after 14 t) = _
  rw [after0_14]
  unfold out0_14
  rw [View.canon_unit_zero hz]
  simp only [View.ld_unit_zero (S := S4x8) hz, View.ld_unit_zero (S := S6x4) hz, View.ld_unit_zero (S := S8x6) hz, View.ld_unit_zero (S := S10x8) hz, View.ld_unit_zero (S := S1x10) hz]
  rw [iblk_2 V c t, iblk_3 V c t, iblk_4 V c t, iblk_5 V c t, iblk_7 V c t]
  obtain ⟨e0, e1⟩ := idx0_14 t
  funext y
  obtain ⟨r, j, rfl⟩ : ∃ (r : Fin 1) (j : Fin 8), y = ix2 r j := ⟨y 0, y 1, eq_ix2 y⟩
  show k0_pay10 (V c main_arg12) (V c main_arg10) (V c main_arg8) (V c main_arg6) (V c main_v1) (ix2 r j)
    = (unrow (vm (row1 (A := 10) (V c main_v1)) (suf3 (w3 V c) (w4 V c) (w5 V c) (w6 V c)))) (((cfg0.win 14).blk t).view.emb (ix2 r j))
  refine (blk14 (V c main_arg12) (V c main_arg10) (V c main_arg8) (V c main_arg6) (V c main_v1) r j).trans ?_
  refine congrArg _ (funext fun a => Fin.ext ?_)
  match a with
  | ⟨0, _⟩ => show r.val = win0_14.index t (0 : Fin 2) * 1 + 1 * r.val; omega
  | ⟨1, _⟩ => show j.val = win0_14.index t (1 : Fin 2) * 8 + 1 * j.val; omega

/-- An index of the output array is in the point's block iff each coordinate is in the block's range on its axis. -/
theorem mem_blk14 (t : Fin cfg0.N) (i : S1x8.Idx) :
    i ∈ ((cfg0.win 14).blk t).view.set ↔ ∀ a : Fin 2, win0_14.index t a * S1x8.size a ≤ (i a).val ∧ (i a).val < win0_14.index t a * S1x8.size a + S1x8.size a := by
  show i ∈ ((View.whole main_v6_2).slice (win0_14.rect t)).set ↔ _
  rw [View.set_slice_whole, Rect.mem_set_unit]
  exact Iff.rfl

/-- The one grid point's block is the whole output array. -/
theorem cover14 (i : S1x8.Idx) : ∃ t : Fin cfg0.N, (cfg0.win 14).flush t = true ∧ i ∈ ((cfg0.win 14).blk t).view.set := by
  have hi0 : (i 0).val < 1 := (i 0).isLt
  have hi1 : (i 1).val < 8 := (i 1).isLt
  obtain ⟨e0, e1⟩ := idx0_14 t0_0
  refine ⟨t0_0, flush0_14 t0_0, ?_⟩
  rw [mem_blk14]
  intro a
  match a with
  | ⟨0, _⟩ => show win0_14.index t0_0 (0 : Fin 2) * 1 ≤ (i 0).val ∧ (i 0).val < win0_14.index t0_0 (0 : Fin 2) * 1 + 1; omega
  | ⟨1, _⟩ => show win0_14.index t0_0 (1 : Fin 2) * 8 ≤ (i 1).val ∧ (i 1).val < win0_14.index t0_0 (1 : Fin 2) * 8 + 8; omega

/-- The third output array after the kernel: the one row `b2 · (W3 · (W4 · (W5 · W6)))`. -/
theorem final14 (c : Dev nD) : (dat0 V c).arrAt 14 cfg0.N = unrow (vm (row1 (A := 10) (V c main_v1)) (suf3 (w3 V c) (w4 V c) (w5 V c) (w6 V c))) :=
  (dat0 V c).arrAt_eq_of_cover 14 _ (fun t _ => flushed14 V c t) cover14

/-- What the one grid point writes back to the fourth output is the third bias folded through the last three weights. -/
theorem flushed15 (c : Dev nD) (t : Fin cfg0.N) :
    (dat0 V c).flushed 15 t = ((cfg0.win 15).blk t).view.read (Elt Ideal) (unrow (vm (row1 (A := 8) (V c main_v2)) (suf4 (w4 V c) (w5 V c) (w6 V c)))) := by
  show (cfg0.win 15).cut (grid0.coords t) ((dat0 V c).after 15 t) = _
  rw [after0_15]
  unfold out0_15
  rw [View.canon_unit_zero hz]
  simp only [View.ld_unit_zero (S := S4x8) hz, View.ld_unit_zero (S := S6x4) hz, View.ld_unit_zero (S := S8x6) hz, View.ld_unit_zero (S := S1x8) hz]
  rw [iblk_3 V c t, iblk_4 V c t, iblk_5 V c t, iblk_8 V c t]
  obtain ⟨e0, e1⟩ := idx0_15 t
  funext y
  obtain ⟨r, j, rfl⟩ : ∃ (r : Fin 1) (j : Fin 8), y = ix2 r j := ⟨y 0, y 1, eq_ix2 y⟩
  show k0_pay11 (V c main_arg12) (V c main_arg10) (V c main_arg8) (V c main_v2) (ix2 r j)
    = (unrow (vm (row1 (A := 8) (V c main_v2)) (suf4 (w4 V c) (w5 V c) (w6 V c)))) (((cfg0.win 15).blk t).view.emb (ix2 r j))
  refine (blk15 (V c main_arg12) (V c main_arg10) (V c main_arg8) (V c main_v2) r j).trans ?_
  refine congrArg _ (funext fun a => Fin.ext ?_)
  match a with
  | ⟨0, _⟩ => show r.val = win0_15.index t (0 : Fin 2) * 1 + 1 * r.val; omega
  | ⟨1, _⟩ => show j.val = win0_15.index t (1 : Fin 2) * 8 + 1 * j.val; omega

/-- An index of the output array is in the point's block iff each coordinate is in the block's range on its axis. -/
theorem mem_blk15 (t : Fin cfg0.N) (i : S1x8.Idx) :
    i ∈ ((cfg0.win 15).blk t).view.set ↔ ∀ a : Fin 2, win0_15.index t a * S1x8.size a ≤ (i a).val ∧ (i a).val < win0_15.index t a * S1x8.size a + S1x8.size a := by
  show i ∈ ((View.whole main_v6_3).slice (win0_15.rect t)).set ↔ _
  rw [View.set_slice_whole, Rect.mem_set_unit]
  exact Iff.rfl

/-- The one grid point's block is the whole output array. -/
theorem cover15 (i : S1x8.Idx) : ∃ t : Fin cfg0.N, (cfg0.win 15).flush t = true ∧ i ∈ ((cfg0.win 15).blk t).view.set := by
  have hi0 : (i 0).val < 1 := (i 0).isLt
  have hi1 : (i 1).val < 8 := (i 1).isLt
  obtain ⟨e0, e1⟩ := idx0_15 t0_0
  refine ⟨t0_0, flush0_15 t0_0, ?_⟩
  rw [mem_blk15]
  intro a
  match a with
  | ⟨0, _⟩ => show win0_15.index t0_0 (0 : Fin 2) * 1 ≤ (i 0).val ∧ (i 0).val < win0_15.index t0_0 (0 : Fin 2) * 1 + 1; omega
  | ⟨1, _⟩ => show win0_15.index t0_0 (1 : Fin 2) * 8 ≤ (i 1).val ∧ (i 1).val < win0_15.index t0_0 (1 : Fin 2) * 8 + 8; omega

/-- The fourth output array after the kernel: the one row `b3 · (W4 · (W5 · W6))`. -/
theorem final15 (c : Dev nD) : (dat0 V c).arrAt 15 cfg0.N = unrow (vm (row1 (A := 8) (V c main_v2)) (suf4 (w4 V c) (w5 V c) (w6 V c))) :=
  (dat0 V c).arrAt_eq_of_cover 15 _ (fun t _ => flushed15 V c t) cover15

/-- What the one grid point writes back to the fifth output is the fourth bias folded through the last two weights. -/
theorem flushed16 (c : Dev nD) (t : Fin cfg0.N) :
    (dat0 V c).flushed 16 t = ((cfg0.win 16).blk t).view.read (Elt Ideal) (unrow (vm (row1 (A := 6) (V c main_v3)) (suf5 (w5 V c) (w6 V c)))) := by
  show (cfg0.win 16).cut (grid0.coords t) ((dat0 V c).after 16 t) = _
  rw [after0_16]
  unfold out0_16
  rw [View.canon_unit_zero hz]
  simp only [View.ld_unit_zero (S := S4x8) hz, View.ld_unit_zero (S := S6x4) hz, View.ld_unit_zero (S := S1x6) hz]
  rw [iblk_4 V c t, iblk_5 V c t, iblk_9 V c t]
  obtain ⟨e0, e1⟩ := idx0_16 t
  funext y
  obtain ⟨r, j, rfl⟩ : ∃ (r : Fin 1) (j : Fin 8), y = ix2 r j := ⟨y 0, y 1, eq_ix2 y⟩
  show k0_pay1 (k0_pay4 (V c main_arg12) (V c main_arg10)) (V c main_v3) (ix2 r j)
    = (unrow (vm (row1 (A := 6) (V c main_v3)) (suf5 (w5 V c) (w6 V c)))) (((cfg0.win 16).blk t).view.emb (ix2 r j))
  refine (blk16 (V c main_arg12) (V c main_arg10) (V c main_v3) r j).trans ?_
  refine congrArg _ (funext fun a => Fin.ext ?_)
  match a with
  | ⟨0, _⟩ => show r.val = win0_16.index t (0 : Fin 2) * 1 + 1 * r.val; omega
  | ⟨1, _⟩ => show j.val = win0_16.index t (1 : Fin 2) * 8 + 1 * j.val; omega

/-- An index of the output array is in the point's block iff each coordinate is in the block's range on its axis. -/
theorem mem_blk16 (t : Fin cfg0.N) (i : S1x8.Idx) :
    i ∈ ((cfg0.win 16).blk t).view.set ↔ ∀ a : Fin 2, win0_16.index t a * S1x8.size a ≤ (i a).val ∧ (i a).val < win0_16.index t a * S1x8.size a + S1x8.size a := by
  show i ∈ ((View.whole main_v6_4).slice (win0_16.rect t)).set ↔ _
  rw [View.set_slice_whole, Rect.mem_set_unit]
  exact Iff.rfl

/-- The one grid point's block is the whole output array. -/
theorem cover16 (i : S1x8.Idx) : ∃ t : Fin cfg0.N, (cfg0.win 16).flush t = true ∧ i ∈ ((cfg0.win 16).blk t).view.set := by
  have hi0 : (i 0).val < 1 := (i 0).isLt
  have hi1 : (i 1).val < 8 := (i 1).isLt
  obtain ⟨e0, e1⟩ := idx0_16 t0_0
  refine ⟨t0_0, flush0_16 t0_0, ?_⟩
  rw [mem_blk16]
  intro a
  match a with
  | ⟨0, _⟩ => show win0_16.index t0_0 (0 : Fin 2) * 1 ≤ (i 0).val ∧ (i 0).val < win0_16.index t0_0 (0 : Fin 2) * 1 + 1; omega
  | ⟨1, _⟩ => show win0_16.index t0_0 (1 : Fin 2) * 8 ≤ (i 1).val ∧ (i 1).val < win0_16.index t0_0 (1 : Fin 2) * 8 + 8; omega

/-- The fifth output array after the kernel: the one row `b4 · (W5 · W6)`. -/
theorem final16 (c : Dev nD) : (dat0 V c).arrAt 16 cfg0.N = unrow (vm (row1 (A := 6) (V c main_v3)) (suf5 (w5 V c) (w6 V c))) :=
  (dat0 V c).arrAt_eq_of_cover 16 _ (fun t _ => flushed16 V c t) cover16

/-- What the one grid point writes back to the sixth output is the fifth bias times the last weight. -/
theorem flushed17 (c : Dev nD) (t : Fin cfg0.N) :
    (dat0 V c).flushed 17 t = ((cfg0.win 17).blk t).view.read (Elt Ideal) (unrow (vm (row1 (A := 4) (V c main_v4)) (w6 V c))) := by
  show (cfg0.win 17).cut (grid0.coords t) ((dat0 V c).after 17 t) = _
  rw [after0_17]
  unfold out0_17
  rw [View.canon_unit_zero hz]
  simp only [View.ld_unit_zero (S := S4x8) hz, View.ld_unit_zero (S := S1x4) hz]
  rw [iblk_5 V c t, iblk_10 V c t]
  obtain ⟨e0, e1⟩ := idx0_17 t
  funext y
  obtain ⟨r, j, rfl⟩ : ∃ (r : Fin 1) (j : Fin 8), y = ix2 r j := ⟨y 0, y 1, eq_ix2 y⟩
  show k0_pay2 (V c main_arg12) (V c main_v4) (ix2 r j)
    = (unrow (vm (row1 (A := 4) (V c main_v4)) (w6 V c))) (((cfg0.win 17).blk t).view.emb (ix2 r j))
  refine (blk17 (V c main_arg12) (V c main_v4) r j).trans ?_
  refine congrArg _ (funext fun a => Fin.ext ?_)
  match a with
  | ⟨0, _⟩ => show r.val = win0_17.index t (0 : Fin 2) * 1 + 1 * r.val; omega
  | ⟨1, _⟩ => show j.val = win0_17.index t (1 : Fin 2) * 8 + 1 * j.val; omega

/-- An index of the output array is in the point's block iff each coordinate is in the block's range on its axis. -/
theorem mem_blk17 (t : Fin cfg0.N) (i : S1x8.Idx) :
    i ∈ ((cfg0.win 17).blk t).view.set ↔ ∀ a : Fin 2, win0_17.index t a * S1x8.size a ≤ (i a).val ∧ (i a).val < win0_17.index t a * S1x8.size a + S1x8.size a := by
  show i ∈ ((View.whole main_v6_5).slice (win0_17.rect t)).set ↔ _
  rw [View.set_slice_whole, Rect.mem_set_unit]
  exact Iff.rfl

/-- The one grid point's block is the whole output array. -/
theorem cover17 (i : S1x8.Idx) : ∃ t : Fin cfg0.N, (cfg0.win 17).flush t = true ∧ i ∈ ((cfg0.win 17).blk t).view.set := by
  have hi0 : (i 0).val < 1 := (i 0).isLt
  have hi1 : (i 1).val < 8 := (i 1).isLt
  obtain ⟨e0, e1⟩ := idx0_17 t0_0
  refine ⟨t0_0, flush0_17 t0_0, ?_⟩
  rw [mem_blk17]
  intro a
  match a with
  | ⟨0, _⟩ => show win0_17.index t0_0 (0 : Fin 2) * 1 ≤ (i 0).val ∧ (i 0).val < win0_17.index t0_0 (0 : Fin 2) * 1 + 1; omega
  | ⟨1, _⟩ => show win0_17.index t0_0 (1 : Fin 2) * 8 ≤ (i 1).val ∧ (i 1).val < win0_17.index t0_0 (1 : Fin 2) * 8 + 8; omega

/-- The sixth output array after the kernel: the one row `b5 · W6`. -/
theorem final17 (c : Dev nD) : (dat0 V c).arrAt 17 cfg0.N = unrow (vm (row1 (A := 4) (V c main_v4)) (w6 V c)) :=
  (dat0 V c).arrAt_eq_of_cover 17 _ (fun t _ => flushed17 V c t) cover17

/-- What the one grid point writes back to the seventh output is the last bias row. -/
theorem flushed18 (c : Dev nD) (t : Fin cfg0.N) :
    (dat0 V c).flushed 18 t = ((cfg0.win 18).blk t).view.read (Elt Ideal) (unrow (row1 (A := 8) (V c main_v5))) := by
  show (cfg0.win 18).cut (grid0.coords t) ((dat0 V c).after 18 t) = _
  rw [after0_18]
  unfold out0_18
  rw [View.canon_unit_zero hz]
  simp only [View.ld_unit_zero (S := S1x8) hz]
  rw [iblk_11 V c t]
  obtain ⟨e0, e1⟩ := idx0_18 t
  funext y
  obtain ⟨r, j, rfl⟩ : ∃ (r : Fin 1) (j : Fin 8), y = ix2 r j := ⟨y 0, y 1, eq_ix2 y⟩
  show k0_pay3 (V c main_v5) (ix2 r j)
    = (unrow (row1 (A := 8) (V c main_v5))) (((cfg0.win 18).blk t).view.emb (ix2 r j))
  refine (blk18 (V c main_v5) r j).trans ?_
  refine congrArg _ (funext fun a => Fin.ext ?_)
  match a with
  | ⟨0, _⟩ => show r.val = win0_18.index t (0 : Fin 2) * 1 + 1 * r.val; omega
  | ⟨1, _⟩ => show j.val = win0_18.index t (1 : Fin 2) * 8 + 1 * j.val; omega

/-- An index of the output array is in the point's block iff each coordinate is in the block's range on its axis. -/
theorem mem_blk18 (t : Fin cfg0.N) (i : S1x8.Idx) :
    i ∈ ((cfg0.win 18).blk t).view.set ↔ ∀ a : Fin 2, win0_18.index t a * S1x8.size a ≤ (i a).val ∧ (i a).val < win0_18.index t a * S1x8.size a + S1x8.size a := by
  show i ∈ ((View.whole main_v6_6).slice (win0_18.rect t)).set ↔ _
  rw [View.set_slice_whole, Rect.mem_set_unit]
  exact Iff.rfl

/-- The one grid point's block is the whole output array. -/
theorem cover18 (i : S1x8.Idx) : ∃ t : Fin cfg0.N, (cfg0.win 18).flush t = true ∧ i ∈ ((cfg0.win 18).blk t).view.set := by
  have hi0 : (i 0).val < 1 := (i 0).isLt
  have hi1 : (i 1).val < 8 := (i 1).isLt
  obtain ⟨e0, e1⟩ := idx0_18 t0_0
  refine ⟨t0_0, flush0_18 t0_0, ?_⟩
  rw [mem_blk18]
  intro a
  match a with
  | ⟨0, _⟩ => show win0_18.index t0_0 (0 : Fin 2) * 1 ≤ (i 0).val ∧ (i 0).val < win0_18.index t0_0 (0 : Fin 2) * 1 + 1; omega
  | ⟨1, _⟩ => show win0_18.index t0_0 (1 : Fin 2) * 8 ≤ (i 1).val ∧ (i 1).val < win0_18.index t0_0 (1 : Fin 2) * 8 + 8; omega

/-- The seventh output array after the kernel: the last bias row `b6`, copied. -/
theorem final18 (c : Dev nD) : (dat0 V c).arrAt 18 cfg0.N = unrow (row1 (A := 8) (V c main_v5)) :=
  (dat0 V c).arrAt_eq_of_cover 18 _ (fun t _ => flushed18 V c t) cover18

end Cert.KernelIdeal.Reg0

end
-- ==== Proof.KReg1.lean ====
/-
  The first pass over the adjacency: what its output array holds when the kernel has run.

  The kernel walks 25 blocks of 400 rows. At block `q` it multiplies rows `400 q … 400 q + 399` of the adjacency (all
  10000 columns) by the whole feature table, multiplies the 400 x 128 result by the whole 128 x 8 weight product, adds
  the bias row to every row, and writes the 400 x 8 result back to rows `400 q …` of the output. The 25 blocks tile the
  10000 rows, so the output array ends as `(adj · x) · P + d` in every entry, whatever it held before.
-/
import proofs.«133166_g5102421148072_cont_8to1c4_848_3_alg».proof.Proof.Gen.KernelIdeal.Frame
import proofs.«133166_g5102421148072_cont_8to1c4_848_3_alg».proof.Proof.Tables
import proofs.«133166_g5102421148072_cont_8to1c4_848_3_alg».proof.Proof.KPay
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The table the output array ends holding, as an array: `(adj · x) · P + d`. -/
def G (adj : S10000x10000.Idx → EReal) (x : S10000x128.Idx → EReal) (p : S128x8.Idx → EReal) (d : S1x8.Idx → EReal) :
    S10000x8.Idx → EReal :=
  unc2 (pass1 (cur2 (A := 10000) (B := 10000) adj) (cur2 (A := 10000) (B := 128) x) (cur2 (A := 128) (B := 8) p) (row1 (A := 8) d))

theorem G_at (adj : S10000x10000.Idx → EReal) (x : S10000x128.Idx → EReal) (p : S128x8.Idx → EReal) (d : S1x8.Idx → EReal)
    (i : Fin 10000) (j : Fin 8) :
    G adj x p d (ix2 i j)
      = pass1 (cur2 (A := 10000) (B := 10000) adj) (cur2 (A := 10000) (B := 128) x) (cur2 (A := 128) (B := 8) p) (row1 (A := 8) d) i j := rfl

/-- The block index maps over the 25 grid points: the adjacency's row block moves with the output's, its column block
    and the blocks of the feature table, the weight product and the bias row stay at zero, and the output's row block
    is below 25. -/
theorem idx_facts : ∀ t : Fin cfg1.N, win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every row block of the output is some grid point's. -/
theorem idx_onto : ∀ q : Fin 25, ∃ t : Fin cfg1.N, win1_4.index t = ![q.val, 0] :=
  (by decide +kernel : ∀ q : Fin 25, ∃ t : Fin grid1.N, win1_4.index t = ![q.val, 0])

/-- One block's arithmetic: when the adjacency block holds rows `400 q …` of `adj` and the other blocks are the whole
    arrays, the stored block at `(r, j)` is entry `(400 q + r, j)` of `(adj · x) · P + d`. -/
theorem block_at (x0 : Vec Ideal S400x10000 .f32) (x1 : Vec Ideal S10000x128 .f32) (x2 : Vec Ideal S128x8 .f32) (x3 : Vec Ideal S1x8 .f32)
    (adj : S10000x10000.Idx → EReal) (q : Nat) (hq : q ≤ 24)
    (h0 : ∀ (r : Fin 400) (k : Fin 10000), x0 (ix2 r k) = adj (ix2 (⟨q * 400 + r.val, by have := r.isLt; omega⟩ : Fin 10000) k))
    (r : Fin 400) (j : Fin 8) :
    k1_pay1 x0 x1 x2 x3 (ix2 r j) = G adj x1 x2 x3 (ix2 (⟨q * 400 + r.val, by have := r.isLt; omega⟩ : Fin 10000) j) := by
  rw [Cert.KPay.pass1_at, G_at]
  unfold pass1 addRow mm cur2
  simp only [h0]

/-- The feature table's window is its whole array at every point. -/
theorem iblk_1 (c : Dev nD) (t : Fin cfg1.N) : iblk1 V c 1 t = V c main_arg0 := by
  obtain ⟨e0, e1, e2, e3, e4, e5, e6, e7, e8, e9⟩ := idx_facts t
  funext y
  show V c main_arg0 (((cfg1.win 1).blk t).view.emb y) = V c main_arg0 y
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The weight product's window is its whole array at every point. -/
theorem iblk_2 (c : Dev nD) (t : Fin cfg1.N) : iblk1 V c 2 t = V c main_v6_0 := by
  obtain ⟨e0, e1, e2, e3, e4, e5, e6, e7, e8, e9⟩ := idx_facts t
  funext y
  show V c main_v6_0 (((cfg1.win 2).blk t).view.emb y) = V c main_v6_0 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 8 + 1 * (y 1).val = (y 1).val; omega

/-- The bias row's window is its whole array at every point. -/
theorem iblk_3 (c : Dev nD) (t : Fin cfg1.N) : iblk1 V c 3 t = V c main_v6_1 := by
  obtain ⟨e0, e1, e2, e3, e4, e5, e6, e7, e8, e9⟩ := idx_facts t
  funext y
  show V c main_v6_1 (((cfg1.win 3).blk t).view.emb y) = V c main_v6_1 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 8 + 1 * (y 1).val = (y 1).val; omega

/-- The adjacency's window at a point is rows `400 q …` of the array, `q` the output's row block there. -/
theorem iblk_0 (c : Dev nD) (t : Fin cfg1.N) (r : Fin 400) (k : Fin 10000) :
    iblk1 V c 0 t (ix2 r k) = V c main_arg1 (ix2 (⟨win1_4.index t (0 : Fin 2) * 400 + r.val, by
      have := (idx_facts t).2.2.2.2.2.2.2.2.2; have := r.isLt; omega⟩ : Fin 10000) k) := by
  obtain ⟨e0, e1, e2, e3, e4, e5, e6, e7, e8, e9⟩ := idx_facts t
  show V c main_arg1 (((cfg1.win 0).blk t).view.emb (ix2 r k)) = _
  refine congrArg _ (funext fun a => Fin.ext ?_)
  match a with
  | ⟨0, _⟩ => show win1_0.index t (0 : Fin 2) * 400 + 1 * r.val = win1_4.index t (0 : Fin 2) * 400 + r.val; omega
  | ⟨1, _⟩ => show win1_0.index t (1 : Fin 2) * 10000 + 1 * k.val = k.val; omega

/-- What a grid point writes back is its block of `(adj · x) · P + d` of the arrays as the kernel finds them. -/
theorem flushed_eq (c : Dev nD) (t : Fin cfg1.N) :
    (dat1 V c).flushed 4 t
      = ((cfg1.win 4).blk t).view.read (Elt Ideal) (G (V c main_arg1) (V c main_arg0) (V c main_v6_0) (V c main_v6_1)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S128x8) hz,
    View.ld_unit_zero (S := S1x8) hz]
  rw [iblk_1, iblk_2, iblk_3]
  obtain ⟨e0, e1, e2, e3, e4, e5, e6, e7, e8, e9⟩ := idx_facts t
  funext y
  obtain ⟨r, j, rfl⟩ : ∃ (r : Fin 400) (j : Fin 8), y = ix2 r j := ⟨y 0, y 1, eq_ix2 y⟩
  show k1_pay1 (iblk1 V c 0 t) (V c main_arg0) (V c main_v6_0) (V c main_v6_1) (ix2 r j)
    = G (V c main_arg1) (V c main_arg0) (V c main_v6_0) (V c main_v6_1) (((cfg1.win 4).blk t).view.emb (ix2 r j))
  refine (block_at (iblk1 V c 0 t) (V c main_arg0) (V c main_v6_0) (V c main_v6_1) (V c main_arg1) (win1_4.index t (0 : Fin 2)) e9
    (fun r k => iblk_0 V c t r k) r j).trans ?_
  refine congrArg _ (funext fun a => Fin.ext ?_)
  match a with
  | ⟨0, _⟩ => show win1_4.index t (0 : Fin 2) * 400 + r.val = win1_4.index t (0 : Fin 2) * 400 + 1 * r.val; omega
  | ⟨1, _⟩ => show j.val = win1_4.index t (1 : Fin 2) * 8 + 1 * j.val; omega

/-- An index of the output array is in a point's block iff each coordinate is in the block's range on its axis. -/
theorem mem_blk (t : Fin cfg1.N) (i : S10000x8.Idx) :
    i ∈ ((cfg1.win 4).blk t).view.set ↔ ∀ a : Fin 2, win1_4.index t a * S400x8.size a ≤ (i a).val ∧ (i a).val < win1_4.index t a * S400x8.size a + S400x8.size a := by
  show i ∈ ((View.whole main_v7).slice (win1_4.rect t)).set ↔ _
  rw [View.set_slice_whole, Rect.mem_set_unit]
  exact Iff.rfl

/-- The 25 row blocks cover the output array. -/
theorem cover (i : S10000x8.Idx) : ∃ t : Fin cfg1.N, (cfg1.win 4).flush t = true ∧ i ∈ ((cfg1.win 4).blk t).view.set := by
  have hi0 : (i 0).val < 10000 := (i 0).isLt
  have hi1 : (i 1).val < 8 := (i 1).isLt
  obtain ⟨t, ht⟩ := idx_onto ⟨(i 0).val / 400, by omega⟩
  have q0 : win1_4.index t (0 : Fin 2) = (i 0).val / 400 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 8 ≤ (i 1).val ∧ (i 1).val < win1_4.index t (1 : Fin 2) * 8 + 8; omega

/-- The output array after the kernel: `(adj · x) · P + d` of the arrays as the kernel finds them. -/
theorem final (c : Dev nD) :
    (dat1 V c).arrAt 4 cfg1.N = G (V c main_arg1) (V c main_arg0) (V c main_v6_0) (V c main_v6_1) :=
  (dat1 V c).arrAt_eq_of_cover 4 _ (fun t _ => flushed_eq V c t) cover

end Cert.KernelIdeal.Reg1

end
-- ==== Proof.KReg2.lean ====
/-
  Pass 2 over the adjacency: what its output array holds when the kernel has run.

  The kernel walks 25 blocks of 400 rows. At block `q` it multiplies rows `400 q … 400 q + 399` of the adjacency (all
  10000 columns) by the whole state table and adds the bias row to every row, and writes the 400 x 8 result back to
  rows `400 q …` of the output. The 25 blocks tile the 10000 rows, so the output array ends as `adj · t + d` in every
  entry, whatever it held before: entry `(i, j)` is the sum over `k` of `adj (i, k) * t (k, j)`, plus `d (0, j)`.
-/
import proofs.«133166_g5102421148072_cont_8to1c4_848_3_alg».proof.Proof.Gen.KernelIdeal.Frame
import proofs.«133166_g5102421148072_cont_8to1c4_848_3_alg».proof.Proof.Tables
import proofs.«133166_g5102421148072_cont_8to1c4_848_3_alg».proof.Proof.KPay
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The table the output array ends holding, as an array: `adj · t + d`. -/
def G (adj : S10000x10000.Idx → EReal) (t : S10000x8.Idx → EReal) (d : S1x8.Idx → EReal) : S10000x8.Idx → EReal :=
  unc2 (pass (cur2 (A := 10000) (B := 10000) adj) (cur2 (A := 10000) (B := 8) t) (row1 (A := 8) d))

theorem G_at (adj : S10000x10000.Idx → EReal) (t : S10000x8.Idx → EReal) (d : S1x8.Idx → EReal) (i : Fin 10000) (j : Fin 8) :
    G adj t d (ix2 i j) = pass (cur2 (A := 10000) (B := 10000) adj) (cur2 (A := 10000) (B := 8) t) (row1 (A := 8) d) i j := rfl

/-- The block index maps over the 25 grid points: the adjacency's row block moves with the output's, its column block
    and the blocks of the state table and the bias row stay at zero, and the output's row block is below 25. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 24 :=
  (by decide +kernel : ∀ t : Fin grid2.N, _)

/-- Every row block of the output is some grid point's. -/
theorem idx_onto : ∀ q : Fin 25, ∃ t : Fin cfg2.N, win2_3.index t = ![q.val, 0] :=
  (by decide +kernel : ∀ q : Fin 25, ∃ t : Fin grid2.N, win2_3.index t = ![q.val, 0])

/-- One block's arithmetic: when the adjacency block holds rows `400 q …` of `adj` and the other two blocks are the whole
    state table and bias row, the stored block at `(r, j)` is entry `(400 q + r, j)` of `adj · t + d`. -/
theorem block_at (x0 : Vec Ideal S400x10000 .f32) (x1 : Vec Ideal S10000x8 .f32) (x2 : Vec Ideal S1x8 .f32)
    (adj : S10000x10000.Idx → EReal) (q : Nat) (hq : q ≤ 24)
    (h0 : ∀ (r : Fin 400) (k : Fin 10000), x0 (ix2 r k) = adj (ix2 (⟨q * 400 + r.val, by have := r.isLt; omega⟩ : Fin 10000) k))
    (r : Fin 400) (j : Fin 8) :
    k2_pay1 x0 x1 x2 (ix2 r j) = G adj x1 x2 (ix2 (⟨q * 400 + r.val, by have := r.isLt; omega⟩ : Fin 10000) j) := by
  rw [Cert.KPay.pass2_at, G_at]
  unfold pass addRow mm cur2
  simp only [h0]

/-- The state table's window is its whole array at every point. -/
theorem iblk_1 (c : Dev nD) (t : Fin cfg2.N) : iblk2 V c 1 t = V c main_v7 := by
  obtain ⟨e0, e1, e2, e3, e4, e5, e6, e7⟩ := idx_facts t
  funext y
  show V c main_v7 (((cfg2.win 1).blk t).view.emb y) = V c main_v7 y
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 8 + 1 * (y 1).val = (y 1).val; omega

/-- The bias row's window is its whole array at every point. -/
theorem iblk_2 (c : Dev nD) (t : Fin cfg2.N) : iblk2 V c 2 t = V c main_v6_2 := by
  obtain ⟨e0, e1, e2, e3, e4, e5, e6, e7⟩ := idx_facts t
  funext y
  show V c main_v6_2 (((cfg2.win 2).blk t).view.emb y) = V c main_v6_2 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 8 + 1 * (y 1).val = (y 1).val; omega

/-- The adjacency's window at a point is rows `400 q …` of the array, `q` the output's row block there. -/
theorem iblk_0 (c : Dev nD) (t : Fin cfg2.N) (r : Fin 400) (k : Fin 10000) :
    iblk2 V c 0 t (ix2 r k) = V c main_arg1 (ix2 (⟨win2_3.index t (0 : Fin 2) * 400 + r.val, by
      have := (idx_facts t).2.2.2.2.2.2.2; have := r.isLt; omega⟩ : Fin 10000) k) := by
  obtain ⟨e0, e1, e2, e3, e4, e5, e6, e7⟩ := idx_facts t
  show V c main_arg1 (((cfg2.win 0).blk t).view.emb (ix2 r k)) = _
  refine congrArg _ (funext fun a => Fin.ext ?_)
  match a with
  | ⟨0, _⟩ => show win2_0.index t (0 : Fin 2) * 400 + 1 * r.val = win2_3.index t (0 : Fin 2) * 400 + r.val; omega
  | ⟨1, _⟩ => show win2_0.index t (1 : Fin 2) * 10000 + 1 * k.val = k.val; omega

/-- What a grid point writes back is its block of `adj · t + d` of the arrays as the kernel finds them. -/
theorem flushed_eq (c : Dev nD) (t : Fin cfg2.N) :
    (dat2 V c).flushed 3 t = ((cfg2.win 3).blk t).view.read (Elt Ideal) (G (V c main_arg1) (V c main_v7) (V c main_v6_2)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x8) hz, View.ld_unit_zero (S := S1x8) hz]
  rw [iblk_1, iblk_2]
  obtain ⟨e0, e1, e2, e3, e4, e5, e6, e7⟩ := idx_facts t
  funext y
  obtain ⟨r, j, rfl⟩ : ∃ (r : Fin 400) (j : Fin 8), y = ix2 r j := ⟨y 0, y 1, eq_ix2 y⟩
  show k2_pay1 (iblk2 V c 0 t) (V c main_v7) (V c main_v6_2) (ix2 r j)
    = G (V c main_arg1) (V c main_v7) (V c main_v6_2) (((cfg2.win 3).blk t).view.emb (ix2 r j))
  refine (block_at (iblk2 V c 0 t) (V c main_v7) (V c main_v6_2) (V c main_arg1) (win2_3.index t (0 : Fin 2)) e7
    (fun r k => iblk_0 V c t r k) r j).trans ?_
  refine congrArg _ (funext fun a => Fin.ext ?_)
  match a with
  | ⟨0, _⟩ => show win2_3.index t (0 : Fin 2) * 400 + r.val = win2_3.index t (0 : Fin 2) * 400 + 1 * r.val; omega
  | ⟨1, _⟩ => show j.val = win2_3.index t (1 : Fin 2) * 8 + 1 * j.val; omega

/-- An index of the output array is in a point's block iff each coordinate is in the block's range on its axis. -/
theorem mem_blk (t : Fin cfg2.N) (i : S10000x8.Idx) :
    i ∈ ((cfg2.win 3).blk t).view.set ↔ ∀ a : Fin 2, win2_3.index t a * S400x8.size a ≤ (i a).val ∧ (i a).val < win2_3.index t a * S400x8.size a + S400x8.size a := by
  show i ∈ ((View.whole main_v8).slice (win2_3.rect t)).set ↔ _
  rw [View.set_slice_whole, Rect.mem_set_unit]
  exact Iff.rfl

/-- The 25 row blocks cover the output array. -/
theorem cover (i : S10000x8.Idx) : ∃ t : Fin cfg2.N, (cfg2.win 3).flush t = true ∧ i ∈ ((cfg2.win 3).blk t).view.set := by
  have hi0 : (i 0).val < 10000 := (i 0).isLt
  have hi1 : (i 1).val < 8 := (i 1).isLt
  obtain ⟨t, ht⟩ := idx_onto ⟨(i 0).val / 400, by omega⟩
  have q0 : win2_3.index t (0 : Fin 2) = (i 0).val / 400 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 8 ≤ (i 1).val ∧ (i 1).val < win2_3.index t (1 : Fin 2) * 8 + 8; omega

/-- The output array after the kernel: `adj · t + d` of the arrays as the kernel finds them. -/
theorem final (c : Dev nD) :
    (dat2 V c).arrAt 3 cfg2.N = G (V c main_arg1) (V c main_v7) (V c main_v6_2) :=
  (dat2 V c).arrAt_eq_of_cover 3 _ (fun t _ => flushed_eq V c t) cover

end Cert.KernelIdeal.Reg2

end
-- ==== Proof.KReg3.lean ====
/-
  Pass 3 over the adjacency: what its output array holds when the kernel has run.

  The kernel walks 25 blocks of 400 rows. At block `q` it multiplies rows `400 q … 400 q + 399` of the adjacency (all
  10000 columns) by the whole state table and adds the bias row to every row, and writes the 400 x 8 result back to
  rows `400 q …` of the output. The 25 blocks tile the 10000 rows, so the output array ends as `adj · t + d` in every
  entry, whatever it held before: entry `(i, j)` is the sum over `k` of `adj (i, k) * t (k, j)`, plus `d (0, j)`.
-/
import proofs.«133166_g5102421148072_cont_8to1c4_848_3_alg».proof.Proof.Gen.KernelIdeal.Frame
import proofs.«133166_g5102421148072_cont_8to1c4_848_3_alg».proof.Proof.Tables
import proofs.«133166_g5102421148072_cont_8to1c4_848_3_alg».proof.Proof.KPay
import Idealize.ShloMosaic.Lib.Pipeline.Value

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The table the output array ends holding, as an array: `adj · t + d`. -/
def G (adj : S10000x10000.Idx → EReal) (t : S10000x8.Idx → EReal) (d : S1x8.Idx → EReal) : S10000x8.Idx → EReal :=
  unc2 (pass (cur2 (A := 10000) (B := 10000) adj) (cur2 (A := 10000) (B := 8) t) (row1 (A := 8) d))

theorem G_at (adj : S10000x10000.Idx → EReal) (t : S10000x8.Idx → EReal) (d : S1x8.Idx → EReal) (i : Fin 10000) (j : Fin 8) :
    G adj t d (ix2 i j) = pass (cur2 (A := 10000) (B := 10000) adj) (cur2 (A := 10000) (B := 8) t) (row1 (A := 8) d) i j := rfl

/-- The block index maps over the 25 grid points: the adjacency's row block moves with the output's, its column block
    and the blocks of the state table and the bias row stay at zero, and the output's row block is below 25. -/
theorem idx_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 24 :=
  (by decide +kernel : ∀ t : Fin grid3.N, _)

/-- Every row block of the output is some grid point's. -/
theorem idx_onto : ∀ q : Fin 25, ∃ t : Fin cfg3.N, win3_3.index t = ![q.val, 0] :=
  (by decide +kernel : ∀ q : Fin 25, ∃ t : Fin grid3.N, win3_3.index t = ![q.val, 0])

/-- One block's arithmetic: when the adjacency block holds rows `400 q …` of `adj` and the other two blocks are the whole
    state table and bias row, the stored block at `(r, j)` is entry `(400 q + r, j)` of `adj · t + d`. -/
theorem block_at (x0 : Vec Ideal S400x10000 .f32) (x1 : Vec Ideal S10000x8 .f32) (x2 : Vec Ideal S1x8 .f32)
    (adj : S10000x10000.Idx → EReal) (q : Nat) (hq : q ≤ 24)
    (h0 : ∀ (r : Fin 400) (k : Fin 10000), x0 (ix2 r k) = adj (ix2 (⟨q * 400 + r.val, by have := r.isLt; omega⟩ : Fin 10000) k))
    (r : Fin 400) (j : Fin 8) :
    k3_pay1 x0 x1 x2 (ix2 r j) = G adj x1 x2 (ix2 (⟨q * 400 + r.val, by have := r.isLt; omega⟩ : Fin 10000) j) := by
  rw [Cert.KPay.pass3_at, G_at]
  unfold pass addRow mm cur2
  simp only [h0]

/-- The state table's window is its whole array at every point. -/
theorem iblk_1 (c : Dev nD) (t : Fin cfg3.N) : iblk3 V c 1 t = V c main_v8 := by
  obtain ⟨e0, e1, e2, e3, e4, e5, e6, e7⟩ := idx_facts t
  funext y
  show V c main_v8 (((cfg3.win 1).blk t).view.emb y) = V c main_v8 y
  refine congrArg _ (funext fun a => Fin.ext ?_)
  match a with
  | ⟨0, _⟩ => show win3_1.index t (0 : Fin 2) * 10000 + 1 * (y 0).val = (y 0).val; omega
  | ⟨1, _⟩ => show win3_1.index t (1 : Fin 2) * 8 + 1 * (y 1).val = (y 1).val; omega

/-- The bias row's window is its whole array at every point. -/
theorem iblk_2 (c : Dev nD) (t : Fin cfg3.N) : iblk3 V c 2 t = V c main_v6_3 := by
  obtain ⟨e0, e1, e2, e3, e4, e5, e6, e7⟩ := idx_facts t
  funext y
  show V c main_v6_3 (((cfg3.win 2).blk t).view.emb y) = V c main_v6_3 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 8 + 1 * (y 1).val = (y 1).val; omega

/-- The adjacency's window at a point is rows `400 q …` of the array, `q` the output's row block there. -/
theorem iblk_0 (c : Dev nD) (t : Fin cfg3.N) (r : Fin 400) (k : Fin 10000) :
    iblk3 V c 0 t (ix2 r k) = V c main_arg1 (ix2 (⟨win3_3.index t (0 : Fin 2) * 400 + r.val, by
      have := (idx_facts t).2.2.2.2.2.2.2; have := r.isLt; omega⟩ : Fin 10000) k) := by
  obtain ⟨e0, e1, e2, e3, e4, e5, e6, e7⟩ := idx_facts t
  show V c main_arg1 (((cfg3.win 0).blk t).view.emb (ix2 r k)) = _
  refine congrArg _ (funext fun a => Fin.ext ?_)
  match a with
  | ⟨0, _⟩ => show win3_0.index t (0 : Fin 2) * 400 + 1 * r.val = win3_3.index t (0 : Fin 2) * 400 + r.val; omega
  | ⟨1, _⟩ => show win3_0.index t (1 : Fin 2) * 10000 + 1 * k.val = k.val; omega

/-- What a grid point writes back is its block of `adj · t + d` of the arrays as the kernel finds them. -/
theorem flushed_eq (c : Dev nD) (t : Fin cfg3.N) :
    (dat3 V c).flushed 3 t = ((cfg3.win 3).blk t).view.read (Elt Ideal) (G (V c main_arg1) (V c main_v8) (V c main_v6_3)) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x8) hz, View.ld_unit_zero (S := S1x8) hz]
  rw [iblk_1, iblk_2]
  obtain ⟨e0, e1, e2, e3, e4, e5, e6, e7⟩ := idx_facts t
  funext y
  obtain ⟨r, j, rfl⟩ : ∃ (r : Fin 400) (j : Fin 8), y = ix2 r j := ⟨y 0, y 1, eq_ix2 y⟩
  show k3_pay1 (iblk3 V c 0 t) (V c main_v8) (V c main_v6_3) (ix2 r j)
    = G (V c main_arg1) (V c main_v8) (V c main_v6_3) (((cfg3.win 3).blk t).view.emb (ix2 r j))
  refine (block_at (iblk3 V c 0 t) (V c main_v8) (V c main_v6_3) (V c main_arg1) (win3_3.index t (0 : Fin 2)) e7
    (fun r k => iblk_0 V c t r k) r j).trans ?_
  refine congrArg _ (funext fun a => Fin.ext ?_)
  match a with
  | ⟨0, _⟩ => show win3_3.index t (0 : Fin 2) * 400 + r.val = win3_3.index t (0 : Fin 2) * 400 + 1 * r.val; omega
  | ⟨1, _⟩ => show j.val = win3_3.index t (1 : Fin 2) * 8 + 1 * j.val; omega

/-- An index of the output array is in a point's block iff each coordinate is in the block's range on its axis. -/
theorem mem_blk (t : Fin cfg3.N) (i : S10000x8.Idx) :
    i ∈ ((cfg3.win 3).blk t).view.set ↔ ∀ a : Fin 2, win3_3.index t a * S400x8.size a ≤ (i a).val ∧ (i a).val < win3_3.index t a * S400x8.size a + S400x8.size a := by
  show i ∈ ((View.whole main_v9).slice (win3_3.rect t)).set ↔ _
  rw [View.set_slice_whole, Rect.mem_set_unit]
  exact Iff.rfl

/-- The 25 row blocks cover the output array. -/
theorem cover (i : S10000x8.Idx) : ∃ t : Fin cfg3.N, (cfg3.win 3).flush t = true ∧ i ∈ ((cfg3.win 3).blk t).view.set := by
  have hi0 : (i 0).val < 10000 := (i 0).isLt
  have hi1 : (i 1).val < 8 := (i 1).isLt
  obtain ⟨t, ht⟩ := idx_onto ⟨(i 0).val / 400, by omega⟩
  have q0 : win3_3.index t (0 : Fin 2) = (i 0).val / 400 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 8 ≤ (i 1).val ∧ (i 1).val < win3_3.index t (1 : Fin 2) * 8 + 8; omega

/-- The output array after the kernel: `adj · t + d` of the arrays as the kernel finds them. -/
theorem final (c : Dev nD) :
    (dat3 V c).arrAt 3 cfg3.N = G (V c main_arg1) (V c main_v8) (V c main_v6_3) :=
  (dat3 V c).arrAt_eq_of_cover 3 _ (fun t _ => flushed_eq V c t) cover

end Cert.KernelIdeal.Reg3

end
-- ==== Proof.KReg4.lean ====
/-
  Pass 4 over the adjacency: what its output array holds when the kernel has run.

  The kernel walks 25 blocks of 400 rows. At block `q` it multiplies rows `400 q … 400 q + 399` of the adjacency (all
  10000 columns) by the whole state table and adds the bias row to every row, and writes the 400 x 8 result back to
  rows `400 q …` of the output. The 25 blocks tile the 10000 rows, so the output array ends as `adj · t + d` in every
  entry, whatever it held before: entry `(i, j)` is the sum over `k` of `adj (i, k) * t (k, j)`, plus `d (0, j)`.
-/
import proofs.«133166_g5102421148072_cont_8to1c4_848_3_alg».proof.Proof.Gen.KernelIdeal.Frame
import proofs.«133166_g5102421148072_cont_8to1c4_848_3_alg».proof.Proof.Tables
import proofs.«133166_g5102421148072_cont_8to1c4_848_3_alg».proof.Proof.KPay
import Idealize.ShloMosaic.Lib.Pipeline.Value

set_option maxRecDepth 16384

noncomputable section

namespace Cert.KernelIdeal.Reg4

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The table the output array ends holding, as an array: `adj · t + d`. -/
def G (adj : S10000x10000.Idx → EReal) (t : S10000x8.Idx → EReal) (d : S1x8.Idx → EReal) : S10000x8.Idx → EReal :=
  unc2 (pass (cur2 (A := 10000) (B := 10000) adj) (cur2 (A := 10000) (B := 8) t) (row1 (A := 8) d))

theorem G_at (adj : S10000x10000.Idx → EReal) (t : S10000x8.Idx → EReal) (d : S1x8.Idx → EReal) (i : Fin 10000) (j : Fin 8) :
    G adj t d (ix2 i j) = pass (cur2 (A := 10000) (B := 10000) adj) (cur2 (A := 10000) (B := 8) t) (row1 (A := 8) d) i j := rfl

/-- The block index maps over the 25 grid points: the adjacency's row block moves with the output's, its column block
    and the blocks of the state table and the bias row stay at zero, and the output's row block is below 25. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 24 :=
  (by decide +kernel : ∀ t : Fin grid4.N, _)

/-- Every row block of the output is some grid point's. -/
theorem idx_onto : ∀ q : Fin 25, ∃ t : Fin cfg4.N, win4_3.index t = ![q.val, 0] :=
  (by decide +kernel : ∀ q : Fin 25, ∃ t : Fin grid4.N, win4_3.index t = ![q.val, 0])

/-- One block's arithmetic: when the adjacency block holds rows `400 q …` of `adj` and the other two blocks are the whole
    state table and bias row, the stored block at `(r, j)` is entry `(400 q + r, j)` of `adj · t + d`. -/
theorem block_at (x0 : Vec Ideal S400x10000 .f32) (x1 : Vec Ideal S10000x8 .f32) (x2 : Vec Ideal S1x8 .f32)
    (adj : S10000x10000.Idx → EReal) (q : Nat) (hq : q ≤ 24)
    (h0 : ∀ (r : Fin 400) (k : Fin 10000), x0 (ix2 r k) = adj (ix2 (⟨q * 400 + r.val, by have := r.isLt; omega⟩ : Fin 10000) k))
    (r : Fin 400) (j : Fin 8) :
    k4_pay1 x0 x1 x2 (ix2 r j) = G adj x1 x2 (ix2 (⟨q * 400 + r.val, by have := r.isLt; omega⟩ : Fin 10000) j) := by
  rw [Cert.KPay.pass4_at, G_at]
  unfold pass addRow mm cur2
  simp only [h0]

/-- The state table's window is its whole array at every point. -/
theorem iblk_1 (c : Dev nD) (t : Fin cfg4.N) : iblk4 V c 1 t = V c main_v9 := by
  obtain ⟨e0, e1, e2, e3, e4, e5, e6, e7⟩ := idx_facts t
  funext y
  show V c main_v9 (((cfg4.win 1).blk t).view.emb y) = V c main_v9 y
  refine congrArg _ (funext fun a => Fin.ext ?_)
  match a with
  | ⟨0, _⟩ => show win4_1.index t (0 : Fin 2) * 10000 + 1 * (y 0).val = (y 0).val; omega
  | ⟨1, _⟩ => show win4_1.index t (1 : Fin 2) * 8 + 1 * (y 1).val = (y 1).val; omega

/-- The bias row's window is its whole array at every point. -/
theorem iblk_2 (c : Dev nD) (t : Fin cfg4.N) : iblk4 V c 2 t = V c main_v6_4 := by
  obtain ⟨e0, e1, e2, e3, e4, e5, e6, e7⟩ := idx_facts t
  funext y
  show V c main_v6_4 (((cfg4.win 2).blk t).view.emb y) = V c main_v6_4 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 8 + 1 * (y 1).val = (y 1).val; omega

/-- The adjacency's window at a point is rows `400 q …` of the array, `q` the output's row block there. -/
theorem iblk_0 (c : Dev nD) (t : Fin cfg4.N) (r : Fin 400) (k : Fin 10000) :
    iblk4 V c 0 t (ix2 r k) = V c main_arg1 (ix2 (⟨win4_3.index t (0 : Fin 2) * 400 + r.val, by
      have := (idx_facts t).2.2.2.2.2.2.2; have := r.isLt; omega⟩ : Fin 10000) k) := by
  obtain ⟨e0, e1, e2, e3, e4, e5, e6, e7⟩ := idx_facts t
  show V c main_arg1 (((cfg4.win 0).blk t).view.emb (ix2 r k)) = _
  refine congrArg _ (funext fun a => Fin.ext ?_)
  match a with
  | ⟨0, _⟩ => show win4_0.index t (0 : Fin 2) * 400 + 1 * r.val = win4_3.index t (0 : Fin 2) * 400 + r.val; omega
  | ⟨1, _⟩ => show win4_0.index t (1 : Fin 2) * 10000 + 1 * k.val = k.val; omega

/-- What a grid point writes back is its block of `adj · t + d` of the arrays as the kernel finds them. -/
theorem flushed_eq (c : Dev nD) (t : Fin cfg4.N) :
    (dat4 V c).flushed 3 t = ((cfg4.win 3).blk t).view.read (Elt Ideal) (G (V c main_arg1) (V c main_v9) (V c main_v6_4)) := by
  show (cfg4.win 3).cut (grid4.coords t) ((dat4 V c).after 3 t) = _
  rw [after4_3]
  unfold out4_3
  rw [View.canon_unit_zero hz]
  simp only [View.ld_unit_zero (S := S400x10000) hz, View.ld_unit_zero (S := S10000x8) hz, View.ld_unit_zero (S := S1x8) hz]
  rw [iblk_1, iblk_2]
  obtain ⟨e0, e1, e2, e3, e4, e5, e6, e7⟩ := idx_facts t
  funext y
  obtain ⟨r, j, rfl⟩ : ∃ (r : Fin 400) (j : Fin 8), y = ix2 r j := ⟨y 0, y 1, eq_ix2 y⟩
  show k4_pay1 (iblk4 V c 0 t) (V c main_v9) (V c main_v6_4) (ix2 r j)
    = G (V c main_arg1) (V c main_v9) (V c main_v6_4) (((cfg4.win 3).blk t).view.emb (ix2 r j))
  refine (block_at (iblk4 V c 0 t) (V c main_v9) (V c main_v6_4) (V c main_arg1) (win4_3.index t (0 : Fin 2)) e7
    (fun r k => iblk_0 V c t r k) r j).trans ?_
  refine congrArg _ (funext fun a => Fin.ext ?_)
  match a with
  | ⟨0, _⟩ => show win4_3.index t (0 : Fin 2) * 400 + r.val = win4_3.index t (0 : Fin 2) * 400 + 1 * r.val; omega
  | ⟨1, _⟩ => show j.val = win4_3.index t (1 : Fin 2) * 8 + 1 * j.val; omega

/-- An index of the output array is in a point's block iff each coordinate is in the block's range on its axis. -/
theorem mem_blk (t : Fin cfg4.N) (i : S10000x8.Idx) :
    i ∈ ((cfg4.win 3).blk t).view.set ↔ ∀ a : Fin 2, win4_3.index t a * S400x8.size a ≤ (i a).val ∧ (i a).val < win4_3.index t a * S400x8.size a + S400x8.size a := by
  show i ∈ ((View.whole main_v10).slice (win4_3.rect t)).set ↔ _
  rw [View.set_slice_whole, Rect.mem_set_unit]
  exact Iff.rfl

/-- The 25 row blocks cover the output array. -/
theorem cover (i : S10000x8.Idx) : ∃ t : Fin cfg4.N, (cfg4.win 3).flush t = true ∧ i ∈ ((cfg4.win 3).blk t).view.set := by
  have hi0 : (i 0).val < 10000 := (i 0).isLt
  have hi1 : (i 1).val < 8 := (i 1).isLt
  obtain ⟨t, ht⟩ := idx_onto ⟨(i 0).val / 400, by omega⟩
  have q0 : win4_3.index t (0 : Fin 2) = (i 0).val / 400 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 400 ≤ (i 0).val ∧ (i 0).val < win4_3.index t (0 : Fin 2) * 400 + 400; omega
  | ⟨1, _⟩ => show win4_3.index t (1 : Fin 2) * 8 ≤ (i 1).val ∧ (i 1).val < win4_3.index t (1 : Fin 2) * 8 + 8; omega

/-- The output array after the kernel: `adj · t + d` of the arrays as the kernel finds them. -/
theorem final (c : Dev nD) :
    (dat4 V c).arrAt 3 cfg4.N = G (V c main_arg1) (V c main_v9) (V c main_v6_4) :=
  (dat4 V c).arrAt_eq_of_cover 3 _ (fun t _ => flushed_eq V c t) cover

end Cert.KernelIdeal.Reg4

end
-- ==== Proof.KReg5.lean ====
/-
  Pass 5 over the adjacency: what its output array holds when the kernel has run.

  The kernel walks 25 blocks of 400 rows. At block `q` it multiplies rows `400 q … 400 q + 399` of the adjacency (all
  10000 columns) by the whole state table and adds the bias row to every row, and writes the 400 x 8 result back to
  rows `400 q …` of the output. The 25 blocks tile the 10000 rows, so the output array ends as `adj · t + d` in every
  entry, whatever it held before: entry `(i, j)` is the sum over `k` of `adj (i, k) * t (k, j)`, plus `d (0, j)`.
-/
import proofs.«133166_g5102421148072_cont_8to1c4_848_3_alg».proof.Proof.Gen.KernelIdeal.Frame
import proofs.«133166_g5102421148072_cont_8to1c4_848_3_alg».proof.Proof.Tables
import proofs.«133166_g5102421148072_cont_8to1c4_848_3_alg».proof.Proof.KPay
import Idealize.ShloMosaic.Lib.Pipeline.Value

set_option maxRecDepth 16384

noncomputable section

namespace Cert.KernelIdeal.Reg5

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The table the output array ends holding, as an array: `adj · t + d`. -/
def G (adj : S10000x10000.Idx → EReal) (t : S10000x8.Idx → EReal) (d : S1x8.Idx → EReal) : S10000x8.Idx → EReal :=
  unc2 (pass (cur2 (A := 10000) (B := 10000) adj) (cur2 (A := 10000) (B := 8) t) (row1 (A := 8) d))

theorem G_at (adj : S10000x10000.Idx → EReal) (t : S10000x8.Idx → EReal) (d : S1x8.Idx → EReal) (i : Fin 10000) (j : Fin 8) :
    G adj t d (ix2 i j) = pass (cur2 (A := 10000) (B := 10000) adj) (cur2 (A := 10000) (B := 8) t) (row1 (A := 8) d) i j := rfl

/-- The block index maps over the 25 grid points: the adjacency's row block moves with the output's, its column block
    and the blocks of the state table and the bias row stay at zero, and the output's row block is below 25. -/
theorem idx_facts : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 24 :=
  (by decide +kernel : ∀ t : Fin grid5.N, _)

/-- Every row block of the output is some grid point's. -/
theorem idx_onto : ∀ q : Fin 25, ∃ t : Fin cfg5.N, win5_3.index t = ![q.val, 0] :=
  (by decide +kernel : ∀ q : Fin 25, ∃ t : Fin grid5.N, win5_3.index t = ![q.val, 0])

/-- One block's arithmetic: when the adjacency block holds rows `400 q …` of `adj` and the other two blocks are the whole
    state table and bias row, the stored block at `(r, j)` is entry `(400 q + r, j)` of `adj · t + d`. -/
theorem block_at (x0 : Vec Ideal S400x10000 .f32) (x1 : Vec Ideal S10000x8 .f32) (x2 : Vec Ideal S1x8 .f32)
    (adj : S10000x10000.Idx → EReal) (q : Nat) (hq : q ≤ 24)
    (h0 : ∀ (r : Fin 400) (k : Fin 10000), x0 (ix2 r k) = adj (ix2 (⟨q * 400 + r.val, by have := r.isLt; omega⟩ : Fin 10000) k))
    (r : Fin 400) (j : Fin 8) :
    k5_pay1 x0 x1 x2 (ix2 r j) = G adj x1 x2 (ix2 (⟨q * 400 + r.val, by have := r.isLt; omega⟩ : Fin 10000) j) := by
  rw [Cert.KPay.pass5_at, G_at]
  unfold pass addRow mm cur2
  simp only [h0]

/-- The state table's window is its whole array at every point. -/
theorem iblk_1 (c : Dev nD) (t : Fin cfg5.N) : iblk5 V c 1 t = V c main_v10 := by
  obtain ⟨e0, e1, e2, e3, e4, e5, e6, e7⟩ := idx_facts t
  funext y
  show V c main_v10 (((cfg5.win 1).blk t).view.emb y) = V c main_v10 y
  refine congrArg _ (funext fun a => Fin.ext ?_)
  match a with
  | ⟨0, _⟩ => show win5_1.index t (0 : Fin 2) * 10000 + 1 * (y 0).val = (y 0).val; omega
  | ⟨1, _⟩ => show win5_1.index t (1 : Fin 2) * 8 + 1 * (y 1).val = (y 1).val; omega

/-- The bias row's window is its whole array at every point. -/
theorem iblk_2 (c : Dev nD) (t : Fin cfg5.N) : iblk5 V c 2 t = V c main_v6_5 := by
  obtain ⟨e0, e1, e2, e3, e4, e5, e6, e7⟩ := idx_facts t
  funext y
  show V c main_v6_5 (((cfg5.win 2).blk t).view.emb y) = V c main_v6_5 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 8 + 1 * (y 1).val = (y 1).val; omega

/-- The adjacency's window at a point is rows `400 q …` of the array, `q` the output's row block there. -/
theorem iblk_0 (c : Dev nD) (t : Fin cfg5.N) (r : Fin 400) (k : Fin 10000) :
    iblk5 V c 0 t (ix2 r k) = V c main_arg1 (ix2 (⟨win5_3.index t (0 : Fin 2) * 400 + r.val, by
      have := (idx_facts t).2.2.2.2.2.2.2; have := r.isLt; omega⟩ : Fin 10000) k) := by
  obtain ⟨e0, e1, e2, e3, e4, e5, e6, e7⟩ := idx_facts t
  show V c main_arg1 (((cfg5.win 0).blk t).view.emb (ix2 r k)) = _
  refine congrArg _ (funext fun a => Fin.ext ?_)
  match a with
  | ⟨0, _⟩ => show win5_0.index t (0 : Fin 2) * 400 + 1 * r.val = win5_3.index t (0 : Fin 2) * 400 + r.val; omega
  | ⟨1, _⟩ => show win5_0.index t (1 : Fin 2) * 10000 + 1 * k.val = k.val; omega

/-- What a grid point writes back is its block of `adj · t + d` of the arrays as the kernel finds them. -/
theorem flushed_eq (c : Dev nD) (t : Fin cfg5.N) :
    (dat5 V c).flushed 3 t = ((cfg5.win 3).blk t).view.read (Elt Ideal) (G (V c main_arg1) (V c main_v10) (V c main_v6_5)) := by
  show (cfg5.win 3).cut (grid5.coords t) ((dat5 V c).after 3 t) = _
  rw [after5_3]
  unfold out5_3
  rw [View.canon_unit_zero hz]
  simp only [View.ld_unit_zero (S := S400x10000) hz, View.ld_unit_zero (S := S10000x8) hz, View.ld_unit_zero (S := S1x8) hz]
  rw [iblk_1, iblk_2]
  obtain ⟨e0, e1, e2, e3, e4, e5, e6, e7⟩ := idx_facts t
  funext y
  obtain ⟨r, j, rfl⟩ : ∃ (r : Fin 400) (j : Fin 8), y = ix2 r j := ⟨y 0, y 1, eq_ix2 y⟩
  show k5_pay1 (iblk5 V c 0 t) (V c main_v10) (V c main_v6_5) (ix2 r j)
    = G (V c main_arg1) (V c main_v10) (V c main_v6_5) (((cfg5.win 3).blk t).view.emb (ix2 r j))
  refine (block_at (iblk5 V c 0 t) (V c main_v10) (V c main_v6_5) (V c main_arg1) (win5_3.index t (0 : Fin 2)) e7
    (fun r k => iblk_0 V c t r k) r j).trans ?_
  refine congrArg _ (funext fun a => Fin.ext ?_)
  match a with
  | ⟨0, _⟩ => show win5_3.index t (0 : Fin 2) * 400 + r.val = win5_3.index t (0 : Fin 2) * 400 + 1 * r.val; omega
  | ⟨1, _⟩ => show j.val = win5_3.index t (1 : Fin 2) * 8 + 1 * j.val; omega

/-- An index of the output array is in a point's block iff each coordinate is in the block's range on its axis. -/
theorem mem_blk (t : Fin cfg5.N) (i : S10000x8.Idx) :
    i ∈ ((cfg5.win 3).blk t).view.set ↔ ∀ a : Fin 2, win5_3.index t a * S400x8.size a ≤ (i a).val ∧ (i a).val < win5_3.index t a * S400x8.size a + S400x8.size a := by
  show i ∈ ((View.whole main_v11).slice (win5_3.rect t)).set ↔ _
  rw [View.set_slice_whole, Rect.mem_set_unit]
  exact Iff.rfl

/-- The 25 row blocks cover the output array. -/
theorem cover (i : S10000x8.Idx) : ∃ t : Fin cfg5.N, (cfg5.win 3).flush t = true ∧ i ∈ ((cfg5.win 3).blk t).view.set := by
  have hi0 : (i 0).val < 10000 := (i 0).isLt
  have hi1 : (i 1).val < 8 := (i 1).isLt
  obtain ⟨t, ht⟩ := idx_onto ⟨(i 0).val / 400, by omega⟩
  have q0 : win5_3.index t (0 : Fin 2) = (i 0).val / 400 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 400 ≤ (i 0).val ∧ (i 0).val < win5_3.index t (0 : Fin 2) * 400 + 400; omega
  | ⟨1, _⟩ => show win5_3.index t (1 : Fin 2) * 8 ≤ (i 1).val ∧ (i 1).val < win5_3.index t (1 : Fin 2) * 8 + 8; omega

/-- The output array after the kernel: `adj · t + d` of the arrays as the kernel finds them. -/
theorem final (c : Dev nD) :
    (dat5 V c).arrAt 3 cfg5.N = G (V c main_arg1) (V c main_v10) (V c main_v6_5) :=
  (dat5 V c).arrAt_eq_of_cover 3 _ (fun t _ => flushed_eq V c t) cover

end Cert.KernelIdeal.Reg5

end
-- ==== Proof.KReg6.lean ====
/-
  Pass 6 over the adjacency: what its output array holds when the kernel has run.

  The kernel walks 25 blocks of 400 rows. At block `q` it multiplies rows `400 q … 400 q + 399` of the adjacency (all
  10000 columns) by the whole state table and adds the bias row to every row, and writes the 400 x 8 result back to
  rows `400 q …` of the output. The 25 blocks tile the 10000 rows, so the output array ends as `adj · t + d` in every
  entry, whatever it held before: entry `(i, j)` is the sum over `k` of `adj (i, k) * t (k, j)`, plus `d (0, j)`.
-/
import proofs.«133166_g5102421148072_cont_8to1c4_848_3_alg».proof.Proof.Gen.KernelIdeal.Frame
import proofs.«133166_g5102421148072_cont_8to1c4_848_3_alg».proof.Proof.Tables
import proofs.«133166_g5102421148072_cont_8to1c4_848_3_alg».proof.Proof.KPay
import Idealize.ShloMosaic.Lib.Pipeline.Value

set_option maxRecDepth 16384

noncomputable section

namespace Cert.KernelIdeal.Reg6

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The table the output array ends holding, as an array: `adj · t + d`. -/
def G (adj : S10000x10000.Idx → EReal) (t : S10000x8.Idx → EReal) (d : S1x8.Idx → EReal) : S10000x8.Idx → EReal :=
  unc2 (pass (cur2 (A := 10000) (B := 10000) adj) (cur2 (A := 10000) (B := 8) t) (row1 (A := 8) d))

theorem G_at (adj : S10000x10000.Idx → EReal) (t : S10000x8.Idx → EReal) (d : S1x8.Idx → EReal) (i : Fin 10000) (j : Fin 8) :
    G adj t d (ix2 i j) = pass (cur2 (A := 10000) (B := 10000) adj) (cur2 (A := 10000) (B := 8) t) (row1 (A := 8) d) i j := rfl

/-- The block index maps over the 25 grid points: the adjacency's row block moves with the output's, its column block
    and the blocks of the state table and the bias row stay at zero, and the output's row block is below 25. -/
theorem idx_facts : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 24 :=
  (by decide +kernel : ∀ t : Fin grid6.N, _)

/-- Every row block of the output is some grid point's. -/
theorem idx_onto : ∀ q : Fin 25, ∃ t : Fin cfg6.N, win6_3.index t = ![q.val, 0] :=
  (by decide +kernel : ∀ q : Fin 25, ∃ t : Fin grid6.N, win6_3.index t = ![q.val, 0])

/-- One block's arithmetic: when the adjacency block holds rows `400 q …` of `adj` and the other two blocks are the whole
    state table and bias row, the stored block at `(r, j)` is entry `(400 q + r, j)` of `adj · t + d`. -/
theorem block_at (x0 : Vec Ideal S400x10000 .f32) (x1 : Vec Ideal S10000x8 .f32) (x2 : Vec Ideal S1x8 .f32)
    (adj : S10000x10000.Idx → EReal) (q : Nat) (hq : q ≤ 24)
    (h0 : ∀ (r : Fin 400) (k : Fin 10000), x0 (ix2 r k) = adj (ix2 (⟨q * 400 + r.val, by have := r.isLt; omega⟩ : Fin 10000) k))
    (r : Fin 400) (j : Fin 8) :
    k6_pay1 x0 x1 x2 (ix2 r j) = G adj x1 x2 (ix2 (⟨q * 400 + r.val, by have := r.isLt; omega⟩ : Fin 10000) j) := by
  rw [Cert.KPay.pass6_at, G_at]
  unfold pass addRow mm cur2
  simp only [h0]

/-- The state table's window is its whole array at every point. -/
theorem iblk_1 (c : Dev nD) (t : Fin cfg6.N) : iblk6 V c 1 t = V c main_v11 := by
  obtain ⟨e0, e1, e2, e3, e4, e5, e6, e7⟩ := idx_facts t
  funext y
  show V c main_v11 (((cfg6.win 1).blk t).view.emb y) = V c main_v11 y
  refine congrArg _ (funext fun a => Fin.ext ?_)
  match a with
  | ⟨0, _⟩ => show win6_1.index t (0 : Fin 2) * 10000 + 1 * (y 0).val = (y 0).val; omega
  | ⟨1, _⟩ => show win6_1.index t (1 : Fin 2) * 8 + 1 * (y 1).val = (y 1).val; omega

/-- The bias row's window is its whole array at every point. -/
theorem iblk_2 (c : Dev nD) (t : Fin cfg6.N) : iblk6 V c 2 t = V c main_v6_6 := by
  obtain ⟨e0, e1, e2, e3, e4, e5, e6, e7⟩ := idx_facts t
  funext y
  show V c main_v6_6 (((cfg6.win 2).blk t).view.emb y) = V c main_v6_6 y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 8 + 1 * (y 1).val = (y 1).val; omega

/-- The adjacency's window at a point is rows `400 q …` of the array, `q` the output's row block there. -/
theorem iblk_0 (c : Dev nD) (t : Fin cfg6.N) (r : Fin 400) (k : Fin 10000) :
    iblk6 V c 0 t (ix2 r k) = V c main_arg1 (ix2 (⟨win6_3.index t (0 : Fin 2) * 400 + r.val, by
      have := (idx_facts t).2.2.2.2.2.2.2; have := r.isLt; omega⟩ : Fin 10000) k) := by
  obtain ⟨e0, e1, e2, e3, e4, e5, e6, e7⟩ := idx_facts t
  show V c main_arg1 (((cfg6.win 0).blk t).view.emb (ix2 r k)) = _
  refine congrArg _ (funext fun a => Fin.ext ?_)
  match a with
  | ⟨0, _⟩ => show win6_0.index t (0 : Fin 2) * 400 + 1 * r.val = win6_3.index t (0 : Fin 2) * 400 + r.val; omega
  | ⟨1, _⟩ => show win6_0.index t (1 : Fin 2) * 10000 + 1 * k.val = k.val; omega

/-- What a grid point writes back is its block of `adj · t + d` of the arrays as the kernel finds them. -/
theorem flushed_eq (c : Dev nD) (t : Fin cfg6.N) :
    (dat6 V c).flushed 3 t = ((cfg6.win 3).blk t).view.read (Elt Ideal) (G (V c main_arg1) (V c main_v11) (V c main_v6_6)) := by
  show (cfg6.win 3).cut (grid6.coords t) ((dat6 V c).after 3 t) = _
  rw [after6_3]
  unfold out6_3
  rw [View.canon_unit_zero hz]
  simp only [View.ld_unit_zero (S := S400x10000) hz, View.ld_unit_zero (S := S10000x8) hz, View.ld_unit_zero (S := S1x8) hz]
  rw [iblk_1, iblk_2]
  obtain ⟨e0, e1, e2, e3, e4, e5, e6, e7⟩ := idx_facts t
  funext y
  obtain ⟨r, j, rfl⟩ : ∃ (r : Fin 400) (j : Fin 8), y = ix2 r j := ⟨y 0, y 1, eq_ix2 y⟩
  show k6_pay1 (iblk6 V c 0 t) (V c main_v11) (V c main_v6_6) (ix2 r j)
    = G (V c main_arg1) (V c main_v11) (V c main_v6_6) (((cfg6.win 3).blk t).view.emb (ix2 r j))
  refine (block_at (iblk6 V c 0 t) (V c main_v11) (V c main_v6_6) (V c main_arg1) (win6_3.index t (0 : Fin 2)) e7
    (fun r k => iblk_0 V c t r k) r j).trans ?_
  refine congrArg _ (funext fun a => Fin.ext ?_)
  match a with
  | ⟨0, _⟩ => show win6_3.index t (0 : Fin 2) * 400 + r.val = win6_3.index t (0 : Fin 2) * 400 + 1 * r.val; omega
  | ⟨1, _⟩ => show j.val = win6_3.index t (1 : Fin 2) * 8 + 1 * j.val; omega

/-- An index of the output array is in a point's block iff each coordinate is in the block's range on its axis. -/
theorem mem_blk (t : Fin cfg6.N) (i : S10000x8.Idx) :
    i ∈ ((cfg6.win 3).blk t).view.set ↔ ∀ a : Fin 2, win6_3.index t a * S400x8.size a ≤ (i a).val ∧ (i a).val < win6_3.index t a * S400x8.size a + S400x8.size a := by
  show i ∈ ((View.whole main_v12).slice (win6_3.rect t)).set ↔ _
  rw [View.set_slice_whole, Rect.mem_set_unit]
  exact Iff.rfl

/-- The 25 row blocks cover the output array. -/
theorem cover (i : S10000x8.Idx) : ∃ t : Fin cfg6.N, (cfg6.win 3).flush t = true ∧ i ∈ ((cfg6.win 3).blk t).view.set := by
  have hi0 : (i 0).val < 10000 := (i 0).isLt
  have hi1 : (i 1).val < 8 := (i 1).isLt
  obtain ⟨t, ht⟩ := idx_onto ⟨(i 0).val / 400, by omega⟩
  have q0 : win6_3.index t (0 : Fin 2) = (i 0).val / 400 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 400 ≤ (i 0).val ∧ (i 0).val < win6_3.index t (0 : Fin 2) * 400 + 400; omega
  | ⟨1, _⟩ => show win6_3.index t (1 : Fin 2) * 8 ≤ (i 1).val ∧ (i 1).val < win6_3.index t (1 : Fin 2) * 8 + 8; omega

/-- The output array after the kernel: `adj · t + d` of the arrays as the kernel finds them. -/
theorem final (c : Dev nD) :
    (dat6 V c).arrAt 3 cfg6.N = G (V c main_arg1) (V c main_v11) (V c main_v6_6) :=
  (dat6 V c).arrAt_eq_of_cover 3 _ (fun t _ => flushed_eq V c t) cover

end Cert.KernelIdeal.Reg6

end
-- ==== Proof.KChain.lean ====
/-
  The idealized kernel program's result as one function of its arguments.

  The weight kernel leaves the product `S_1 = W_1 · … · W_6` and the folded bias rows `d_k = b_k · S_{k+1}` (`d_6 = b_6`);
  the first pass leaves `t_1 = (adj · x) · S_1 + d_1`; pass `k + 1` reads the previous pass's output array and leaves
  `t_{k+1} = adj · t_k + d_{k+1}`. Between kernels every array a kernel does not write keeps its contents, so each
  kernel finds the adjacency and the features as launched, the bias rows as the host reshapes left them (the entries
  of the bias vectors), and the earlier kernels' outputs as those kernels left them. Composing the seven kernels'
  output arrays along that walk, the last output array is the table `kerNet` of the argument arrays.
-/
import proofs.«133166_g5102421148072_cont_8to1c4_848_3_alg».proof.Proof.KWalk
import proofs.«133166_g5102421148072_cont_8to1c4_848_3_alg».proof.Proof.KReg0
import proofs.«133166_g5102421148072_cont_8to1c4_848_3_alg».proof.Proof.KReg1
import proofs.«133166_g5102421148072_cont_8to1c4_848_3_alg».proof.Proof.KReg2
import proofs.«133166_g5102421148072_cont_8to1c4_848_3_alg».proof.Proof.KReg3
import proofs.«133166_g5102421148072_cont_8to1c4_848_3_alg».proof.Proof.KReg4
import proofs.«133166_g5102421148072_cont_8to1c4_848_3_alg».proof.Proof.KReg5
import proofs.«133166_g5102421148072_cont_8to1c4_848_3_alg».proof.Proof.KReg6

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Cert.Net

variable (m : (ℓ : Loc nD τ sig) → Buf (Elt Ideal) ℓ) (ρ : Dev nD → PrngReg)

/-- The argument arrays read as tables and vectors. -/
abbrev X (c : Dev nD) := cur2 (A := 10000) (B := 128) (m ((c : Thread nD τ).loc main_arg0))
abbrev ADJ (c : Dev nD) := cur2 (A := 10000) (B := 10000) (m ((c : Thread nD τ).loc main_arg1))
abbrev T1 (c : Dev nD) := cur2 (A := 128) (B := 12) (m ((c : Thread nD τ).loc main_arg2))
abbrev B1 (c : Dev nD) := cur1 (A := 12) (m ((c : Thread nD τ).loc main_arg3))
abbrev T2 (c : Dev nD) := cur2 (A := 12) (B := 10) (m ((c : Thread nD τ).loc main_arg4))
abbrev B2 (c : Dev nD) := cur1 (A := 10) (m ((c : Thread nD τ).loc main_arg5))
abbrev T3 (c : Dev nD) := cur2 (A := 10) (B := 8) (m ((c : Thread nD τ).loc main_arg6))
abbrev B3 (c : Dev nD) := cur1 (A := 8) (m ((c : Thread nD τ).loc main_arg7))
abbrev T4 (c : Dev nD) := cur2 (A := 8) (B := 6) (m ((c : Thread nD τ).loc main_arg8))
abbrev B4 (c : Dev nD) := cur1 (A := 6) (m ((c : Thread nD τ).loc main_arg9))
abbrev T5 (c : Dev nD) := cur2 (A := 6) (B := 4) (m ((c : Thread nD τ).loc main_arg10))
abbrev B5 (c : Dev nD) := cur1 (A := 4) (m ((c : Thread nD τ).loc main_arg11))
abbrev T6 (c : Dev nD) := cur2 (A := 4) (B := 8) (m ((c : Thread nD τ).loc main_arg12))
abbrev B6 (c : Dev nD) := cur1 (A := 8) (m ((c : Thread nD τ).loc main_arg13))

/-- The weight product, as the weight kernel leaves it. -/
theorem prod (c : Dev nD) : (dat0 (V1 m ρ) c).arrAt 12 cfg0.N
    = unc2 (suf1 (T1 m c) (T2 m c) (T3 m c) (T4 m c) (T5 m c) (T6 m c)) := by
  rw [Reg0.final12]
  simp only [Reg0.w1, Reg0.w2, Reg0.w3, Reg0.w4, Reg0.w5, Reg0.w6]
  rw [Walk.V1_arg2 m ρ c, Walk.V1_arg4 m ρ c, Walk.V1_arg6 m ρ c, Walk.V1_arg8 m ρ c, Walk.V1_arg10 m ρ c, Walk.V1_arg12 m ρ c]

/-- The folded bias rows, as the weight kernel leaves them. -/
theorem d1 (c : Dev nD) : (dat0 (V1 m ρ) c).arrAt 13 cfg0.N
    = unrow (vm (B1 m c) (suf2 (T2 m c) (T3 m c) (T4 m c) (T5 m c) (T6 m c))) := by
  rw [Reg0.final13, Walk.V1_v0_row]
  simp only [Reg0.w2, Reg0.w3, Reg0.w4, Reg0.w5, Reg0.w6]
  rw [Walk.V1_arg4 m ρ c, Walk.V1_arg6 m ρ c, Walk.V1_arg8 m ρ c, Walk.V1_arg10 m ρ c, Walk.V1_arg12 m ρ c]
theorem d2 (c : Dev nD) : (dat0 (V1 m ρ) c).arrAt 14 cfg0.N
    = unrow (vm (B2 m c) (suf3 (T3 m c) (T4 m c) (T5 m c) (T6 m c))) := by
  rw [Reg0.final14, Walk.V1_v1_row]
  simp only [Reg0.w3, Reg0.w4, Reg0.w5, Reg0.w6]
  rw [Walk.V1_arg6 m ρ c, Walk.V1_arg8 m ρ c, Walk.V1_arg10 m ρ c, Walk.V1_arg12 m ρ c]
theorem d3 (c : Dev nD) : (dat0 (V1 m ρ) c).arrAt 15 cfg0.N
    = unrow (vm (B3 m c) (suf4 (T4 m c) (T5 m c) (T6 m c))) := by
  rw [Reg0.final15, Walk.V1_v2_row]
  simp only [Reg0.w4, Reg0.w5, Reg0.w6]
  rw [Walk.V1_arg8 m ρ c, Walk.V1_arg10 m ρ c, Walk.V1_arg12 m ρ c]
theorem d4 (c : Dev nD) : (dat0 (V1 m ρ) c).arrAt 16 cfg0.N
    = unrow (vm (B4 m c) (suf5 (T5 m c) (T6 m c))) := by
  rw [Reg0.final16, Walk.V1_v3_row]
  simp only [Reg0.w5, Reg0.w6]
  rw [Walk.V1_arg10 m ρ c, Walk.V1_arg12 m ρ c]
theorem d5 (c : Dev nD) : (dat0 (V1 m ρ) c).arrAt 17 cfg0.N = unrow (vm (B5 m c) (T6 m c)) := by
  rw [Reg0.final17, Walk.V1_v4_row]
  simp only [Reg0.w6]
  rw [Walk.V1_arg12 m ρ c]
theorem d6 (c : Dev nD) : (dat0 (V1 m ρ) c).arrAt 18 cfg0.N = unrow (B6 m c) := by
  rw [Reg0.final18, Walk.V1_v5_row]

/-- The state after each pass. -/
def st1 (c : Dev nD) : Fin 10000 → Fin 8 → EReal :=
  pass1 (ADJ m c) (X m c) (suf1 (T1 m c) (T2 m c) (T3 m c) (T4 m c) (T5 m c) (T6 m c))
    (vm (B1 m c) (suf2 (T2 m c) (T3 m c) (T4 m c) (T5 m c) (T6 m c)))
def st2 (c : Dev nD) := pass (ADJ m c) (st1 m c) (vm (B2 m c) (suf3 (T3 m c) (T4 m c) (T5 m c) (T6 m c)))
def st3 (c : Dev nD) := pass (ADJ m c) (st2 m c) (vm (B3 m c) (suf4 (T4 m c) (T5 m c) (T6 m c)))
def st4 (c : Dev nD) := pass (ADJ m c) (st3 m c) (vm (B4 m c) (suf5 (T5 m c) (T6 m c)))
def st5 (c : Dev nD) := pass (ADJ m c) (st4 m c) (vm (B5 m c) (T6 m c))
def st6 (c : Dev nD) := pass (ADJ m c) (st5 m c) (B6 m c)

theorem out1 (c : Dev nD) : (dat1 (V2 m ρ) c).arrAt 4 cfg1.N = unc2 (st1 m c) := by
  rw [Reg1.final, Walk.V2_arg1, Walk.V2_arg0, Walk.V2_P, Walk.V2_d1, prod, d1]
  unfold Reg1.G st1
  simp only [cur2_unc2, row1_unrow]
theorem out2 (c : Dev nD) : (dat2 (V3 m ρ) c).arrAt 3 cfg2.N = unc2 (st2 m c) := by
  rw [Reg2.final, Walk.V3_arg1, Walk.V3_t, Walk.V3_d, out1, d2]
  unfold Reg2.G st2
  simp only [cur2_unc2, row1_unrow]
theorem out3 (c : Dev nD) : (dat3 (V4 m ρ) c).arrAt 3 cfg3.N = unc2 (st3 m c) := by
  rw [Reg3.final, Walk.V4_arg1, Walk.V4_t, Walk.V4_d, out2, d3]
  unfold Reg3.G st3
  simp only [cur2_unc2, row1_unrow]
theorem out4 (c : Dev nD) : (dat4 (V5 m ρ) c).arrAt 3 cfg4.N = unc2 (st4 m c) := by
  rw [Reg4.final, Walk.V5_arg1, Walk.V5_t, Walk.V5_d, out3, d4]
  unfold Reg4.G st4
  simp only [cur2_unc2, row1_unrow]
theorem out5 (c : Dev nD) : (dat5 (V6 m ρ) c).arrAt 3 cfg5.N = unc2 (st5 m c) := by
  rw [Reg5.final, Walk.V6_arg1, Walk.V6_t, Walk.V6_d, out4, d5]
  unfold Reg5.G st5
  simp only [cur2_unc2, row1_unrow]
theorem out6 (c : Dev nD) : (dat6 (V7 m ρ) c).arrAt 3 cfg6.N = unc2 (st6 m c) := by
  rw [Reg6.final, Walk.V7_arg1, Walk.V7_t, Walk.V7_d, out5, d6]
  unfold Reg6.G st6
  simp only [cur2_unc2, row1_unrow]

/-- The last state is the network with the weights multiplied together first. -/
theorem st6_eq (c : Dev nD) : st6 m c
    = kerNet (X m c) (ADJ m c) (T1 m c) (B1 m c) (T2 m c) (B2 m c) (T3 m c) (B3 m c) (T4 m c) (B4 m c) (T5 m c) (B5 m c) (T6 m c) (B6 m c) := rfl

/-- The result array of the idealized kernel program. -/
theorem value (c : Dev nD) : (dat6 (V7 m ρ) c).arrAt 3 cfg6.N
    = unc2 (kerNet (X m c) (ADJ m c) (T1 m c) (B1 m c) (T2 m c) (B2 m c) (T3 m c) (B3 m c) (T4 m c) (B4 m c) (T5 m c) (B5 m c) (T6 m c) (B6 m c)) := by
  rw [out6, st6_eq]

end Cert.KernelIdeal.Chain

end
-- ==== Proof.RefValue.lean ====
/-
  The reference program's result, read at an index, is the six-layer network.

  The reference applies six layers in turn. A layer takes the node table `h : [n, a]` to `adj · (h · W) + β`: the product
  `h · W : [n, b]`, the product of the adjacency `adj : [n, n]` with that, the bias `β : [b]` made a one-row array
  `[1, b]` and repeated down the `n` rows, and an elementwise sum. At the ideal values every entry is an extended real, a
  product of arrays has at `(i, j)` the exact sum over the contracted coordinate of the products of the entries, and the
  sum of two arrays has at `(i, j)` the sum of the entries. So a layer's array has at `(i, j)`
      ∑ k, adj(i, k) · (∑ m, h(k, m) · W(m, j))  +  β(j),
  which is `layer adj h W β` of the arrays read as tables. The six layers of the program are this one statement at the
  widths 128 → 12 → 10 → 8 → 6 → 4 → 8, each taking the previous layer's table as its `h`.
-/
import proofs.«133166_g5102421148072_cont_8to1c4_848_3_alg».proof.Proof.Gen.ReferenceIdeal.Read
import proofs.«133166_g5102421148072_cont_8to1c4_848_3_alg».proof.Proof.LibMatmul
import proofs.«133166_g5102421148072_cont_8to1c4_848_3_alg».proof.Proof.NetDefs

open scoped BigOperators
noncomputable section
namespace Cert.RefValue
open Cert.ReferenceIdeal Idealize.ShloMosaic Idealize.ShloMosaic.ValueIdx Cert.Net

section Generic
variable {n a b : ℕ}

/-- The bias `[b]`, made a one-row array `[1, b]` and then repeated down the `n` rows, has at `(i, j)` the entry `bias j`. -/
theorem biasRows_apply (bias : (⟨1, ![b]⟩ : Shape).Idx → EReal)
    (w1 : (⟨1, ![b]⟩ : Shape).BroadcastsInDim ⟨2, ![1, b]⟩ ![1])
    (w2 : (⟨2, ![1, b]⟩ : Shape).BroadcastsInDim ⟨2, ![n, b]⟩ ![0, 1]) (i : Fin n) (j : Fin b) :
    broadcastInDim ⟨2, ![n, b]⟩ ![0, 1] w2 (broadcastInDim ⟨2, ![1, b]⟩ ![1] w1 bias) (ix2 i j) = bias (ix1 j) := by
  have h2 : broadcastInDim ⟨2, ![n, b]⟩ ![0, 1] w2 (broadcastInDim ⟨2, ![1, b]⟩ ![1] w1 bias) (ix2 i j)
      = broadcastInDim ⟨2, ![1, b]⟩ ![1] w1 bias (ix2 (0 : Fin 1) j) :=
    broadcastInDim_apply ![0, 1] w2 _ (ix2 i j) (ix2 (0 : Fin 1) j) fun ax => by
      match ax with
      | ⟨0, _⟩ => rfl
      | ⟨1, _⟩ =>
        show j.val = if b = 1 then 0 else j.val
        split
        · have := j.isLt; omega
        · rfl
  have h1 : broadcastInDim ⟨2, ![1, b]⟩ ![1] w1 bias (ix2 (0 : Fin 1) j) = bias (ix1 j) :=
    broadcastInDim_apply ![1] w1 bias (ix2 (0 : Fin 1) j) (ix1 j) fun ax => by
      match ax with
      | ⟨0, _⟩ =>
        show j.val = if b = 1 then 0 else j.val
        split
        · have := j.isLt; omega
        · rfl
  rw [h2, h1]

/-- One layer read at `(i, j)`: the sum over `k` of `adj(i, k)` times the sum over `m` of `h(k, m) · W(m, j)`, plus `bias j`. -/
theorem layer_at (adj : (⟨2, ![n, n]⟩ : Shape).Idx → EReal) (h : (⟨2, ![n, a]⟩ : Shape).Idx → EReal)
    (W : (⟨2, ![a, b]⟩ : Shape).Idx → EReal) (bias : (⟨1, ![b]⟩ : Shape).Idx → EReal)
    (w1 : (⟨1, ![b]⟩ : Shape).BroadcastsInDim ⟨2, ![1, b]⟩ ![1])
    (w2 : (⟨2, ![1, b]⟩ : Shape).BroadcastsInDim ⟨2, ![n, b]⟩ ![0, 1]) (i : Fin n) (j : Fin b) :
    addf (F := Ideal) (φ := .f32)
        (Host.dotGeneral (F := Ideal) (φ₁ := .f32) (φ₂ := .f32) (DotDims.plain n n b) none adj
          (Host.dotGeneral (F := Ideal) (φ₁ := .f32) (φ₂ := .f32) (DotDims.plain n a b) none h W))
        (broadcastInDim ⟨2, ![n, b]⟩ ![0, 1] w2 (broadcastInDim ⟨2, ![1, b]⟩ ![1] w1 bias)) (ix2 i j)
      = layer (cur2 adj) (cur2 h) (cur2 W) (cur1 bias) i j := by
  rw [addf_apply, biasRows_apply, Cert.MatOps.dotGeneral_plain_apply]
  unfold layer addRow mm cur2 cur1
  refine congrArg (· + bias (ix1 j)) (Finset.sum_congr rfl fun k _ => ?_)
  rw [Cert.MatOps.dotGeneral_plain_apply]

end Generic

section Layers
variable (x0 : (⟨S10000x128, .f32⟩ : BufTy).Contents (Elt Ideal)) (x1 : (⟨S10000x10000, .f32⟩ : BufTy).Contents (Elt Ideal))
  (x2 : (⟨S128x12, .f32⟩ : BufTy).Contents (Elt Ideal)) (x3 : (⟨S12, .f32⟩ : BufTy).Contents (Elt Ideal))
  (x4 : (⟨S12x10, .f32⟩ : BufTy).Contents (Elt Ideal)) (x5 : (⟨S10, .f32⟩ : BufTy).Contents (Elt Ideal))
  (x6 : (⟨S10x8, .f32⟩ : BufTy).Contents (Elt Ideal)) (x7 : (⟨S8, .f32⟩ : BufTy).Contents (Elt Ideal))
  (x8 : (⟨S8x6, .f32⟩ : BufTy).Contents (Elt Ideal)) (x9 : (⟨S6, .f32⟩ : BufTy).Contents (Elt Ideal))
  (x10 : (⟨S6x4, .f32⟩ : BufTy).Contents (Elt Ideal)) (x11 : (⟨S4, .f32⟩ : BufTy).Contents (Elt Ideal))
  (x12 : (⟨S4x8, .f32⟩ : BufTy).Contents (Elt Ideal)) (x13 : (⟨S8, .f32⟩ : BufTy).Contents (Elt Ideal))

/-- The first layer's table is `adj · (x · W1) + b1`. -/
theorem layer1 :
    cur2 (A := 10000) (B := 12) (Read.val_main_v4 (F := Ideal) x0 x1 x2 x3)
      = layer (cur2 (A := 10000) (B := 10000) x1) (cur2 (A := 10000) (B := 128) x0) (cur2 (A := 128) (B := 12) x2) (cur1 (A := 12) x3) := by
  funext i j
  exact layer_at (n := 10000) (a := 128) (b := 12) x1 x0 x2 x3 Gen.bcast_S12_S1x12_1 Gen.bcast_S1x12_S10000x12_0_1 i j

/-- The second layer's table is `adj · (h1 · W2) + b2`, `h1` the first layer's table. -/
theorem layer2 :
    cur2 (A := 10000) (B := 10) (Read.val_main_v9 (F := Ideal) x0 x1 x2 x3 x4 x5)
      = layer (cur2 (A := 10000) (B := 10000) x1) (cur2 (A := 10000) (B := 12) (Read.val_main_v4 (F := Ideal) x0 x1 x2 x3))
          (cur2 (A := 12) (B := 10) x4) (cur1 (A := 10) x5) := by
  funext i j
  exact layer_at (n := 10000) (a := 12) (b := 10) x1 (Read.val_main_v4 (F := Ideal) x0 x1 x2 x3) x4 x5
    Gen.bcast_S10_S1x10_1 Gen.bcast_S1x10_S10000x10_0_1 i j

/-- The third layer's table is `adj · (h2 · W3) + b3`. -/
theorem layer3 :
    cur2 (A := 10000) (B := 8) (Read.val_main_v14 (F := Ideal) x0 x1 x2 x3 x4 x5 x6 x7)
      = layer (cur2 (A := 10000) (B := 10000) x1) (cur2 (A := 10000) (B := 10) (Read.val_main_v9 (F := Ideal) x0 x1 x2 x3 x4 x5))
          (cur2 (A := 10) (B := 8) x6) (cur1 (A := 8) x7) := by
  funext i j
  exact layer_at (n := 10000) (a := 10) (b := 8) x1 (Read.val_main_v9 (F := Ideal) x0 x1 x2 x3 x4 x5) x6 x7
    Gen.bcast_S8_S1x8_1 Gen.bcast_S1x8_S10000x8_0_1 i j

/-- The fourth layer's table is `adj · (h3 · W4) + b4`. -/
theorem layer4 :
    cur2 (A := 10000) (B := 6) (Read.val_main_v19 (F := Ideal) x0 x1 x2 x3 x4 x5 x6 x7 x8 x9)
      = layer (cur2 (A := 10000) (B := 10000) x1) (cur2 (A := 10000) (B := 8) (Read.val_main_v14 (F := Ideal) x0 x1 x2 x3 x4 x5 x6 x7))
          (cur2 (A := 8) (B := 6) x8) (cur1 (A := 6) x9) := by
  funext i j
  exact layer_at (n := 10000) (a := 8) (b := 6) x1 (Read.val_main_v14 (F := Ideal) x0 x1 x2 x3 x4 x5 x6 x7) x8 x9
    Gen.bcast_S6_S1x6_1 Gen.bcast_S1x6_S10000x6_0_1 i j

/-- The fifth layer's table is `adj · (h4 · W5) + b5`. -/
theorem layer5 :
    cur2 (A := 10000) (B := 4) (Read.val_main_v24 (F := Ideal) x0 x1 x2 x3 x4 x5 x6 x7 x8 x9 x10 x11)
      = layer (cur2 (A := 10000) (B := 10000) x1) (cur2 (A := 10000) (B := 6) (Read.val_main_v19 (F := Ideal) x0 x1 x2 x3 x4 x5 x6 x7 x8 x9))
          (cur2 (A := 6) (B := 4) x10) (cur1 (A := 4) x11) := by
  funext i j
  exact layer_at (n := 10000) (a := 6) (b := 4) x1 (Read.val_main_v19 (F := Ideal) x0 x1 x2 x3 x4 x5 x6 x7 x8 x9) x10 x11
    Gen.bcast_S4_S1x4_1 Gen.bcast_S1x4_S10000x4_0_1 i j

/-- The sixth layer's table is `adj · (h5 · W6) + b6`. -/
theorem layer6 :
    cur2 (A := 10000) (B := 8) (Read.val_main_v29 (F := Ideal) x0 x1 x2 x3 x4 x5 x6 x7 x8 x9 x10 x11 x12 x13)
      = layer (cur2 (A := 10000) (B := 10000) x1)
          (cur2 (A := 10000) (B := 4) (Read.val_main_v24 (F := Ideal) x0 x1 x2 x3 x4 x5 x6 x7 x8 x9 x10 x11))
          (cur2 (A := 4) (B := 8) x12) (cur1 (A := 8) x13) := by
  funext i j
  exact layer_at (n := 10000) (a := 4) (b := 8) x1 (Read.val_main_v24 (F := Ideal) x0 x1 x2 x3 x4 x5 x6 x7 x8 x9 x10 x11) x12 x13
    Gen.bcast_S8_S1x8_1 Gen.bcast_S1x8_S10000x8_0_1 i j

end Layers

/-- The reference's result at `(i, j)` is the six layers applied in turn to the arguments read as tables. -/
theorem ref_at
    (x0 : (⟨S10000x128, .f32⟩ : BufTy).Contents (Elt Ideal)) (x1 : (⟨S10000x10000, .f32⟩ : BufTy).Contents (Elt Ideal))
    (x2 : (⟨S128x12, .f32⟩ : BufTy).Contents (Elt Ideal)) (x3 : (⟨S12, .f32⟩ : BufTy).Contents (Elt Ideal))
    (x4 : (⟨S12x10, .f32⟩ : BufTy).Contents (Elt Ideal)) (x5 : (⟨S10, .f32⟩ : BufTy).Contents (Elt Ideal))
    (x6 : (⟨S10x8, .f32⟩ : BufTy).Contents (Elt Ideal)) (x7 : (⟨S8, .f32⟩ : BufTy).Contents (Elt Ideal))
    (x8 : (⟨S8x6, .f32⟩ : BufTy).Contents (Elt Ideal)) (x9 : (⟨S6, .f32⟩ : BufTy).Contents (Elt Ideal))
    (x10 : (⟨S6x4, .f32⟩ : BufTy).Contents (Elt Ideal)) (x11 : (⟨S4, .f32⟩ : BufTy).Contents (Elt Ideal))
    (x12 : (⟨S4x8, .f32⟩ : BufTy).Contents (Elt Ideal)) (x13 : (⟨S8, .f32⟩ : BufTy).Contents (Elt Ideal))
    (i : Fin 10000) (j : Fin 8) :
    Cert.ReferenceIdeal.Read.val_main_v29 (F := Ideal) x0 x1 x2 x3 x4 x5 x6 x7 x8 x9 x10 x11 x12 x13 (ix2 i j)
      = refNet (cur2 (A := 10000) (B := 128) x0) (cur2 (A := 10000) (B := 10000) x1) (cur2 (A := 128) (B := 12) x2) (cur1 (A := 12) x3)
          (cur2 (A := 12) (B := 10) x4) (cur1 (A := 10) x5) (cur2 (A := 10) (B := 8) x6) (cur1 (A := 8) x7)
          (cur2 (A := 8) (B := 6) x8) (cur1 (A := 6) x9) (cur2 (A := 6) (B := 4) x10) (cur1 (A := 4) x11)
          (cur2 (A := 4) (B := 8) x12) (cur1 (A := 8) x13) i j := by
  show cur2 (A := 10000) (B := 8) (Read.val_main_v29 (F := Ideal) x0 x1 x2 x3 x4 x5 x6 x7 x8 x9 x10 x11 x12 x13) i j = _
  rw [layer6, layer5, layer4, layer3, layer2, layer1]
  rfl

end Cert.RefValue
-- ==== Proof.NetLaw.lean ====
/-
  The two arrangements of the six-layer linear graph network agree on real inputs.

  Over the extended reals multiplication does not distribute over addition and sums do not reassociate at the
  infinities, so the statement assumes every entry of every input is real. Under that assumption each table is the
  image of a real matrix, the table operations are the images of the real matrix operations (the inclusion of the
  reals commutes with finite sums and with products), and the claim becomes matrix algebra over the reals.

  Write h_k for the state after layer k, S_k = W_k · … · W_6 (S_7 the identity), and t_k for the state of the second
  arrangement. The invariant is t_k = h_k · S_{k+1}. It starts from
    (adj · x) · (W_1 · S_2) + rows(b_1 · S_2) = (adj · (x · W_1) + rows b_1) · S_2
  and is carried along by
    adj · (h · (W · S)) + rows(b · S) = (adj · (h · W) + rows b) · S,
  both of which are associativity, right-distributivity, and the fact that a table of repeated rows times S is the
  table of repeated rows of the vector times S. At k = 6 the invariant is the claim.
-/
import proofs.«133166_g5102421148072_cont_8to1c4_848_3_alg».proof.Proof.NetDefs
import Mathlib.Data.Matrix.Mul
import Mathlib.Data.EReal.Operations
open scoped BigOperators
noncomputable section
namespace Cert.Net

/-- A real table read as a table of extended reals. -/
def ofR2 {a b : ℕ} (A : Matrix (Fin a) (Fin b) ℝ) : Fin a → Fin b → EReal := fun i j => ((A i j : ℝ) : EReal)

/-- A real vector read as a vector of extended reals. -/
def ofR1 {a : ℕ} (v : Fin a → ℝ) : Fin a → EReal := fun i => ((v i : ℝ) : EReal)

/-- The real table with `n` rows, each equal to the vector `v`. -/
def rows (n : ℕ) {a : ℕ} (v : Fin a → ℝ) : Matrix (Fin n) (Fin a) ℝ := Matrix.of fun _ j => v j

/-- The inclusion of the reals in the extended reals commutes with finite sums. -/
theorem coe_sum {ι : Type} (s : Finset ι) (g : ι → ℝ) :
    ((∑ i ∈ s, g i : ℝ) : EReal) = ∑ i ∈ s, ((g i : ℝ) : EReal) := by
  classical
  refine Finset.induction_on s (by simp) ?_
  intro a s ha ih
  rw [Finset.sum_insert ha, Finset.sum_insert ha, EReal.coe_add, ih]

/-- A table of reals has real witnesses for all entries at once. -/
theorem IsReal2.exists_ofR2 {a b : ℕ} {A : Fin a → Fin b → EReal} (h : IsReal2 A) :
    ∃ A' : Matrix (Fin a) (Fin b) ℝ, A = ofR2 A' := by
  choose A' hA' using h
  exact ⟨Matrix.of A', funext fun i => funext fun j => hA' i j⟩

/-- A vector of reals has real witnesses for all entries at once. -/
theorem IsReal1.exists_ofR1 {a : ℕ} {v : Fin a → EReal} (h : IsReal1 v) :
    ∃ v' : Fin a → ℝ, v = ofR1 v' := by
  choose v' hv' using h
  exact ⟨v', funext fun i => hv' i⟩

/-- The product of two real tables, computed in the extended reals, is the real matrix product. -/
theorem mm_ofR2 {M K N : ℕ} (A : Matrix (Fin M) (Fin K) ℝ) (B : Matrix (Fin K) (Fin N) ℝ) :
    mm (ofR2 A) (ofR2 B) = ofR2 (A * B) := by
  funext i j
  simp only [mm, ofR2, Matrix.mul_apply, coe_sum, EReal.coe_mul]

/-- A real row vector times a real table, computed in the extended reals, is the real product. -/
theorem vm_ofR {K N : ℕ} (v : Fin K → ℝ) (B : Matrix (Fin K) (Fin N) ℝ) :
    vm (ofR1 v) (ofR2 B) = ofR1 (Matrix.vecMul v B) := by
  funext j
  simp only [vm, ofR1, ofR2, Matrix.vecMul, dotProduct, coe_sum, EReal.coe_mul]

/-- Adding a real row to every row of a real table, computed in the extended reals, is the real sum
with the table of repeated rows. -/
theorem addRow_ofR {M N : ℕ} (A : Matrix (Fin M) (Fin N) ℝ) (v : Fin N → ℝ) :
    addRow (ofR2 A) (ofR1 v) = ofR2 (A + rows M v) := by
  funext i j
  simp only [addRow, ofR2, ofR1, rows, Matrix.add_apply, Matrix.of_apply, EReal.coe_add]

/-- A table of repeated rows times a table is the table of repeated rows of the vector–table product. -/
theorem rows_mul {n a b : ℕ} (v : Fin a → ℝ) (S : Matrix (Fin a) (Fin b) ℝ) :
    rows n v * S = rows n (Matrix.vecMul v S) := by
  ext i j
  simp only [rows, Matrix.mul_apply, Matrix.of_apply, Matrix.vecMul, dotProduct]

/-- One step of the invariant: multiplying a layer on the right by S is one pass over the adjacency
applied to the state multiplied by W · S, with the bias folded through S. -/
theorem step_real {n a b c : ℕ} (adj : Matrix (Fin n) (Fin n) ℝ) (h : Matrix (Fin n) (Fin a) ℝ)
    (W : Matrix (Fin a) (Fin b) ℝ) (S : Matrix (Fin b) (Fin c) ℝ) (v : Fin b → ℝ) :
    adj * (h * (W * S)) + rows n (Matrix.vecMul v S) = (adj * (h * W) + rows n v) * S := by
  rw [Matrix.add_mul, Matrix.mul_assoc adj, Matrix.mul_assoc h, rows_mul]

/-- The two arrangements agree on real matrices. -/
theorem net_real {n f c1 c2 c3 c4 c5 c6 : ℕ}
    (x : Matrix (Fin n) (Fin f) ℝ) (adj : Matrix (Fin n) (Fin n) ℝ)
    (W1 : Matrix (Fin f) (Fin c1) ℝ) (b1 : Fin c1 → ℝ) (W2 : Matrix (Fin c1) (Fin c2) ℝ) (b2 : Fin c2 → ℝ)
    (W3 : Matrix (Fin c2) (Fin c3) ℝ) (b3 : Fin c3 → ℝ) (W4 : Matrix (Fin c3) (Fin c4) ℝ) (b4 : Fin c4 → ℝ)
    (W5 : Matrix (Fin c4) (Fin c5) ℝ) (b5 : Fin c5 → ℝ) (W6 : Matrix (Fin c5) (Fin c6) ℝ) (b6 : Fin c6 → ℝ) :
    adj * (adj * (adj * (adj * (adj *
      (adj * x * (W1 * (W2 * (W3 * (W4 * (W5 * W6))))) + rows n (Matrix.vecMul b1 (W2 * (W3 * (W4 * (W5 * W6))))))
      + rows n (Matrix.vecMul b2 (W3 * (W4 * (W5 * W6)))))
      + rows n (Matrix.vecMul b3 (W4 * (W5 * W6))))
      + rows n (Matrix.vecMul b4 (W5 * W6)))
      + rows n (Matrix.vecMul b5 W6))
      + rows n b6
    = adj * ((adj * ((adj * ((adj * ((adj * ((adj * (x * W1) + rows n b1) * W2) + rows n b2) * W3) + rows n b3) * W4)
        + rows n b4) * W5) + rows n b5) * W6) + rows n b6 := by
  rw [Matrix.mul_assoc adj x, step_real, step_real, step_real, step_real, step_real]

theorem kerNet_eq_refNet {n f c1 c2 c3 c4 c5 c6 : ℕ}
    (x : Fin n → Fin f → EReal) (adj : Fin n → Fin n → EReal)
    (W1 : Fin f → Fin c1 → EReal) (b1 : Fin c1 → EReal) (W2 : Fin c1 → Fin c2 → EReal) (b2 : Fin c2 → EReal)
    (W3 : Fin c2 → Fin c3 → EReal) (b3 : Fin c3 → EReal) (W4 : Fin c3 → Fin c4 → EReal) (b4 : Fin c4 → EReal)
    (W5 : Fin c4 → Fin c5 → EReal) (b5 : Fin c5 → EReal) (W6 : Fin c5 → Fin c6 → EReal) (b6 : Fin c6 → EReal)
    (hx : IsReal2 x) (hadj : IsReal2 adj) (hW1 : IsReal2 W1) (hb1 : IsReal1 b1) (hW2 : IsReal2 W2) (hb2 : IsReal1 b2)
    (hW3 : IsReal2 W3) (hb3 : IsReal1 b3) (hW4 : IsReal2 W4) (hb4 : IsReal1 b4) (hW5 : IsReal2 W5) (hb5 : IsReal1 b5)
    (hW6 : IsReal2 W6) (hb6 : IsReal1 b6) :
    kerNet x adj W1 b1 W2 b2 W3 b3 W4 b4 W5 b5 W6 b6 = refNet x adj W1 b1 W2 b2 W3 b3 W4 b4 W5 b5 W6 b6 := by
  obtain ⟨x, rfl⟩ := hx.exists_ofR2
  obtain ⟨adj, rfl⟩ := hadj.exists_ofR2
  obtain ⟨W1, rfl⟩ := hW1.exists_ofR2
  obtain ⟨W2, rfl⟩ := hW2.exists_ofR2
  obtain ⟨W3, rfl⟩ := hW3.exists_ofR2
  obtain ⟨W4, rfl⟩ := hW4.exists_ofR2
  obtain ⟨W5, rfl⟩ := hW5.exists_ofR2
  obtain ⟨W6, rfl⟩ := hW6.exists_ofR2
  obtain ⟨b1, rfl⟩ := hb1.exists_ofR1
  obtain ⟨b2, rfl⟩ := hb2.exists_ofR1
  obtain ⟨b3, rfl⟩ := hb3.exists_ofR1
  obtain ⟨b4, rfl⟩ := hb4.exists_ofR1
  obtain ⟨b5, rfl⟩ := hb5.exists_ofR1
  obtain ⟨b6, rfl⟩ := hb6.exists_ofR1
  simp only [kerNet, refNet, layer, pass, pass1, suf1, suf2, suf3, suf4, suf5, mm_ofR2, vm_ofR, addRow_ofR]
  rw [net_real]

end Cert.Net
-- ==== Proof.Finite.lean ====
/-
  Finiteness of the inputs, read back from the precondition.

  The precondition computes, for each of the fourteen float inputs `a`, the conjunction over all indices
  of the comparison `|a i| < +∞`, and takes the conjunction of the fourteen results. Over the extended reals
  `|x| = max x (-x)`, which is `⊤` at both `⊥` and `⊤`; so `|x| < ⊤` holds exactly when `x` is the
  coercion of a real number. Hence: if the precondition's value is 1, every entry of every input is a real.
-/
import proofs.«133166_g5102421148072_cont_8to1c4_848_3_alg».proof.Pre_finite_inputs
import Idealize.ShloMosaic.Lib.ReduceAll
import Idealize.ShloMosaic.Lib.ValueIdx
import Idealize.ShloMosaic.PureOps.Ideal.Laws

namespace Cert.Finite
open Cert.Pre_finite_inputs Idealize.ShloMosaic

/-- The rank-0 shape has exactly one index (the empty tuple of coordinates). -/
instance : Subsingleton S_.Idx := ⟨fun a b => funext fun d => d.elim0⟩

/-- The f32 pattern `0x7F800000` (sign 0, exponent all ones, fraction 0) denotes `+∞`. -/
theorem ofBits_inf_f32 : Ideal.ofBits .f32 0x7F800000#32 = (⊤ : EReal) := by
  simp [Ideal.ofBits, Ideal.ieee]

/-- An extended real whose absolute value `max x (-x)` is strictly below `⊤` is a real number:
    at `x = ⊥` and at `x = ⊤` the absolute value is `⊤`, which is not below itself. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One input's test, for any shape `s`: if the conjunction over all of `s` of `|a i| < +∞` (the `+∞` a
    scalar constant broadcast to `s`) is 1, then every entry of `a` is a real number. The conjunction
    being 1 gives each comparison the value 1; the comparison at `i` is `max (a i) (-(a i)) < ⊤`. -/
theorem real_of_all {s : Shape} {axes : List (Fin s.rank)} (a : FVec Ideal s .f32)
    (w : S_.BroadcastsInDim s (![] : Fin 0 → Fin s.rank)) (wr : s.ReducesTo axes S_) (hu : 0 < S_.numel)
    (e : Host.reduce IntOp.andi
          (cmpf .olt (Host.absf a) (broadcastInDim s ![] w (constant (F := Ideal) S_ .f32 0x7F800000#32)))
          (constantI S_ 1 1#1) wr hu ValueIdx.ix0 = 1#1) :
    ∀ i, ∃ r : ℝ, a i = (r : EReal) := by
  intro i
  have hi := Host.reduce_andi_all _ _ wr hu _ e i
  refine real_of_abs_lt_top (a i) ?_
  rw [← ofBits_inf_f32]
  exact hi

/-- If the precondition's value is 1 then every entry of each of the fourteen inputs is a real number.
    The value at the one index of the rank-0 result is a conjunction of fourteen `i1` words; it is 1 only
    if each word is 1, and each word is one input's test above. -/
theorem real_of_pre [hP : Cert.Pre_finite_inputs.Facts]
    (a0 : FVec Ideal S10000x128 .f32) (a1 : FVec Ideal S10000x10000 .f32) (a2 : FVec Ideal S128x12 .f32) (a3 : FVec Ideal S12 .f32)
    (a4 : FVec Ideal S12x10 .f32) (a5 : FVec Ideal S10 .f32) (a6 : FVec Ideal S10x8 .f32) (a7 : FVec Ideal S8 .f32)
    (a8 : FVec Ideal S8x6 .f32) (a9 : FVec Ideal S6 .f32) (a10 : FVec Ideal S6x4 .f32) (a11 : FVec Ideal S4 .f32)
    (a12 : FVec Ideal S4x8 .f32) (a13 : FVec Ideal S8 .f32)
    (h : Cert.Pre_finite_inputs.fn (F := Ideal) a0 a1 a2 a3 a4 a5 a6 a7 a8 a9 a10 a11 a12 a13 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) ∧ (∀ i, ∃ r : ℝ, a11 i = (r : EReal)) ∧
    (∀ i, ∃ r : ℝ, a12 i = (r : EReal)) ∧ (∀ i, ∃ r : ℝ, a13 i = (r : EReal)) := by
  have h0 := congrFun h ValueIdx.ix0
  dsimp only [fn, fn_part1, fn_part2, fn_part3, fn_part4] at h0
  simp only [andi, IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9, real_of_all a10 _ _ _ e10, real_of_all a11 _ _ _ e11,
    real_of_all a12 _ _ _ e12, real_of_all a13 _ _ _ e13⟩

end Cert.Finite
-- ==== Proof.lean ====
/-
  The proof of `Cert.Claim` for a six-layer linear graph network.

  The kernel program multiplies the six weight matrices together first (and folds each bias through the weights that
  follow it), then makes six passes over the adjacency against a narrow state; the reference applies the six layers
  `h ↦ adj · (h · W) + b` in turn. On real tables the two agree by associativity and distributivity of the matrix
  product; on the extended reals those laws need every entry finite, which is what the precondition gives.

  The three frames: the two kernel programs' are the frame certificates of their pipelines; the reference has no
  kernel, and its frame is its run with the result forgotten. The idealization rewrote nothing, so nothing is to be
  preserved. The value claim: the idealized kernel program ends with its result array at the table `kerNet` of the
  argument arrays (its run with the result named, the seven kernels' output arrays composed); the reference ends at
  `refNet` of its arguments (its run read back one operation at a time); the arguments agree, every entry is real,
  and the two tables are equal.
-/
import proofs.«133166_g5102421148072_cont_8to1c4_848_3_alg».proof.Defs
import proofs.«133166_g5102421148072_cont_8to1c4_848_3_alg».proof.Proof.Gen.Kernel
import proofs.«133166_g5102421148072_cont_8to1c4_848_3_alg».proof.Proof.Gen.Kernel.Frame
import proofs.«133166_g5102421148072_cont_8to1c4_848_3_alg».proof.Proof.Gen.KernelIdeal
import proofs.«133166_g5102421148072_cont_8to1c4_848_3_alg».proof.Proof.Gen.KernelIdeal.Frame
import proofs.«133166_g5102421148072_cont_8to1c4_848_3_alg».proof.Proof.Gen.ReferenceIdeal
import proofs.«133166_g5102421148072_cont_8to1c4_848_3_alg».proof.Proof.Gen.Pre_finite_inputs
import proofs.«133166_g5102421148072_cont_8to1c4_848_3_alg».proof.Proof.Gen.ReferenceIdeal.Run
import proofs.«133166_g5102421148072_cont_8to1c4_848_3_alg».proof.Proof.Gen.ReferenceIdeal.Read
import proofs.«133166_g5102421148072_cont_8to1c4_848_3_alg».proof.Proof.KRun
import proofs.«133166_g5102421148072_cont_8to1c4_848_3_alg».proof.Proof.KChain
import proofs.«133166_g5102421148072_cont_8to1c4_848_3_alg».proof.Proof.RefValue
import proofs.«133166_g5102421148072_cont_8to1c4_848_3_alg».proof.Proof.NetLaw
import proofs.«133166_g5102421148072_cont_8to1c4_848_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Net

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every entry of every argument array is a real number, so the two arrangements of the
    network are one table; the kernel program's result array is the one, the reference's the other. -/
theorem algebraic : Cert.algebraic_KernelIdeal_ReferenceIdeal := by
  intro m ρ m' ρ' hpre hagree
  refine ⟨fun c => unc2 (kerNet (Cert.KernelIdeal.Chain.X m c) (Cert.KernelIdeal.Chain.ADJ m c)
      (Cert.KernelIdeal.Chain.T1 m c) (Cert.KernelIdeal.Chain.B1 m c) (Cert.KernelIdeal.Chain.T2 m c) (Cert.KernelIdeal.Chain.B2 m c)
      (Cert.KernelIdeal.Chain.T3 m c) (Cert.KernelIdeal.Chain.B3 m c) (Cert.KernelIdeal.Chain.T4 m c) (Cert.KernelIdeal.Chain.B4 m c)
      (Cert.KernelIdeal.Chain.T5 m c) (Cert.KernelIdeal.Chain.B5 m c) (Cert.KernelIdeal.Chain.T6 m c) (Cert.KernelIdeal.Chain.B6 m c)), ?_, ?_⟩
  · exact (θ_run Cert.KernelIdeal.defs _ _).mono
      (fun r h c => ⟨(h c).1.trans (Cert.KernelIdeal.Chain.value m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := Cert.Finite.real_of_pre _ _ _ _ _ _ _ _ _ _ _ _ _ _ (hpre c)
    rw [Cert.ReferenceIdeal.Read.val_main_v29_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    funext i
    obtain ⟨a, b, rfl⟩ : ∃ (a : Fin 10000) (b : Fin 8), i = ix2 a b := ⟨i 0, i 1, eq_ix2 i⟩
    rw [Cert.RefValue.ref_at]
    refine Eq.trans ?_ (unc2_at _ a b).symm
    exact (congrFun (congrFun (kerNet_eq_refNet _ _ _ _ _ _ _ _ _ _ _ _ _ _
      (fun p q => h0 (ix2 p q)) (fun p q => h1 (ix2 p q)) (fun p q => h2 (ix2 p q)) (fun p => h3 (ix1 p))
      (fun p q => h4 (ix2 p q)) (fun p => h5 (ix1 p)) (fun p q => h6 (ix2 p q)) (fun p => h7 (ix1 p))
      (fun p q => h8 (ix2 p q)) (fun p => h9 (ix1 p)) (fun p q => h10 (ix2 p q)) (fun p => h11 (ix1 p))
      (fun p q => h12 (ix2 p q)) (fun p => h13 (ix1 p))) a) b).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
